-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v167_0)) (v1 : (c : Dev Cert.KernelIdeal.nD) → Buf (Elt Ideal) ((c.tc : Thread Cert.KernelIdeal.nD Cert.KernelIdeal.τ).loc Cert.KernelIdeal.main_v167_1)) (v2 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v167_0) = v0 c
          ∧ r.2.mem ((c.tc : Thread Cert.KernelIdeal.nD Cert.KernelIdeal.τ).loc Cert.KernelIdeal.main_v167_1) = v1 c
          ∧ r.2.mem ((c.tc : Thread Cert.KernelIdeal.nD Cert.KernelIdeal.τ).loc Cert.KernelIdeal.main_v146) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_v199) = v1 c
          ∧ r.2.mem ((c.tc : Thread Cert.ReferenceIdeal.nD Cert.ReferenceIdeal.τ).loc Cert.ReferenceIdeal.main_v179) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000x32 : Shape := ⟨2, ![1600000, 32]⟩
abbrev S1600000 : Shape := ⟨1, ![1600000]⟩
abbrev S32x32 : Shape := ⟨2, ![32, 32]⟩
abbrev S2x1600000 : Shape := ⟨2, ![2, 1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S1600000 : S_.BroadcastsInDim S1600000 (![] : Fin 0 → Fin S1600000.rank)
  reducesTo_S1600000_S_d0 : S1600000.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32x32 .f32) (main_arg5 : FVec F S32x32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  main_v28

def fn {F : FTy → Type} [FloatOps F] (main_arg0 : FVec F S100000x32 .f32) (main_arg1 : FVec F S1600000x32 .f32) (main_arg2 : FVec F S1600000 .f32) (main_arg3 : FVec F S32x32 .f32) (main_arg4 : FVec F S32x32 .f32) (main_arg5 : FVec F S32x32 .f32) (main_arg6 : IVec S2x1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_v13 main_v16
-- ==== Kernel.lean ====
abbrev S100000x32 : Shape := ⟨2, ![100000, 32]⟩
abbrev S1600000x32 : Shape := ⟨2, ![1600000, 32]⟩
abbrev S1600000 : Shape := ⟨1, ![1600000]⟩
abbrev S32x32 : Shape := ⟨2, ![32, 32]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S8000x32 : Shape := ⟨2, ![8000, 32]⟩

abbrev nBuf : Space → Nat
  | .hbm => 208
  | .vmem => 71
  | .smem => 0
  | _ => 0

abbrev hbmTy0_0 (i : Nat) : BufTy := match i % 128 with
  | 0 => ⟨S100000x32, .f32⟩
  | 1 => ⟨S1600000x32, .f32⟩
  | 2 => ⟨S1600000, .f32⟩
  | 3 => ⟨S32x32, .f32⟩
  | 4 => ⟨S32x32, .f32⟩
  | 5 => ⟨S32x32, .f32⟩
  | 6 => ⟨S2x1600000, .i32⟩
  | 7 => ⟨S1x1600000, .i32⟩
  | 8 => ⟨S1600000, .i32⟩
  | 9 => ⟨S1x1600000, .i32⟩
  | 10 => ⟨S1600000, .i32⟩
  | 11 => ⟨S32x32, .bf16⟩
  | 12 => ⟨S32x32, .f32⟩
  | 13 => ⟨S32x32, .bf16⟩
  | 14 => ⟨S32x32, .bf16⟩
  | 15 => ⟨S32x32, .f32⟩
  | 16 => ⟨S32x32, .bf16⟩
  | 17 => ⟨S32x32, .bf16⟩
  | 18 => ⟨S_, .f32⟩
  | 19 => ⟨S100000x32, .f32⟩
  | 20 => ⟨S1600000x1, .i32⟩
  | 21 => ⟨S100000x32, .f32⟩
  | 22 => ⟨S100000x32, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x32, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x32, .f32⟩
  | 41 => ⟨S1600000x1, .f32⟩
  | 42 => ⟨S1600000x32, .f32⟩
  | 43 => ⟨S1600000x32, .f32⟩
  | 44 => ⟨S1600000x32, .f32⟩
  | 45 => ⟨S1600000x32, .f32⟩
  | 46 => ⟨S1600000x32, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x32, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x32, .f32⟩
  | 65 => ⟨S1600000x1, .f32⟩
  | 66 => ⟨S1600000x32, .f32⟩
  | 67 => ⟨S1600000x32, .f32⟩
  | 68 => ⟨S1600000x32, .f32⟩
  | 69 => ⟨S1600000x32, .f32⟩
  | 70 => ⟨S1600000x32, .f32⟩
  | 71 => ⟨S_, .f32⟩
  | 72 => ⟨S100000x32, .f32⟩
  | 73 => ⟨S1600000x1, .i32⟩
  | 74 => ⟨S100000x32, .f32⟩
  | 75 => ⟨S100000x32, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x32, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x32, .f32⟩
  | 94 => ⟨S1600000x1, .f32⟩
  | 95 => ⟨S1600000x32, .f32⟩
  | 96 => ⟨S1600000x32, .f32⟩
  | 97 => ⟨S1600000x32, .f32⟩
  | 98 => ⟨S1600000x32, .f32⟩
  | 99 => ⟨S1600000x32, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x32, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x32, .f32⟩
  | 118 => ⟨S1600000x1, .f32⟩
  | 119 => ⟨S1600000x32, .f32⟩
  | 120 => ⟨S1600000x32, .f32⟩
  | 121 => ⟨S1600000x32, .f32⟩
  | 122 => ⟨S1600000x32, .f32⟩
  | 123 => ⟨S1600000x32, .f32⟩
  | 124 => ⟨S_, .f32⟩
  | 125 => ⟨S100000x32, .f32⟩
  | 126 => ⟨S1600000x1, .i32⟩
  | 127 => ⟨S100000x32, .f32⟩
  | _ => ⟨S100000x32, .f32⟩

abbrev hbmTy0_1 (i : Nat) : BufTy := match i % 128 with
  | 0 => ⟨S100000x32, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x32, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x32, .f32⟩
  | 19 => ⟨S1600000x1, .f32⟩
  | 20 => ⟨S1600000x32, .f32⟩
  | 21 => ⟨S1600000x32, .f32⟩
  | 22 => ⟨S1600000x32, .f32⟩
  | 23 => ⟨S1600000x32, .f32⟩
  | 24 => ⟨S1600000x32, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x32, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x32, .f32⟩
  | 43 => ⟨S1600000x1, .f32⟩
  | 44 => ⟨S1600000x32, .f32⟩
  | 45 => ⟨S1600000x32, .f32⟩
  | 46 => ⟨S1600000x32, .f32⟩
  | 47 => ⟨S1600000x32, .f32⟩
  | 48 => ⟨S1600000x32, .f32⟩
  | 49 => ⟨S_, .f32⟩
  | 50 => ⟨S100000x32, .f32⟩
  | 51 => ⟨S1600000x1, .i32⟩
  | 52 => ⟨S100000x32, .f32⟩
  | 53 => ⟨S100000x32, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x32, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x32, .f32⟩
  | 72 => ⟨S1600000x1, .f32⟩
  | 73 => ⟨S1600000x32, .f32⟩
  | 74 => ⟨S1600000x32, .f32⟩
  | 75 => ⟨S1600000x32, .f32⟩
  | 76 => ⟨S1600000x32, .f32⟩
  | 77 => ⟨S1600000x32, .f32⟩
  | 78 => ⟨S1600000x32, .f32⟩
  | 79 => ⟨S1600000x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S8000x32, .f32⟩
  | .local _ .vmem, ⟨1, _⟩ => ⟨S8000x32, .f32⟩
  | .local _ .vmem, ⟨2, _⟩ => ⟨S8000x32, .f32⟩
  | .local _ .vmem, ⟨3, _⟩ => ⟨S8000x32, .f32⟩
  | .local _ .vmem, ⟨4, _⟩ => ⟨S8000x32, .f32⟩
  | .local _ .vmem, ⟨5, _⟩ => ⟨S8000x32, .f32⟩
  | .local _ .vmem, ⟨6, _⟩ => ⟨S8000x32, .f32⟩
  | .local _ .vmem, ⟨7, _⟩ => ⟨S8000x32, .f32⟩
  | .local _ .vmem, ⟨8, _⟩ => ⟨S8000x32, .f32⟩
  | .local _ .vmem, ⟨9, _⟩ => ⟨S8000x32, .f32⟩
  | .local _ .vmem, ⟨10, _⟩ => ⟨S8000x32, .f32⟩
  | .local _ .vmem, ⟨11, _⟩ => ⟨S8000x32, .f32⟩
  | .local _ .vmem, ⟨12, _⟩ => ⟨S32x32, .bf16⟩
  | .local _ .vmem, ⟨13, _⟩ => ⟨S32x32, .bf16⟩
  | .local _ .vmem, ⟨14, _⟩ => ⟨S32x32, .bf16⟩
  | .local _ .vmem, ⟨15, _⟩ => ⟨S32x32, .bf16⟩
  | .local _ .vmem, ⟨16, _⟩ => ⟨S8000x32, .f32⟩
  | .local _ .vmem, ⟨17, _⟩ => ⟨S8000x32, .f32⟩
  | .local _ .vmem, ⟨18, _⟩ => ⟨S8000x32, .f32⟩
  | .local _ .vmem, ⟨19, _⟩ => ⟨S8000x32, .f32⟩
  | .local _ .vmem, ⟨20, _⟩ => ⟨S8000x32, .f32⟩
  | .local _ .vmem, ⟨21, _⟩ => ⟨S8000x32, .f32⟩
  | .local _ .vmem, ⟨22, _⟩ => ⟨S8000x32, .f32⟩
  | .local _ .vmem, ⟨23, _⟩ => ⟨S8000x32, .f32⟩
  | .local _ .vmem, ⟨24, _⟩ => ⟨S8000x32, .f32⟩
  | .local _ .vmem, ⟨25, _⟩ => ⟨S8000x32, .f32⟩
  | .local _ .vmem, ⟨26, _⟩ => ⟨S8000x32, .f32⟩
  | .local _ .vmem, ⟨27, _⟩ => ⟨S8000x32, .f32⟩
  | .local _ .vmem, ⟨28, _⟩ => ⟨S8000x32, .f32⟩
  | .local _ .vmem, ⟨29, _⟩ => ⟨S8000x32, .f32⟩
  | .local _ .vmem, ⟨30, _⟩ => ⟨S32x32, .bf16⟩
  | .local _ .vmem, ⟨31, _⟩ => ⟨S32x32, .bf16⟩
  | .local _ .vmem, ⟨32, _⟩ => ⟨S32x32, .bf16⟩
  | .local _ .vmem, ⟨33, _⟩ => ⟨S32x32, .bf16⟩
  | .local _ .vmem, ⟨34, _⟩ => ⟨S8000x32, .f32⟩
  | .local _ .vmem, ⟨35, _⟩ => ⟨S8000x32, .f32⟩
  | .local _ .vmem, ⟨36, _⟩ => ⟨S8000x32, .f32⟩
  | .local _ .vmem, ⟨37, _⟩ => ⟨S8000x32, .f32⟩
  | .local _ .vmem, ⟨38, _⟩ => ⟨S8000x32, .f32⟩
  | .local _ .vmem, ⟨39, _⟩ => ⟨S8000x32, .f32⟩
  | .local _ .vmem, ⟨40, _⟩ => ⟨S8000x32, .f32⟩
  | .local _ .vmem, ⟨41, _⟩ => ⟨S8000x32, .f32⟩
  | .local _ .vmem, ⟨42, _⟩ => ⟨S8000x32, .f32⟩
  | .local _ .vmem, ⟨43, _⟩ => ⟨S8000x32, .f32⟩
  | .local _ .vmem, ⟨44, _⟩ => ⟨S8000x32, .f32⟩
  | .local _ .vmem, ⟨45, _⟩ => ⟨S8000x32, .f32⟩
  | .local _ .vmem, ⟨46, _⟩ => ⟨S8000x32, .f32⟩
  | .local _ .vmem, ⟨47, _⟩ => ⟨S8000x32, .f32⟩
  | .local _ .vmem, ⟨48, _⟩ => ⟨S32x32, .bf16⟩
  | .local _ .vmem, ⟨49, _⟩ => ⟨S32x32, .bf16⟩
  | .local _ .vmem, ⟨50, _⟩ => ⟨S32x32, .bf16⟩
  | .local _ .vmem, ⟨51, _⟩ => ⟨S32x32, .bf16⟩
  | .local _ .vmem, ⟨52, _⟩ => ⟨S8000x32, .f32⟩
  | .local _ .vmem, ⟨53, _⟩ => ⟨S8000x32, .f32⟩
  | .local _ .vmem, ⟨54, _⟩ => ⟨S8000x32, .f32⟩
  | .local _ .vmem, ⟨55, _⟩ => ⟨S8000x32, .f32⟩
  | .local _ .vmem, ⟨56, _⟩ => ⟨S8000x32, .f32⟩
  | .local _ .vmem, ⟨57, _⟩ => ⟨S8000x32, .f32⟩
  | .local _ .vmem, ⟨58, _⟩ => ⟨S8000x32, .f32⟩
  | .local _ .vmem, ⟨59, _⟩ => ⟨S8000x32, .f32⟩
  | .local _ .vmem, ⟨60, _⟩ => ⟨S8000x32, .f32⟩
  | .local _ .vmem, ⟨61, _⟩ => ⟨S8000x32, .f32⟩
  | .local _ .vmem, ⟨62, _⟩ => ⟨S8000x32, .f32⟩
  | .local _ .vmem, ⟨63, _⟩ => ⟨S8000x32, .f32⟩
  | .local _ .vmem, ⟨64, _⟩ => ⟨S8000x32, .f32⟩
  | .local _ .vmem, ⟨65, _⟩ => ⟨S8000x32, .f32⟩
  | .local _ .vmem, ⟨66, _⟩ => ⟨S32x32, .bf16⟩
  | .local _ .vmem, ⟨67, _⟩ => ⟨S8000x32, .f32⟩
  | .local _ .vmem, ⟨68, _⟩ => ⟨S8000x32, .f32⟩
  | .local _ .vmem, ⟨69, _⟩ => ⟨S8000x32, .f32⟩
  | .local _ .vmem, ⟨70, _⟩ => ⟨S8000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_3 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_5 : Ref sig .tc := ⟨.hbm, 56, rfl⟩
abbrev main_v42 : Ref sig .tc := ⟨.hbm, 57, rfl⟩
abbrev main_v43 : Ref sig .tc := ⟨.hbm, 58, rfl⟩
abbrev main_c_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_8 : Ref sig .tc := ⟨.hbm, 76, rfl⟩
abbrev main_v59 : Ref sig .tc := ⟨.hbm, 77, rfl⟩
abbrev main_v60 : Ref sig .tc := ⟨.hbm, 78, rfl⟩
abbrev main_c_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_10 : Ref sig .tc := ⟨.hbm, 85, rfl⟩
abbrev main_v66 : Ref sig .tc := ⟨.hbm, 86, rfl⟩
abbrev main_v67 : Ref sig .tc := ⟨.hbm, 87, rfl⟩
abbrev main_c_11 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_12 : Ref sig .tc := ⟨.hbm, 100, rfl⟩
abbrev main_v79 : Ref sig .tc := ⟨.hbm, 101, rfl⟩
abbrev main_v80 : Ref sig .tc := ⟨.hbm, 102, rfl⟩
abbrev main_c_13 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_c_14 : Ref sig .tc := ⟨.hbm, 109, rfl⟩
abbrev main_v86 : Ref sig .tc := ⟨.hbm, 110, rfl⟩
abbrev main_v87 : Ref sig .tc := ⟨.hbm, 111, rfl⟩
abbrev main_c_15 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_16 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_c_17 : Ref sig .tc := ⟨.hbm, 129, rfl⟩
abbrev main_v103 : Ref sig .tc := ⟨.hbm, 130, rfl⟩
abbrev main_v104 : Ref sig .tc := ⟨.hbm, 131, rfl⟩
abbrev main_c_18 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_c_19 : Ref sig .tc := ⟨.hbm, 138, rfl⟩
abbrev main_v110 : Ref sig .tc := ⟨.hbm, 139, rfl⟩
abbrev main_v111 : Ref sig .tc := ⟨.hbm, 140, rfl⟩
abbrev main_c_20 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_c_21 : Ref sig .tc := ⟨.hbm, 153, rfl⟩
abbrev main_v123 : Ref sig .tc := ⟨.hbm, 154, rfl⟩
abbrev main_v124 : Ref sig .tc := ⟨.hbm, 155, rfl⟩
abbrev main_c_22 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_c_23 : Ref sig .tc := ⟨.hbm, 162, rfl⟩
abbrev main_v130 : Ref sig .tc := ⟨.hbm, 163, rfl⟩
abbrev main_v131 : Ref sig .tc := ⟨.hbm, 164, rfl⟩
abbrev main_c_24 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_cst_25 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_c_26 : Ref sig .tc := ⟨.hbm, 182, rfl⟩
abbrev main_v147 : Ref sig .tc := ⟨.hbm, 183, rfl⟩
abbrev main_v148 : Ref sig .tc := ⟨.hbm, 184, rfl⟩
abbrev main_c_27 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_c_28 : Ref sig .tc := ⟨.hbm, 191, rfl⟩
abbrev main_v154 : Ref sig .tc := ⟨.hbm, 192, rfl⟩
abbrev main_v155 : Ref sig .tc := ⟨.hbm, 193, rfl⟩
abbrev main_c_29 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167_0 : Ref sig .tc := ⟨.hbm, 206, rfl⟩
abbrev main_v167_1 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg2_1 : Ref sig .tc := ⟨.vmem, 59, rfl⟩
abbrev cc6_stg3_0 : Ref sig .tc := ⟨.vmem, 60, rfl⟩
abbrev cc6_stg3_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg3_0 : Ref sig .tc := ⟨.vmem, 67, rfl⟩
abbrev cc7_stg3_1 : Ref sig .tc := ⟨.vmem, 68, rfl⟩
abbrev cc7_stg4_0 : Ref sig .tc := ⟨.vmem, 69, rfl⟩
abbrev cc7_stg4_1 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem6_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem2_1 : DmaSem sig := 59
abbrev cc6_sem3_0 : DmaSem sig := 60
abbrev cc6_sem3_1 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem3_0 : DmaSem sig := 67
abbrev cc7_sem3_1 : DmaSem sig := 68
abbrev cc7_sem4_0 : DmaSem sig := 69
abbrev cc7_sem4_1 : DmaSem sig := 70

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x32 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x32 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x32 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x32 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S8000x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x32 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x32 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S32x32 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S32x32 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S8000x32 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S8000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![200], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S32x32 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S8000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S8000x32 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  transposes_S32x32_S32x32_1_0 : S32x32.Transposes [1, 0] S32x32
  bcast_S_S100000x32 : S_.BroadcastsInDim S100000x32 (![] : Fin 0 → Fin S100000x32.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x32_0_1 : S1600000x1.BroadcastsInDim S1600000x32 (![0, 1] : Fin 2 → Fin S1600000x32.rank)
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  scatter_S100000x32_S1600000x1_S1600000x32_1_0_0_1_wf : ScatterDims.WF S100000x32 S1600000x1 S1600000x32 [1] [0] [0] 1
  gather_S100000x32_S1600000x1_S1600000x32_1_0_n_n_0_1_132_wf : GatherDims.WF S100000x32 S1600000x1 S1600000x32 [1] [0] [] [0] [] 1 ![1, 32]
  gather_S1600000x32_S1600000x1_S1600000x32_1_0_n_n_0_1_132_wf : GatherDims.WF S1600000x32 S1600000x1 S1600000x32 [1] [0] [] [0] [] 1 ![1, 32]
  dot_S8000x32_S32x32_S8000x32_1_0_0_1_n_n_wf : DotDims.WF S8000x32 S32x32 S8000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S1600000x32.size a
  hwx0_0 : ∀ i : grid0.Coords, EltTy.bits .f32 = 32 ∨ (Rect.block (s := S1600000x32) S8000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S1600000x32.size a
  hwx0_1 : ∀ i : grid0.Coords, EltTy.bits .f32 = 32 ∨ (Rect.block (s := S1600000x32) S8000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S1600000x32.size a
  hwx0_2 : ∀ i : grid0.Coords, EltTy.bits .f32 = 32 ∨ (Rect.block (s := S1600000x32) S8000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x32.size a ≤ S1600000x32.size a
  hwx0_3 : ∀ i : grid0.Coords, EltTy.bits .f32 = 32 ∨ (Rect.block (s := S1600000x32) S8000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S1600000x32.size a
  hwx1_0 : ∀ i : grid1.Coords, EltTy.bits .f32 = 32 ∨ (Rect.block (s := S1600000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S1600000x32.size a
  hwx1_1 : ∀ i : grid1.Coords, EltTy.bits .f32 = 32 ∨ (Rect.block (s := S1600000x32) S8000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .bf16 = 32 ∨ (Rect.block (s := S32x32) S32x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .bf16 = 32 ∨ (Rect.block (s := S32x32) S32x32.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .bf16 = 32 ∨ (Rect.block (s := S32x32) S32x32.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .bf16 = 32 ∨ (Rect.block (s := S32x32) S32x32.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x32.size a ≤ S1600000x32.size a
  hwx1_6 : ∀ i : grid1.Coords, EltTy.bits .f32 = 32 ∨ (Rect.block (s := S1600000x32) S8000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x32.size a ≤ S1600000x32.size a
  hwx2_0 : ∀ i : grid2.Coords, EltTy.bits .f32 = 32 ∨ (Rect.block (s := S1600000x32) S8000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x32.size a ≤ S1600000x32.size a
  hwx2_1 : ∀ i : grid2.Coords, EltTy.bits .f32 = 32 ∨ (Rect.block (s := S1600000x32) S8000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x32.size a ≤ S1600000x32.size a
  hwx2_2 : ∀ i : grid2.Coords, EltTy.bits .f32 = 32 ∨ (Rect.block (s := S1600000x32) S8000x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x32.size a ≤ S1600000x32.size a
  hwx2_3 : ∀ i : grid2.Coords, EltTy.bits .f32 = 32 ∨ (Rect.block (s := S1600000x32) S8000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x32.size a ≤ S1600000x32.size a
  hwx3_0 : ∀ i : grid3.Coords, EltTy.bits .f32 = 32 ∨ (Rect.block (s := S1600000x32) S8000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x32.size a ≤ S1600000x32.size a
  hwx3_1 : ∀ i : grid3.Coords, EltTy.bits .f32 = 32 ∨ (Rect.block (s := S1600000x32) S8000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x32.size a ≤ S32x32.size a
  hwx3_2 : ∀ i : grid3.Coords, EltTy.bits .bf16 = 32 ∨ (Rect.block (s := S32x32) S32x32.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x32.size a ≤ S32x32.size a
  hwx3_3 : ∀ i : grid3.Coords, EltTy.bits .bf16 = 32 ∨ (Rect.block (s := S32x32) S32x32.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x32.size a ≤ S32x32.size a
  hwx3_4 : ∀ i : grid3.Coords, EltTy.bits .bf16 = 32 ∨ (Rect.block (s := S32x32) S32x32.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x32.size a ≤ S32x32.size a
  hwx3_5 : ∀ i : grid3.Coords, EltTy.bits .bf16 = 32 ∨ (Rect.block (s := S32x32) S32x32.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8000x32.size a ≤ S1600000x32.size a
  hwx3_6 : ∀ i : grid3.Coords, EltTy.bits .f32 = 32 ∨ (Rect.block (s := S1600000x32) S8000x32.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x32.size a ≤ S1600000x32.size a
  hwx4_0 : ∀ i : grid4.Coords, EltTy.bits .f32 = 32 ∨ (Rect.block (s := S1600000x32) S8000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x32.size a ≤ S1600000x32.size a
  hwx4_1 : ∀ i : grid4.Coords, EltTy.bits .f32 = 32 ∨ (Rect.block (s := S1600000x32) S8000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x32.size a ≤ S1600000x32.size a
  hwx4_2 : ∀ i : grid4.Coords, EltTy.bits .f32 = 32 ∨ (Rect.block (s := S1600000x32) S8000x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x32.size a ≤ S1600000x32.size a
  hwx4_3 : ∀ i : grid4.Coords, EltTy.bits .f32 = 32 ∨ (Rect.block (s := S1600000x32) S8000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x32.size a ≤ S1600000x32.size a
  hwx5_0 : ∀ i : grid5.Coords, EltTy.bits .f32 = 32 ∨ (Rect.block (s := S1600000x32) S8000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x32.size a ≤ S1600000x32.size a
  hwx5_1 : ∀ i : grid5.Coords, EltTy.bits .f32 = 32 ∨ (Rect.block (s := S1600000x32) S8000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x32.size a ≤ S32x32.size a
  hwx5_2 : ∀ i : grid5.Coords, EltTy.bits .bf16 = 32 ∨ (Rect.block (s := S32x32) S32x32.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x32.size a ≤ S32x32.size a
  hwx5_3 : ∀ i : grid5.Coords, EltTy.bits .bf16 = 32 ∨ (Rect.block (s := S32x32) S32x32.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S32x32.size a ≤ S32x32.size a
  hwx5_4 : ∀ i : grid5.Coords, EltTy.bits .bf16 = 32 ∨ (Rect.block (s := S32x32) S32x32.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S32x32.size a ≤ S32x32.size a
  hwx5_5 : ∀ i : grid5.Coords, EltTy.bits .bf16 = 32 ∨ (Rect.block (s := S32x32) S32x32.size (cc5_transform_5 i) (hinb5_5 i)).WholeWords (EltTy.packing .bf16)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S8000x32.size a ≤ S1600000x32.size a
  hwx5_6 : ∀ i : grid5.Coords, EltTy.bits .f32 = 32 ∨ (Rect.block (s := S1600000x32) S8000x32.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x32.size a ≤ S1600000x32.size a
  hwx6_0 : ∀ i : grid6.Coords, EltTy.bits .f32 = 32 ∨ (Rect.block (s := S1600000x32) S8000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x32.size a ≤ S1600000x32.size a
  hwx6_1 : ∀ i : grid6.Coords, EltTy.bits .f32 = 32 ∨ (Rect.block (s := S1600000x32) S8000x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8000x32.size a ≤ S1600000x32.size a
  hwx6_2 : ∀ i : grid6.Coords, EltTy.bits .f32 = 32 ∨ (Rect.block (s := S1600000x32) S8000x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S8000x32.size a ≤ S1600000x32.size a
  hwx6_3 : ∀ i : grid6.Coords, EltTy.bits .f32 = 32 ∨ (Rect.block (s := S1600000x32) S8000x32.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x32.size a ≤ S1600000x32.size a
  hwx7_0 : ∀ i : grid7.Coords, EltTy.bits .f32 = 32 ∨ (Rect.block (s := S1600000x32) S8000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x32.size a ≤ S1600000x32.size a
  hwx7_1 : ∀ i : grid7.Coords, EltTy.bits .f32 = 32 ∨ (Rect.block (s := S1600000x32) S8000x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S32x32.size a ≤ S32x32.size a
  hwx7_2 : ∀ i : grid7.Coords, EltTy.bits .bf16 = 32 ∨ (Rect.block (s := S32x32) S32x32.size (cc7_transform_2 i) (hinb7_2 i)).WholeWords (EltTy.packing .bf16)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S8000x32.size a ≤ S1600000x32.size a
  hwx7_3 : ∀ i : grid7.Coords, EltTy.bits .f32 = 32 ∨ (Rect.block (s := S1600000x32) S8000x32.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S8000x32.size a ≤ S1600000x32.size a
  hwx7_4 : ∀ i : grid7.Coords, EltTy.bits .f32 = 32 ∨ (Rect.block (s := S1600000x32) S8000x32.size (cc7_transform_4 i) (hinb7_4 i)).WholeWords (EltTy.packing .f32)

variable [Facts₀]

def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def gather_S1600000x32_S1600000x1_S1600000x32_1_0_n_n_0_1_132 : GatherDims S1600000x32 S1600000x1 S1600000x32 where
  offsetDims := [1]
  collapsedSliceDims := [0]
  operandBatchingDims := []
  startIndicesBatchingDims := []
  startIndexMap := [0]
  indexVectorDim := 1
  sliceSizes := ![1, 32]
  wf := gather_S1600000x32_S1600000x1_S1600000x32_1_0_n_n_0_1_132_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf

abbrev win0_0 : Pipeline.Window sig grid0 :=
  Pipeline.Window.ofSpec (Memref.whole main_arg1) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S8000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S8000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S8000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v54) S8000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S8000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S8000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v78) S8000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v95) S8000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v97) S8000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S32x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S32x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v7) S32x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v9) S32x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v98) S8000x32.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v98) S8000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v119) S8000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v121) S8000x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v122) S8000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v139) S8000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v141) S8000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v4) S32x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v6) S32x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v7) S32x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v9) S32x32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v142) S8000x32.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v142) S8000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v163) S8000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v165) S8000x32.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v166) S8000x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v166) S8000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v142) S8000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v10) S32x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v167_0) S8000x32.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v167_1) S8000x32.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x32 : Shape := ⟨2, ![100000, 32]⟩
abbrev S1600000x32 : Shape := ⟨2, ![1600000, 32]⟩
abbrev S1600000 : Shape := ⟨1, ![1600000]⟩
abbrev S32x32 : Shape := ⟨2, ![32, 32]⟩
abbrev S2x1600000 : Shape := ⟨2, ![2, 1600000]⟩
abbrev S1x1600000 : Shape := ⟨2, ![1, 1600000]⟩
abbrev S1600000x1 : Shape := ⟨2, ![1600000, 1]⟩
abbrev S_ : Shape := ⟨0, ![]⟩

abbrev nBuf : Space → Nat
  | .hbm => 245
  | .vmem => 0
  | .smem => 0
  | _ => 0

abbrev hbmTy0_0 (i : Nat) : BufTy := match i % 128 with
  | 0 => ⟨S100000x32, .f32⟩
  | 1 => ⟨S1600000x32, .f32⟩
  | 2 => ⟨S1600000, .f32⟩
  | 3 => ⟨S32x32, .f32⟩
  | 4 => ⟨S32x32, .f32⟩
  | 5 => ⟨S32x32, .f32⟩
  | 6 => ⟨S2x1600000, .i32⟩
  | 7 => ⟨S1x1600000, .i32⟩
  | 8 => ⟨S1600000, .i32⟩
  | 9 => ⟨S1x1600000, .i32⟩
  | 10 => ⟨S1600000, .i32⟩
  | 11 => ⟨S1600000x1, .f32⟩
  | 12 => ⟨S_, .f32⟩
  | 13 => ⟨S100000x32, .f32⟩
  | 14 => ⟨S1600000x1, .i32⟩
  | 15 => ⟨S100000x32, .f32⟩
  | 16 => ⟨S100000x32, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x32, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x32, .f32⟩
  | 35 => ⟨S1600000x32, .f32⟩
  | 36 => ⟨S1600000x32, .f32⟩
  | 37 => ⟨S1600000x32, .f32⟩
  | 38 => ⟨S1600000x32, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x32, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x32, .f32⟩
  | 57 => ⟨S1600000x32, .f32⟩
  | 58 => ⟨S1600000x32, .f32⟩
  | 59 => ⟨S1600000x32, .f32⟩
  | 60 => ⟨S1600000x32, .f32⟩
  | 61 => ⟨S1600000x32, .f32⟩
  | 62 => ⟨S32x32, .f32⟩
  | 63 => ⟨S1600000x32, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x32, .f32⟩
  | 73 => ⟨S1600000x32, .f32⟩
  | 74 => ⟨S1600000x32, .f32⟩
  | 75 => ⟨S1600000x32, .f32⟩
  | 76 => ⟨S1600000x32, .f32⟩
  | 77 => ⟨S32x32, .f32⟩
  | 78 => ⟨S1600000x32, .f32⟩
  | 79 => ⟨S1600000x32, .f32⟩
  | 80 => ⟨S_, .f32⟩
  | 81 => ⟨S100000x32, .f32⟩
  | 82 => ⟨S1600000x1, .i32⟩
  | 83 => ⟨S100000x32, .f32⟩
  | 84 => ⟨S100000x32, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x32, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x32, .f32⟩
  | 103 => ⟨S1600000x32, .f32⟩
  | 104 => ⟨S1600000x32, .f32⟩
  | 105 => ⟨S1600000x32, .f32⟩
  | 106 => ⟨S1600000x32, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x32, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x32, .f32⟩
  | 125 => ⟨S1600000x32, .f32⟩
  | 126 => ⟨S1600000x32, .f32⟩
  | 127 => ⟨S1600000x32, .f32⟩
  | _ => ⟨S100000x32, .f32⟩

abbrev hbmTy0_1 (i : Nat) : BufTy := match i % 128 with
  | 0 => ⟨S1600000x32, .f32⟩
  | 1 => ⟨S1600000x32, .f32⟩
  | 2 => ⟨S32x32, .f32⟩
  | 3 => ⟨S1600000x32, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x32, .f32⟩
  | 13 => ⟨S1600000x32, .f32⟩
  | 14 => ⟨S1600000x32, .f32⟩
  | 15 => ⟨S1600000x32, .f32⟩
  | 16 => ⟨S1600000x32, .f32⟩
  | 17 => ⟨S32x32, .f32⟩
  | 18 => ⟨S1600000x32, .f32⟩
  | 19 => ⟨S1600000x32, .f32⟩
  | 20 => ⟨S_, .f32⟩
  | 21 => ⟨S100000x32, .f32⟩
  | 22 => ⟨S1600000x1, .i32⟩
  | 23 => ⟨S100000x32, .f32⟩
  | 24 => ⟨S100000x32, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x32, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x32, .f32⟩
  | 43 => ⟨S1600000x32, .f32⟩
  | 44 => ⟨S1600000x32, .f32⟩
  | 45 => ⟨S1600000x32, .f32⟩
  | 46 => ⟨S1600000x32, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x32, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x32, .f32⟩
  | 65 => ⟨S1600000x32, .f32⟩
  | 66 => ⟨S1600000x32, .f32⟩
  | 67 => ⟨S1600000x32, .f32⟩
  | 68 => ⟨S1600000x32, .f32⟩
  | 69 => ⟨S1600000x32, .f32⟩
  | 70 => ⟨S32x32, .f32⟩
  | 71 => ⟨S1600000x32, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x32, .f32⟩
  | 81 => ⟨S1600000x32, .f32⟩
  | 82 => ⟨S1600000x32, .f32⟩
  | 83 => ⟨S1600000x32, .f32⟩
  | 84 => ⟨S1600000x32, .f32⟩
  | 85 => ⟨S32x32, .f32⟩
  | 86 => ⟨S1600000x32, .f32⟩
  | 87 => ⟨S1600000x32, .f32⟩
  | 88 => ⟨S_, .f32⟩
  | 89 => ⟨S100000x32, .f32⟩
  | 90 => ⟨S1600000x1, .i32⟩
  | 91 => ⟨S100000x32, .f32⟩
  | 92 => ⟨S100000x32, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x32, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x32, .f32⟩
  | 111 => ⟨S1600000x32, .f32⟩
  | 112 => ⟨S1600000x32, .f32⟩
  | 113 => ⟨S1600000x32, .f32⟩
  | 114 => ⟨S1600000x32, .f32⟩
  | 115 => ⟨S1600000x32, .f32⟩
  | 116 => ⟨S1600000x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_7 : Ref sig .tc := ⟨.hbm, 64, rfl⟩
abbrev main_v48 : Ref sig .tc := ⟨.hbm, 65, rfl⟩
abbrev main_v49 : Ref sig .tc := ⟨.hbm, 66, rfl⟩
abbrev main_c_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_10 : Ref sig .tc := ⟨.hbm, 85, rfl⟩
abbrev main_v66 : Ref sig .tc := ⟨.hbm, 86, rfl⟩
abbrev main_v67 : Ref sig .tc := ⟨.hbm, 87, rfl⟩
abbrev main_c_11 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_12 : Ref sig .tc := ⟨.hbm, 94, rfl⟩
abbrev main_v73 : Ref sig .tc := ⟨.hbm, 95, rfl⟩
abbrev main_v74 : Ref sig .tc := ⟨.hbm, 96, rfl⟩
abbrev main_c_13 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_14 : Ref sig .tc := ⟨.hbm, 107, rfl⟩
abbrev main_v84 : Ref sig .tc := ⟨.hbm, 108, rfl⟩
abbrev main_v85 : Ref sig .tc := ⟨.hbm, 109, rfl⟩
abbrev main_c_15 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_c_16 : Ref sig .tc := ⟨.hbm, 116, rfl⟩
abbrev main_v91 : Ref sig .tc := ⟨.hbm, 117, rfl⟩
abbrev main_v92 : Ref sig .tc := ⟨.hbm, 118, rfl⟩
abbrev main_c_17 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_c_18 : Ref sig .tc := ⟨.hbm, 132, rfl⟩
abbrev main_v105 : Ref sig .tc := ⟨.hbm, 133, rfl⟩
abbrev main_v106 : Ref sig .tc := ⟨.hbm, 134, rfl⟩
abbrev main_c_19 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_20 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_c_21 : Ref sig .tc := ⟨.hbm, 153, rfl⟩
abbrev main_v123 : Ref sig .tc := ⟨.hbm, 154, rfl⟩
abbrev main_v124 : Ref sig .tc := ⟨.hbm, 155, rfl⟩
abbrev main_c_22 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_c_23 : Ref sig .tc := ⟨.hbm, 162, rfl⟩
abbrev main_v130 : Ref sig .tc := ⟨.hbm, 163, rfl⟩
abbrev main_v131 : Ref sig .tc := ⟨.hbm, 164, rfl⟩
abbrev main_c_24 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_c_25 : Ref sig .tc := ⟨.hbm, 175, rfl⟩
abbrev main_v141 : Ref sig .tc := ⟨.hbm, 176, rfl⟩
abbrev main_v142 : Ref sig .tc := ⟨.hbm, 177, rfl⟩
abbrev main_c_26 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_c_27 : Ref sig .tc := ⟨.hbm, 184, rfl⟩
abbrev main_v148 : Ref sig .tc := ⟨.hbm, 185, rfl⟩
abbrev main_v149 : Ref sig .tc := ⟨.hbm, 186, rfl⟩
abbrev main_c_28 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_c_29 : Ref sig .tc := ⟨.hbm, 200, rfl⟩
abbrev main_v162 : Ref sig .tc := ⟨.hbm, 201, rfl⟩
abbrev main_v163 : Ref sig .tc := ⟨.hbm, 202, rfl⟩
abbrev main_c_30 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_cst_31 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_c_32 : Ref sig .tc := ⟨.hbm, 221, rfl⟩
abbrev main_v180 : Ref sig .tc := ⟨.hbm, 222, rfl⟩
abbrev main_v181 : Ref sig .tc := ⟨.hbm, 223, rfl⟩
abbrev main_c_33 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_c_34 : Ref sig .tc := ⟨.hbm, 230, rfl⟩
abbrev main_v187 : Ref sig .tc := ⟨.hbm, 231, rfl⟩
abbrev main_v188 : Ref sig .tc := ⟨.hbm, 232, rfl⟩
abbrev main_c_35 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S1600000 : S_.BroadcastsInDim S1600000 (![] : Fin 0 → Fin S1600000.rank)
  bcast_S1600000x1_S1600000x32_0_1 : S1600000x1.BroadcastsInDim S1600000x32 (![0, 1] : Fin 2 → Fin S1600000x32.rank)
  transposes_S32x32_S32x32_1_0 : S32x32.Transposes [1, 0] S32x32
  scatter_S100000x32_S1600000x1_S1600000x32_1_0_0_1_wf : ScatterDims.WF S100000x32 S1600000x1 S1600000x32 [1] [0] [0] 1
  gather_S100000x32_S1600000x1_S1600000x32_1_0_n_n_0_1_132_wf : GatherDims.WF S100000x32 S1600000x1 S1600000x32 [1] [0] [] [0] [] 1 ![1, 32]
  gather_S1600000x32_S1600000x1_S1600000x32_1_0_n_n_0_1_132_wf : GatherDims.WF S1600000x32 S1600000x1 S1600000x32 [1] [0] [] [0] [] 1 ![1, 32]
  dot_S1600000x32_S32x32_S1600000x32_1_0_0_1_n_n_wf : DotDims.WF S1600000x32 S32x32 S1600000x32 [1] [0] [0] [1] [] []

variable [Facts₀]

def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def gather_S1600000x32_S1600000x1_S1600000x32_1_0_n_n_0_1_132 : GatherDims S1600000x32 S1600000x1 S1600000x32 where
  offsetDims := [1]
  collapsedSliceDims := [0]
  operandBatchingDims := []
  startIndicesBatchingDims := []
  startIndexMap := [0]
  indexVectorDim := 1
  sliceSizes := ![1, 32]
  wf := gather_S1600000x32_S1600000x1_S1600000x32_1_0_n_n_0_1_132_wf
def dot_S1600000x32_S32x32_S1600000x32_1_0_0_1_n_n : DotDims S1600000x32 S32x32 S1600000x32 where
  lhsContracting := [1]
  rhsContracting := [0]
  lhsNonContracting := [0]
  rhsNonContracting := [1]
  lhsBatch := []
  rhsBatch := []
  wf := dot_S1600000x32_S32x32_S1600000x32_1_0_0_1_n_n_wf

class Facts : Prop extends Facts₀ where

variable [Facts]
-- ==== Proof.KernelRun.lean ====
/-
  The kernel program's run with its results named.

  Every weakly fair execution of the program terminates, nothing faulting; each of the three result buffers ends at
  the contents the last segment boundary gives it (the fold of the host stretches and the eight pipelines from the
  launch memory), and the seven argument arrays end as launched.  The segments, the launch and the last thread state
  are the frame's own; only the final reading differs: the three result buffers are read beside the arguments.
-/
import proofs.«110563_j43284680409676_1_alg».proof.Defs
import proofs.«110563_j43284680409676_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v167_0) = W15 m ρ c (Proc.devRef .tc main_v167_0)
      ∧ r.2.mem ((c.tc : Thread nD τ).loc main_v167_1) = W15 m ρ c (Proc.devRef .tc main_v167_1)
      ∧ r.2.mem ((c.tc : Thread nD τ).loc main_v146) = W15 m ρ c (Proc.devRef .tc main_v146)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v167_0 (by decide)),
       h c _ (mem_uc main_v167_1 (by decide)),
       h c _ (mem_uc main_v146 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c)⟩)

end Cert.KernelIdeal.Named

end
-- ==== Proof.Spec.lean ====
/-
  The network, as functions of whole arrays on the extended reals.

  E = 1 600 000 edges, N = 100 000 nodes, C = 32 channels.  An edge table Z (E × C) is scattered onto the nodes by
  the source ids and taken away from the data D: the residual R = D − Σ_{e : src e = n} Z e.  The projection step
  adds to Z the weighted difference of the residual's rows at the two ends of every edge; the MLP step sends the
  weighted difference and the weighted destination rows of Z through two tied tanh layers.  Both steps are written
  twice: as the reference arranges them (the weight multiplied into a difference of gathered rows) and as the
  kernel arranges them (the weight multiplied into each gathered table first, the tables combined afterwards).
-/
import proofs.«110563_j43284680409676_1_alg».proof.KernelIdeal
import proofs.«110563_j43284680409676_1_alg».proof.Proof.Gen.KernelIdeal
import Idealize.ShloMosaic.PureOps.Ideal
import Idealize.ShloMosaic.PureOps.Ideal.Laws

noncomputable section

namespace Cert.Spec

open Idealize.ShloMosaic Cert.KernelIdeal Cert.KernelIdeal.Facts₀

/-- An edge table, E × C. -/
abbrev EC := FVec Ideal S1600000x32 .f32
/-- A node table, N × C. -/
abbrev NC := FVec Ideal S100000x32 .f32
/-- One node id per edge. -/
abbrev IV := IVec S1600000 32
/-- One weight per edge. -/
abbrev EW := FVec Ideal S1600000 .f32
/-- A C × C weight table. -/
abbrev WF := FVec Ideal S32x32 .f32
/-- The same table in the narrow format. -/
abbrev WB := FVec Ideal S32x32 .bf16

/-- Node ids made ready for a gather out of `n` rows: a negative id has `n` added; laid as a column. -/
def wrapTo (n : BitVec 32) (v : IV) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 n))) v)

/-- The rows of a node table at the given ids, one per edge. -/
def nodeRows (x : NC) (v : IV) : EC :=
  Host.gather gather_S100000x32_S1600000x1_S1600000x32_1_0_n_n_0_1_132 x (wrapTo 100000#32 v)

/-- The rows of an edge table at the given ids, one per edge. -/
def edgeRows (x : EC) (v : IV) : EC :=
  Host.gather gather_S1600000x32_S1600000x1_S1600000x32_1_0_n_n_0_1_132 x (wrapTo 1600000#32 v)

/-- The edge weights laid across the channels. -/
def spread (ew : EW) : EC :=
  broadcastInDim S1600000x32 ![0, 1] bcast_S1600000x1_S1600000x32_0_1
    (broadcastInDim S1600000x1 ![0] bcast_S1600000_S1600000x1_0 ew)

/-- The residual D − (Z summed onto the nodes by source id). -/
def residual (D : NC) (src : IV) (Z : EC) : NC :=
  subf D (Host.scatterAdd scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 src) Z)

/-- The plain product of an edge table with a C × C table. -/
def times {φ : FTy} (A : EC) (W : FVec Ideal S32x32 φ) : EC :=
  Host.dotGeneral (F := Ideal) (DotDims.plain 1600000 32 32) none A W

/-! ## As the kernels compute -/

/-- The combine kernel on whole tables: (a + b) − c. -/
def combine (a b c : EC) : EC := subf (addf a b) c

/-- The MLP kernel on whole tables: tanh((gs − gd)·wg)·wgt + tanh(gd·ws)·wst. -/
def mlp (gs gd : EC) (wg wgt ws wst : WB) : EC :=
  addf (times (Host.tanh (times (subf gs gd) wg)) wgt) (times (Host.tanh (times gd ws)) wst)

/-- One projection step as the kernel's program arranges it. -/
def projK (D : NC) (src dst : IV) (ew : EW) (Z : EC) : EC :=
  combine Z (mulf (spread ew) (nodeRows (residual D src Z) src)) (mulf (spread ew) (nodeRows (residual D src Z) dst))

/-- One MLP step as the kernel's program arranges it. -/
def stepK (src dst : IV) (ew : EW) (wg wgt ws wst : WB) (Z : EC) : EC :=
  mlp (mulf (spread ew) (edgeRows Z src)) (mulf (spread ew) (edgeRows Z dst)) wg wgt ws wst

/-! ## As the reference computes -/

/-- One projection step as the reference arranges it. -/
def projR (D : NC) (src dst : IV) (ew : EW) (Z : EC) : EC :=
  addf Z (mulf (spread ew) (subf (nodeRows (residual D src Z) src) (nodeRows (residual D src Z) dst)))

/-- One MLP step as the reference arranges it. -/
def stepR (src dst : IV) (ew : EW) (Wg Ws : WF) (Z : EC) : EC :=
  addf (times (Host.tanh (times (mulf (spread ew) (subf (edgeRows Z src) (edgeRows Z dst))) Wg))
          (transpose S32x32 [1, 0] Wg transposes_S32x32_S32x32_1_0))
       (times (Host.tanh (times (mulf (spread ew) (edgeRows Z dst)) Ws))
          (transpose S32x32 [1, 0] Ws transposes_S32x32_S32x32_1_0))

/-! ## Three rounds, then the embedding -/

/-- The last MLP output after three rounds, kernel arrangement. -/
def lastK (D : NC) (src dst : IV) (ew : EW) (wg wgt ws wst : WB) (xE : EC) : EC :=
  stepK src dst ew wg wgt ws wst (projK D src dst ew
    (stepK src dst ew wg wgt ws wst (projK D src dst ew
      (stepK src dst ew wg wgt ws wst (projK D src dst ew xE)))))

/-- The last MLP output after three rounds, reference arrangement. -/
def lastR (D : NC) (src dst : IV) (ew : EW) (Wg Ws : WF) (xE : EC) : EC :=
  stepR src dst ew Wg Ws (projR D src dst ew
    (stepR src dst ew Wg Ws (projR D src dst ew
      (stepR src dst ew Wg Ws (projR D src dst ew xE)))))

end Cert.Spec

end
-- ==== Proof.FoldHost.lean ====
/-
  The host stretches between the pipelines, read as functions of whole arrays.

  Each stretch of host operations takes the buffer contents W it is entered with to new contents.  For the buffers
  a later segment reads, the new contents are named here as the specification's functions of W's contents: the two
  id rows cut out of the edge table, the weight tables narrowed (and transposed), the residual D − Σ Z, and the
  gathered rows multiplied by the edge weights.  A buffer a stretch does not write keeps its contents.
-/
import proofs.«110563_j43284680409676_1_alg».proof.Proof.Gen.KernelIdeal.Launch
import proofs.«110563_j43284680409676_1_alg».proof.Proof.Spec
import Idealize.ShloMosaic.Lib.StableHlo.Run

set_option maxRecDepth 16384

noncomputable section

namespace Cert.Spec

open Idealize.ShloMosaic Cert.KernelIdeal Cert.KernelIdeal.Facts₀

/-- The source ids: row 0 of the 2 × E id table, as a vector. -/
def srcIds (ei : IVec S2x1600000 32) : IV :=
  shapeCast S1600000 (extractStridedSlice S1x1600000 ![0, 0] ei slices_S2x1600000_S1x1600000_0_0) shapeCasts_S1x1600000_S1600000

/-- The destination ids: row 1 of the id table. -/
def dstIds (ei : IVec S2x1600000 32) : IV :=
  shapeCast S1600000 (extractStridedSlice S1x1600000 ![1, 0] ei slices_S2x1600000_S1x1600000_1_0) shapeCasts_S1x1600000_S1600000

/-- A table converted to the narrow float format (on the extended reals: the same numbers). -/
def narrow {s : Shape} (x : FVec Ideal s .f32) : FVec Ideal s .bf16 := truncf .bf16 x bitsLt_bf16_f32

/-- A C × C table transposed. -/
def flip (W : WF) : WF := transpose S32x32 [1, 0] W transposes_S32x32_S32x32_1_0

end Cert.Spec

namespace Cert.KernelIdeal.Host

open Idealize.ShloMosaic Idealize.ShloMosaic.TcCoe Idealize.SL.Sem Idealize.ShloMosaic.StableHlo
open Cert.KernelIdeal Cert.KernelIdeal.Gen Cert.Spec

/-! ## What each stretch writes, and that it leaves every other buffer alone -/

/-- The buffers stretch 0 writes. -/
abbrev written0 : List (Ref sig .tc) := [main_v0, main_v1, main_v2, main_v3, main_v4, main_v5, main_v6, main_v7, main_v8, main_v9, main_v10, main_cst, main_v11, main_v12, main_v13, main_v14, main_c, main_v15, main_v16, main_c_0, main_v17, main_v18, main_v19, main_v20, main_v21, main_c_1, main_v22, main_v23, main_c_2, main_v24, main_v25, main_v26, main_v27, main_v28, main_v29, main_v30, main_v31, main_v32, main_v33]
theorem writes0 : (hostOps0 (F := Ideal)).Forall fun op => op.writes ⊆ (written0.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer stretch 0 does not write keeps its contents through it. -/
theorem keep0 (W : Valuation τ sig (Elt Ideal)) (r : Ref sig .tc) (h : r ∉ written0) :
    after (hostOps0 (F := Ideal)) W (Proc.devRef .tc r) = W (Proc.devRef .tc r) :=
  after_of_writes_sub _ _ writes0 h

/-- The buffers stretch 1 writes. -/
abbrev written1 : List (Ref sig .tc) := [main_c_3, main_v35, main_v36, main_c_4, main_v37, main_v38, main_v39, main_v40, main_v41, main_c_5, main_v42, main_v43, main_c_6, main_v44, main_v45, main_v46, main_v47, main_v48, main_v49, main_v50, main_v51, main_v52, main_v53]
theorem writes1 : (hostOps1 (F := Ideal)).Forall fun op => op.writes ⊆ (written1.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer stretch 1 does not write keeps its contents through it. -/
theorem keep1 (W : Valuation τ sig (Elt Ideal)) (r : Ref sig .tc) (h : r ∉ written1) :
    after (hostOps1 (F := Ideal)) W (Proc.devRef .tc r) = W (Proc.devRef .tc r) :=
  after_of_writes_sub _ _ writes1 h

/-- The buffers stretch 2 writes. -/
abbrev written2 : List (Ref sig .tc) := [main_cst_7, main_v55, main_v56, main_v57, main_v58, main_c_8, main_v59, main_v60, main_c_9, main_v61, main_v62, main_v63, main_v64, main_v65, main_c_10, main_v66, main_v67, main_c_11, main_v68, main_v69, main_v70, main_v71, main_v72, main_v73, main_v74, main_v75, main_v76, main_v77]
theorem writes2 : (hostOps2 (F := Ideal)).Forall fun op => op.writes ⊆ (written2.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer stretch 2 does not write keeps its contents through it. -/
theorem keep2 (W : Valuation τ sig (Elt Ideal)) (r : Ref sig .tc) (h : r ∉ written2) :
    after (hostOps2 (F := Ideal)) W (Proc.devRef .tc r) = W (Proc.devRef .tc r) :=
  after_of_writes_sub _ _ writes2 h

/-- The buffers stretch 3 writes. -/
abbrev written3 : List (Ref sig .tc) := [main_c_12, main_v79, main_v80, main_c_13, main_v81, main_v82, main_v83, main_v84, main_v85, main_c_14, main_v86, main_v87, main_c_15, main_v88, main_v89, main_v90, main_v91, main_v92, main_v93, main_v94, main_v95, main_v96, main_v97]
theorem writes3 : (hostOps3 (F := Ideal)).Forall fun op => op.writes ⊆ (written3.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer stretch 3 does not write keeps its contents through it. -/
theorem keep3 (W : Valuation τ sig (Elt Ideal)) (r : Ref sig .tc) (h : r ∉ written3) :
    after (hostOps3 (F := Ideal)) W (Proc.devRef .tc r) = W (Proc.devRef .tc r) :=
  after_of_writes_sub _ _ writes3 h

/-- The buffers stretch 4 writes. -/
abbrev written4 : List (Ref sig .tc) := [main_cst_16, main_v99, main_v100, main_v101, main_v102, main_c_17, main_v103, main_v104, main_c_18, main_v105, main_v106, main_v107, main_v108, main_v109, main_c_19, main_v110, main_v111, main_c_20, main_v112, main_v113, main_v114, main_v115, main_v116, main_v117, main_v118, main_v119, main_v120, main_v121]
theorem writes4 : (hostOps4 (F := Ideal)).Forall fun op => op.writes ⊆ (written4.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer stretch 4 does not write keeps its contents through it. -/
theorem keep4 (W : Valuation τ sig (Elt Ideal)) (r : Ref sig .tc) (h : r ∉ written4) :
    after (hostOps4 (F := Ideal)) W (Proc.devRef .tc r) = W (Proc.devRef .tc r) :=
  after_of_writes_sub _ _ writes4 h

/-- The buffers stretch 5 writes. -/
abbrev written5 : List (Ref sig .tc) := [main_c_21, main_v123, main_v124, main_c_22, main_v125, main_v126, main_v127, main_v128, main_v129, main_c_23, main_v130, main_v131, main_c_24, main_v132, main_v133, main_v134, main_v135, main_v136, main_v137, main_v138, main_v139, main_v140, main_v141]
theorem writes5 : (hostOps5 (F := Ideal)).Forall fun op => op.writes ⊆ (written5.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer stretch 5 does not write keeps its contents through it. -/
theorem keep5 (W : Valuation τ sig (Elt Ideal)) (r : Ref sig .tc) (h : r ∉ written5) :
    after (hostOps5 (F := Ideal)) W (Proc.devRef .tc r) = W (Proc.devRef .tc r) :=
  after_of_writes_sub _ _ writes5 h

/-- The buffers stretch 6 writes. -/
abbrev written6 : List (Ref sig .tc) := [main_cst_25, main_v143, main_v144, main_v145, main_v146, main_c_26, main_v147, main_v148, main_c_27, main_v149, main_v150, main_v151, main_v152, main_v153, main_c_28, main_v154, main_v155, main_c_29, main_v156, main_v157, main_v158, main_v159, main_v160, main_v161, main_v162, main_v163, main_v164, main_v165]
theorem writes6 : (hostOps6 (F := Ideal)).Forall fun op => op.writes ⊆ (written6.map (Proc.devRef (τ := τ) .tc)).toFinset := by
  simp only [hostOps6, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- A buffer stretch 6 does not write keeps its contents through it. -/
theorem keep6 (W : Valuation τ sig (Elt Ideal)) (r : Ref sig .tc) (h : r ∉ written6) :
    after (hostOps6 (F := Ideal)) W (Proc.devRef .tc r) = W (Proc.devRef .tc r) :=
  after_of_writes_sub _ _ writes6 h

/-! ## Stretch 0: the id rows, the narrowed weight tables, the first residual's weighted rows -/

set_option maxHeartbeats 2000000 in
/-- The source ids. -/
theorem s0_src (W : Valuation τ sig (Elt Ideal)) :
    after (hostOps0 (F := Ideal)) W (Proc.devRef .tc main_v1) = srcIds (W (Proc.devRef .tc main_arg6)) := by
  simp only [hostOps0]
  after_results_simp
  rfl

set_option maxHeartbeats 2000000 in
/-- The destination ids. -/
theorem s0_dst (W : Valuation τ sig (Elt Ideal)) :
    after (hostOps0 (F := Ideal)) W (Proc.devRef .tc main_v3) = dstIds (W (Proc.devRef .tc main_arg6)) := by
  simp only [hostOps0]
  after_results_simp
  rfl

set_option maxHeartbeats 2000000 in
/-- The first layer's table, narrowed. -/
theorem s0_wg (W : Valuation τ sig (Elt Ideal)) :
    after (hostOps0 (F := Ideal)) W (Proc.devRef .tc main_v4) = narrow (W (Proc.devRef .tc main_arg3)) := by
  simp only [hostOps0]
  after_results_simp
  rfl

set_option maxHeartbeats 2000000 in
/-- Its transpose, narrowed. -/
theorem s0_wgt (W : Valuation τ sig (Elt Ideal)) :
    after (hostOps0 (F := Ideal)) W (Proc.devRef .tc main_v6) = narrow (flip (W (Proc.devRef .tc main_arg3))) := by
  simp only [hostOps0]
  after_results_simp
  rfl

set_option maxHeartbeats 2000000 in
/-- The second layer's table, narrowed. -/
theorem s0_ws (W : Valuation τ sig (Elt Ideal)) :
    after (hostOps0 (F := Ideal)) W (Proc.devRef .tc main_v7) = narrow (W (Proc.devRef .tc main_arg4)) := by
  simp only [hostOps0]
  after_results_simp
  rfl

set_option maxHeartbeats 2000000 in
/-- Its transpose, narrowed. -/
theorem s0_wst (W : Valuation τ sig (Elt Ideal)) :
    after (hostOps0 (F := Ideal)) W (Proc.devRef .tc main_v9) = narrow (flip (W (Proc.devRef .tc main_arg4))) := by
  simp only [hostOps0]
  after_results_simp
  rfl

set_option maxHeartbeats 2000000 in
/-- The embedding table, narrowed. -/
theorem s0_wemb (W : Valuation τ sig (Elt Ideal)) :
    after (hostOps0 (F := Ideal)) W (Proc.devRef .tc main_v10) = narrow (W (Proc.devRef .tc main_arg5)) := by
  simp only [hostOps0]
  after_results_simp
  rfl

set_option maxHeartbeats 2000000 in
/-- The first residual's rows at the source ids, weighted. -/
theorem s0_rs (W : Valuation τ sig (Elt Ideal)) :
    after (hostOps0 (F := Ideal)) W (Proc.devRef .tc main_v31) = mulf (spread (W (Proc.devRef .tc main_arg2))) (nodeRows (residual (W (Proc.devRef .tc main_arg0)) (srcIds (W (Proc.devRef .tc main_arg6))) (W (Proc.devRef .tc main_arg1))) (srcIds (W (Proc.devRef .tc main_arg6)))) := by
  simp only [hostOps0]
  after_results_simp
  rfl

set_option maxHeartbeats 2000000 in
/-- The first residual's rows at the destination ids, weighted. -/
theorem s0_rd (W : Valuation τ sig (Elt Ideal)) :
    after (hostOps0 (F := Ideal)) W (Proc.devRef .tc main_v33) = mulf (spread (W (Proc.devRef .tc main_arg2))) (nodeRows (residual (W (Proc.devRef .tc main_arg0)) (srcIds (W (Proc.devRef .tc main_arg6))) (W (Proc.devRef .tc main_arg1))) (dstIds (W (Proc.devRef .tc main_arg6)))) := by
  simp only [hostOps0]
  after_results_simp
  rfl

/-! ## Stretches 1, 3, 5: the rows of the current edge table at the two ends of every edge, weighted -/

set_option maxHeartbeats 2000000 in
/-- The edge table's rows at the source ids, weighted. -/
theorem s1_gs (W : Valuation τ sig (Elt Ideal)) :
    after (hostOps1 (F := Ideal)) W (Proc.devRef .tc main_v51) = mulf (spread (W (Proc.devRef .tc main_arg2))) (edgeRows (W (Proc.devRef .tc main_v34)) (W (Proc.devRef .tc main_v1))) := by
  simp only [hostOps1]
  after_results_simp
  rfl

set_option maxHeartbeats 2000000 in
/-- The edge table's rows at the destination ids, weighted. -/
theorem s1_gd (W : Valuation τ sig (Elt Ideal)) :
    after (hostOps1 (F := Ideal)) W (Proc.devRef .tc main_v53) = mulf (spread (W (Proc.devRef .tc main_arg2))) (edgeRows (W (Proc.devRef .tc main_v34)) (W (Proc.devRef .tc main_v3))) := by
  simp only [hostOps1]
  after_results_simp
  rfl

set_option maxHeartbeats 2000000 in
/-- The edge table's rows at the source ids, weighted. -/
theorem s3_gs (W : Valuation τ sig (Elt Ideal)) :
    after (hostOps3 (F := Ideal)) W (Proc.devRef .tc main_v95) = mulf (spread (W (Proc.devRef .tc main_arg2))) (edgeRows (W (Proc.devRef .tc main_v78)) (W (Proc.devRef .tc main_v1))) := by
  simp only [hostOps3]
  after_results_simp
  rfl

set_option maxHeartbeats 2000000 in
/-- The edge table's rows at the destination ids, weighted. -/
theorem s3_gd (W : Valuation τ sig (Elt Ideal)) :
    after (hostOps3 (F := Ideal)) W (Proc.devRef .tc main_v97) = mulf (spread (W (Proc.devRef .tc main_arg2))) (edgeRows (W (Proc.devRef .tc main_v78)) (W (Proc.devRef .tc main_v3))) := by
  simp only [hostOps3]
  after_results_simp
  rfl

set_option maxHeartbeats 2000000 in
/-- The edge table's rows at the source ids, weighted. -/
theorem s5_gs (W : Valuation τ sig (Elt Ideal)) :
    after (hostOps5 (F := Ideal)) W (Proc.devRef .tc main_v139) = mulf (spread (W (Proc.devRef .tc main_arg2))) (edgeRows (W (Proc.devRef .tc main_v122)) (W (Proc.devRef .tc main_v1))) := by
  simp only [hostOps5]
  after_results_simp
  rfl

set_option maxHeartbeats 2000000 in
/-- The edge table's rows at the destination ids, weighted. -/
theorem s5_gd (W : Valuation τ sig (Elt Ideal)) :
    after (hostOps5 (F := Ideal)) W (Proc.devRef .tc main_v141) = mulf (spread (W (Proc.devRef .tc main_arg2))) (edgeRows (W (Proc.devRef .tc main_v122)) (W (Proc.devRef .tc main_v3))) := by
  simp only [hostOps5]
  after_results_simp
  rfl

/-! ## Stretches 2, 4, 6: the residual of the current edge table and its weighted rows -/

set_option maxHeartbeats 2000000 in
/-- The residual D − Σ Z. -/
theorem s2_res (W : Valuation τ sig (Elt Ideal)) :
    after (hostOps2 (F := Ideal)) W (Proc.devRef .tc main_v58) = residual (W (Proc.devRef .tc main_arg0)) (W (Proc.devRef .tc main_v1)) (W (Proc.devRef .tc main_v54)) := by
  simp only [hostOps2]
  after_results_simp
  rfl

set_option maxHeartbeats 2000000 in
/-- The residual's rows at the source ids, weighted. -/
theorem s2_rs (W : Valuation τ sig (Elt Ideal)) :
    after (hostOps2 (F := Ideal)) W (Proc.devRef .tc main_v75) = mulf (spread (W (Proc.devRef .tc main_arg2))) (nodeRows (residual (W (Proc.devRef .tc main_arg0)) (W (Proc.devRef .tc main_v1)) (W (Proc.devRef .tc main_v54))) (W (Proc.devRef .tc main_v1))) := by
  simp only [hostOps2]
  after_results_simp
  rfl

set_option maxHeartbeats 2000000 in
/-- The residual's rows at the destination ids, weighted. -/
theorem s2_rd (W : Valuation τ sig (Elt Ideal)) :
    after (hostOps2 (F := Ideal)) W (Proc.devRef .tc main_v77) = mulf (spread (W (Proc.devRef .tc main_arg2))) (nodeRows (residual (W (Proc.devRef .tc main_arg0)) (W (Proc.devRef .tc main_v1)) (W (Proc.devRef .tc main_v54))) (W (Proc.devRef .tc main_v3))) := by
  simp only [hostOps2]
  after_results_simp
  rfl

set_option maxHeartbeats 2000000 in
/-- The residual D − Σ Z. -/
theorem s4_res (W : Valuation τ sig (Elt Ideal)) :
    after (hostOps4 (F := Ideal)) W (Proc.devRef .tc main_v102) = residual (W (Proc.devRef .tc main_arg0)) (W (Proc.devRef .tc main_v1)) (W (Proc.devRef .tc main_v98)) := by
  simp only [hostOps4]
  after_results_simp
  rfl

set_option maxHeartbeats 2000000 in
/-- The residual's rows at the source ids, weighted. -/
theorem s4_rs (W : Valuation τ sig (Elt Ideal)) :
    after (hostOps4 (F := Ideal)) W (Proc.devRef .tc main_v119) = mulf (spread (W (Proc.devRef .tc main_arg2))) (nodeRows (residual (W (Proc.devRef .tc main_arg0)) (W (Proc.devRef .tc main_v1)) (W (Proc.devRef .tc main_v98))) (W (Proc.devRef .tc main_v1))) := by
  simp only [hostOps4]
  after_results_simp
  rfl

set_option maxHeartbeats 2000000 in
/-- The residual's rows at the destination ids, weighted. -/
theorem s4_rd (W : Valuation τ sig (Elt Ideal)) :
    after (hostOps4 (F := Ideal)) W (Proc.devRef .tc main_v121) = mulf (spread (W (Proc.devRef .tc main_arg2))) (nodeRows (residual (W (Proc.devRef .tc main_arg0)) (W (Proc.devRef .tc main_v1)) (W (Proc.devRef .tc main_v98))) (W (Proc.devRef .tc main_v3))) := by
  simp only [hostOps4]
  after_results_simp
  rfl

set_option maxHeartbeats 2000000 in
/-- The residual D − Σ Z. -/
theorem s6_res (W : Valuation τ sig (Elt Ideal)) :
    after (hostOps6 (F := Ideal)) W (Proc.devRef .tc main_v146) = residual (W (Proc.devRef .tc main_arg0)) (W (Proc.devRef .tc main_v1)) (W (Proc.devRef .tc main_v142)) := by
  simp only [hostOps6]
  after_results_simp
  rfl

set_option maxHeartbeats 2000000 in
/-- The residual's rows at the source ids, weighted. -/
theorem s6_rs (W : Valuation τ sig (Elt Ideal)) :
    after (hostOps6 (F := Ideal)) W (Proc.devRef .tc main_v163) = mulf (spread (W (Proc.devRef .tc main_arg2))) (nodeRows (residual (W (Proc.devRef .tc main_arg0)) (W (Proc.devRef .tc main_v1)) (W (Proc.devRef .tc main_v142))) (W (Proc.devRef .tc main_v1))) := by
  simp only [hostOps6]
  after_results_simp
  rfl

set_option maxHeartbeats 2000000 in
/-- The residual's rows at the destination ids, weighted. -/
theorem s6_rd (W : Valuation τ sig (Elt Ideal)) :
    after (hostOps6 (F := Ideal)) W (Proc.devRef .tc main_v165) = mulf (spread (W (Proc.devRef .tc main_arg2))) (nodeRows (residual (W (Proc.devRef .tc main_arg0)) (W (Proc.devRef .tc main_v1)) (W (Proc.devRef .tc main_v142))) (W (Proc.devRef .tc main_v3))) := by
  simp only [hostOps6]
  after_results_simp
  rfl

end Cert.KernelIdeal.Host

end
-- ==== Proof.FoldDefs.lean ====
/-
  Names for the kernel program's arguments and for the tables of the three rounds.

  From the launch memory: the data D, the initial edge table, the edge weights, the three weight tables and the id
  table with its two rows.  One projection step and one MLP step at these arguments, in the kernel's arrangement,
  and the seven tables they produce in turn: Z0 = proj x, Y1 = step Z0, Z1 = proj Y1, …, Y3 = step Z2, Z3 = proj Y3.
-/
import proofs.«110563_j43284680409676_1_alg».proof.Proof.Gen.KernelIdeal.Frame
import proofs.«110563_j43284680409676_1_alg».proof.Proof.Spec
import proofs.«110563_j43284680409676_1_alg».proof.Proof.FoldHost

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-! ## The arguments, and the tables of the three rounds -/

/-- The data, N × C. -/
abbrev aD : NC := m ((c : Thread nD τ).loc main_arg0)
/-- The initial edge table, E × C. -/
abbrev aX : EC := m ((c : Thread nD τ).loc main_arg1)
/-- The edge weights. -/
abbrev aEw : EW := m ((c : Thread nD τ).loc main_arg2)
/-- The three weight tables. -/
abbrev aWg : WF := m ((c : Thread nD τ).loc main_arg3)
abbrev aWs : WF := m ((c : Thread nD τ).loc main_arg4)
abbrev aWemb : WF := m ((c : Thread nD τ).loc main_arg5)
/-- The 2 × E id table. -/
abbrev aEi : IVec S2x1600000 32 := m ((c : Thread nD τ).loc main_arg6)
abbrev src : IV := srcIds (aEi m c)
abbrev dst : IV := dstIds (aEi m c)

/-- One projection step on a table. -/
abbrev proj (Z : EC) : EC := projK (aD m c) (src m c) (dst m c) (aEw m c) Z
/-- One MLP step on a table. -/
abbrev step (Z : EC) : EC :=
  stepK (src m c) (dst m c) (aEw m c) (narrow (aWg m c)) (narrow (flip (aWg m c))) (narrow (aWs m c)) (narrow (flip (aWs m c))) Z
/-- The residual of a table. -/
abbrev res (Z : EC) : NC := residual (aD m c) (src m c) Z
/-- A table's rows at the source / destination ids of the residual, weighted. -/
abbrev resS (Z : EC) : EC := mulf (spread (aEw m c)) (nodeRows (res m c Z) (src m c))
abbrev resD (Z : EC) : EC := mulf (spread (aEw m c)) (nodeRows (res m c Z) (dst m c))
/-- A table's own rows at the source / destination ids, weighted. -/
abbrev rowS (Z : EC) : EC := mulf (spread (aEw m c)) (edgeRows Z (src m c))
abbrev rowD (Z : EC) : EC := mulf (spread (aEw m c)) (edgeRows Z (dst m c))

abbrev Z0 : EC := proj m c (aX m c)
abbrev Y1 : EC := step m c (Z0 m c)
abbrev Z1 : EC := proj m c (Y1 m c)
abbrev Y2 : EC := step m c (Z1 m c)
abbrev Z2 : EC := proj m c (Y2 m c)
abbrev Y3 : EC := step m c (Z2 m c)
abbrev Z3 : EC := proj m c (Y3 m c)

/-- The last MLP output is three rounds of the kernel's arrangement. -/
theorem Y3_eq : Y3 m c = lastK (aD m c) (src m c) (dst m c) (aEw m c) (narrow (aWg m c)) (narrow (flip (aWg m c))) (narrow (aWs m c)) (narrow (flip (aWs m c))) (aX m c) := rfl

end Cert.KernelIdeal.Fold

end
-- ==== Proof.RegionCombine.lean ====
/-
  The combine kernel over the whole edge table.

  Each of the four combine regions walks the E × C edge table in 200 blocks of 8000 rows.  At block t the body
  loads rows 8000·t … 8000·t + 7999 of its three operands and stores (x0 + x1) − x2 over the same rows of the
  output.  The four windows share one index map, so the element at position (r, k) of the output block is
  computed from the elements at row 8000·t + r, column k of the three operand tables; and every row r of the
  table lies in exactly the block r / 8000.  Hence the output table after the region is (a + b) − c, entry by
  entry, whatever the three operand tables hold when the region is entered.
-/
import proofs.«110563_j43284680409676_1_alg».proof.Proof.Gen.KernelIdeal.Frame
import proofs.«110563_j43284680409676_1_alg».proof.Proof.Spec
import Idealize.ShloMosaic.Lib.Pipeline.Value

noncomputable section

namespace Cert.RegionCombine

open Cert.KernelIdeal Cert.KernelIdeal.Gen Idealize.ShloMosaic Idealize.ShloMosaic.TcCoe Idealize.SL.Sem
open Idealize.ShloMosaic.Pipeline (Dat)

/-- The zero offsets of a whole-block access, as the constant function. -/
theorem zeroOffsets : (![0, 0] : Fin 2 → Nat) = fun _ => 0 := funext fun a => by fin_cases a <;> rfl

/-! ## Region 0 -/

/-- The body's stored value: a reshape to the same shape changes nothing, so it is (x0 + x1) − x2. -/
theorem payload0_eq (x0 x1 x2 : Vec Ideal S8000x32 .f32) :
    k0_pay1 (F := Ideal) x0 x1 x2 = subf (F := Ideal) (s := S8000x32) (φ := .f32) (addf (F := Ideal) (s := S8000x32) (φ := .f32) x0 x1) x2 := by
  unfold k0_pay1
  simp only [shapeCast_self]

/-- One whole-block load of each operand and one whole-block store: the output block is (x0 + x1) − x2. -/
theorem block0_eq (x0 x1 x2 : Vec Ideal S8000x32 .f32) :
    out0_3 (F := Ideal) x0 x1 x2 = subf (F := Ideal) (s := S8000x32) (φ := .f32) (addf (F := Ideal) (s := S8000x32) (φ := .f32) x0 x1) x2 := by
  unfold out0_3
  rw [View.canon_unit_zero zeroOffsets]
  simp only [View.ld_unit_zero (S := S8000x32) zeroOffsets]
  exact payload0_eq x0 x1 x2

/-- The four windows move together: at point t each sits at block (t, 0). -/
theorem blockIndex0 : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) = t.val ∧ win0_3.index t (1 : Fin 2) = 0 :=
  (by decide +kernel : ∀ t : Fin grid0.N, _)

set_option maxHeartbeats 1000000 in
/-- What point t writes back is block t of (a + b) − c, for the operand tables as the region finds them. -/
theorem flushed0_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal)
          (Cert.Spec.combine (V c (Pipeline.arrRef spec0 0)) (V c (Pipeline.arrRef spec0 1)) (V c (Pipeline.arrRef spec0 2))) := by
  show (cfg0.win 3).cut (grid0.coords t) ((dat0 V c).after 3 t) = _
  rw [after0_3]
  have hb := block0_eq (iblk0 V c 0 t) (iblk0 V c 1 t) (iblk0 V c 2 t)
  rw [hb]
  obtain ⟨e00, e01, e10, e11, e20, e21, -, -⟩ := blockIndex0 t
  funext j
  show FloatOps.subf (F := Ideal) (φ := .f32) (FloatOps.addf (F := Ideal) (φ := .f32) (V c (Pipeline.arrRef spec0 0) (((cfg0.win 0).blk t).view.emb j)) (V c (Pipeline.arrRef spec0 1) (((cfg0.win 1).blk t).view.emb j))) (V c (Pipeline.arrRef spec0 2) (((cfg0.win 2).blk t).view.emb j))
    = FloatOps.subf (F := Ideal) (φ := .f32) (FloatOps.addf (F := Ideal) (φ := .f32) (V c (Pipeline.arrRef spec0 0) (((cfg0.win 3).blk t).view.emb j)) (V c (Pipeline.arrRef spec0 1) (((cfg0.win 3).blk t).view.emb j))) (V c (Pipeline.arrRef spec0 2) (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 8000 + 1 * (j 0).val = win0_3.index t (0 : Fin 2) * 8000 + 1 * (j 0).val; omega
    | ⟨1, _⟩ => show win0_0.index t (1 : Fin 2) * 32 + 1 * (j 1).val = win0_3.index t (1 : Fin 2) * 32 + 1 * (j 1).val; omega
  have h1 : ((cfg0.win 1).blk t).view.emb j = ((cfg0.win 3).blk t).view.emb j := by
    funext a; apply Fin.ext
    match a with
    | ⟨0, _⟩ => show win0_1.index t (0 : Fin 2) * 8000 + 1 * (j 0).val = win0_3.index t (0 : Fin 2) * 8000 + 1 * (j 0).val; omega
    | ⟨1, _⟩ => show win0_1.index t (1 : Fin 2) * 32 + 1 * (j 1).val = win0_3.index t (1 : Fin 2) * 32 + 1 * (j 1).val; omega
  have h2 : ((cfg0.win 2).blk t).view.emb j = ((cfg0.win 3).blk t).view.emb j := by
    funext a; apply Fin.ext
    match a with
    | ⟨0, _⟩ => show win0_2.index t (0 : Fin 2) * 8000 + 1 * (j 0).val = win0_3.index t (0 : Fin 2) * 8000 + 1 * (j 0).val; omega
    | ⟨1, _⟩ => show win0_2.index t (1 : Fin 2) * 32 + 1 * (j 1).val = win0_3.index t (1 : Fin 2) * 32 + 1 * (j 1).val; omega
  rw [h0, h1, h2]

/-- A position of the table is in point t's block iff each coordinate is in the block's range on its axis. -/
theorem mem_block0 (t : Fin cfg0.N) (i : S1600000x32.Idx) :
    i ∈ ((cfg0.win 3).blk t).view.set ↔ ∀ a : Fin 2, win0_3.index t a * S8000x32.size a ≤ (i a).val ∧ (i a).val < win0_3.index t a * S8000x32.size a + S8000x32.size a := by
  show i ∈ ((View.whole main_v34).slice (win0_3.rect t)).set ↔ _
  rw [View.set_slice_whole, Rect.mem_set_unit]
  exact Iff.rfl

/-- Every position of the table is in some point's block: row r is in block r / 8000. -/
theorem cover0 (i : S1600000x32.Idx) :
    ∃ t : Fin cfg0.N, (cfg0.win 3).flush t = true ∧ i ∈ ((cfg0.win 3).blk t).view.set := by
  have hi0 : (i 0).val < 1600000 := (i 0).isLt
  have hi1 : (i 1).val < 32 := (i 1).isLt
  have ht : (i 0).val / 8000 < 200 := by omega
  obtain ⟨-, -, -, -, -, -, q0, q1⟩ := blockIndex0 ⟨(i 0).val / 8000, ht⟩
  refine ⟨⟨(i 0).val / 8000, ht⟩, flush0_3 _, ?_⟩
  rw [mem_block0]
  intro a
  match a with
  | ⟨0, _⟩ => show win0_3.index ⟨(i 0).val / 8000, ht⟩ (0 : Fin 2) * 8000 ≤ (i 0).val ∧ (i 0).val < win0_3.index ⟨(i 0).val / 8000, ht⟩ (0 : Fin 2) * 8000 + 8000; rw [q0]; show (i 0).val / 8000 * 8000 ≤ (i 0).val ∧ (i 0).val < (i 0).val / 8000 * 8000 + 8000; omega
  | ⟨1, _⟩ => show win0_3.index ⟨(i 0).val / 8000, ht⟩ (1 : Fin 2) * 32 ≤ (i 1).val ∧ (i 1).val < win0_3.index ⟨(i 0).val / 8000, ht⟩ (1 : Fin 2) * 32 + 32; rw [q1]; omega

/-- The output table after region 0 is (a + b) − c of the three operand tables the region finds. -/
theorem combine0 (V : (c : Dev nD) → (b : Ref sig .tc) → Buf (Elt Ideal) ((c : Thread nD τ).loc b)) (c : Dev nD) :
    (dat0 (F := Ideal) V c).arrAt 3 cfg0.N
      = Cert.Spec.combine (V c (Pipeline.arrRef spec0 0)) (V c (Pipeline.arrRef spec0 1)) (V c (Pipeline.arrRef spec0 2)) :=
  (dat0 (F := Ideal) V c).arrAt_eq_of_cover 3 _ (fun t _ => flushed0_eq V c t) cover0

/-! ## Region 2 -/

/-- The body's stored value: a reshape to the same shape changes nothing, so it is (x0 + x1) − x2. -/
theorem payload2_eq (x0 x1 x2 : Vec Ideal S8000x32 .f32) :
    k2_pay1 (F := Ideal) x0 x1 x2 = subf (F := Ideal) (s := S8000x32) (φ := .f32) (addf (F := Ideal) (s := S8000x32) (φ := .f32) x0 x1) x2 := by
  unfold k2_pay1
  simp only [shapeCast_self]

/-- One whole-block load of each operand and one whole-block store: the output block is (x0 + x1) − x2. -/
theorem block2_eq (x0 x1 x2 : Vec Ideal S8000x32 .f32) :
    out2_3 (F := Ideal) x0 x1 x2 = subf (F := Ideal) (s := S8000x32) (φ := .f32) (addf (F := Ideal) (s := S8000x32) (φ := .f32) x0 x1) x2 := by
  unfold out2_3
  rw [View.canon_unit_zero zeroOffsets]
  simp only [View.ld_unit_zero (S := S8000x32) zeroOffsets]
  exact payload2_eq x0 x1 x2

/-- The four windows move together: at point t each sits at block (t, 0). -/
theorem blockIndex2 : ∀ t : Fin cfg2.N,
    win2_0.index t (0 : Fin 2) = win2_3.index t (0 : Fin 2) ∧ win2_0.index t (1 : Fin 2) = win2_3.index t (1 : Fin 2)
    ∧ win2_1.index t (0 : Fin 2) = win2_3.index t (0 : Fin 2) ∧ win2_1.index t (1 : Fin 2) = win2_3.index t (1 : Fin 2)
    ∧ win2_2.index t (0 : Fin 2) = win2_3.index t (0 : Fin 2) ∧ win2_2.index t (1 : Fin 2) = win2_3.index t (1 : Fin 2)
    ∧ win2_3.index t (0 : Fin 2) = t.val ∧ win2_3.index t (1 : Fin 2) = 0 :=
  (by decide +kernel : ∀ t : Fin grid2.N, _)

set_option maxHeartbeats 1000000 in
/-- What point t writes back is block t of (a + b) − c, for the operand tables as the region finds them. -/
theorem flushed2_eq (V : (c : Dev nD) → (b : Ref sig .tc) → Buf (Elt Ideal) ((c : Thread nD τ).loc b)) (c : Dev nD) (t : Fin cfg2.N) :
    (dat2 (F := Ideal) V c).flushed 3 t
      = ((cfg2.win 3).blk t).view.read (Elt Ideal)
          (Cert.Spec.combine (V c (Pipeline.arrRef spec2 0)) (V c (Pipeline.arrRef spec2 1)) (V c (Pipeline.arrRef spec2 2))) := by
  show (cfg2.win 3).cut (grid2.coords t) ((dat2 V c).after 3 t) = _
  rw [after2_3]
  have hb := block2_eq (iblk2 V c 0 t) (iblk2 V c 1 t) (iblk2 V c 2 t)
  rw [hb]
  obtain ⟨e00, e01, e10, e11, e20, e21, -, -⟩ := blockIndex2 t
  funext j
  show FloatOps.subf (F := Ideal) (φ := .f32) (FloatOps.addf (F := Ideal) (φ := .f32) (V c (Pipeline.arrRef spec2 0) (((cfg2.win 0).blk t).view.emb j)) (V c (Pipeline.arrRef spec2 1) (((cfg2.win 1).blk t).view.emb j))) (V c (Pipeline.arrRef spec2 2) (((cfg2.win 2).blk t).view.emb j))
    = FloatOps.subf (F := Ideal) (φ := .f32) (FloatOps.addf (F := Ideal) (φ := .f32) (V c (Pipeline.arrRef spec2 0) (((cfg2.win 3).blk t).view.emb j)) (V c (Pipeline.arrRef spec2 1) (((cfg2.win 3).blk t).view.emb j))) (V c (Pipeline.arrRef spec2 2) (((cfg2.win 3).blk t).view.emb j))
  have h0 : ((cfg2.win 0).blk t).view.emb j = ((cfg2.win 3).blk t).view.emb j := by
    funext a; apply Fin.ext
    match a with
    | ⟨0, _⟩ => show win2_0.index t (0 : Fin 2) * 8000 + 1 * (j 0).val = win2_3.index t (0 : Fin 2) * 8000 + 1 * (j 0).val; omega
    | ⟨1, _⟩ => show win2_0.index t (1 : Fin 2) * 32 + 1 * (j 1).val = win2_3.index t (1 : Fin 2) * 32 + 1 * (j 1).val; omega
  have h1 : ((cfg2.win 1).blk t).view.emb j = ((cfg2.win 3).blk t).view.emb j := by
    funext a; apply Fin.ext
    match a with
    | ⟨0, _⟩ => show win2_1.index t (0 : Fin 2) * 8000 + 1 * (j 0).val = win2_3.index t (0 : Fin 2) * 8000 + 1 * (j 0).val; omega
    | ⟨1, _⟩ => show win2_1.index t (1 : Fin 2) * 32 + 1 * (j 1).val = win2_3.index t (1 : Fin 2) * 32 + 1 * (j 1).val; omega
  have h2 : ((cfg2.win 2).blk t).view.emb j = ((cfg2.win 3).blk t).view.emb j := by
    funext a; apply Fin.ext
    match a with
    | ⟨0, _⟩ => show win2_2.index t (0 : Fin 2) * 8000 + 1 * (j 0).val = win2_3.index t (0 : Fin 2) * 8000 + 1 * (j 0).val; omega
    | ⟨1, _⟩ => show win2_2.index t (1 : Fin 2) * 32 + 1 * (j 1).val = win2_3.index t (1 : Fin 2) * 32 + 1 * (j 1).val; omega
  rw [h0, h1, h2]

/-- A position of the table is in point t's block iff each coordinate is in the block's range on its axis. -/
theorem mem_block2 (t : Fin cfg2.N) (i : S1600000x32.Idx) :
    i ∈ ((cfg2.win 3).blk t).view.set ↔ ∀ a : Fin 2, win2_3.index t a * S8000x32.size a ≤ (i a).val ∧ (i a).val < win2_3.index t a * S8000x32.size a + S8000x32.size a := by
  show i ∈ ((View.whole main_v78).slice (win2_3.rect t)).set ↔ _
  rw [View.set_slice_whole, Rect.mem_set_unit]
  exact Iff.rfl

/-- Every position of the table is in some point's block: row r is in block r / 8000. -/
theorem cover2 (i : S1600000x32.Idx) :
    ∃ t : Fin cfg2.N, (cfg2.win 3).flush t = true ∧ i ∈ ((cfg2.win 3).blk t).view.set := by
  have hi0 : (i 0).val < 1600000 := (i 0).isLt
  have hi1 : (i 1).val < 32 := (i 1).isLt
  have ht : (i 0).val / 8000 < 200 := by omega
  obtain ⟨-, -, -, -, -, -, q0, q1⟩ := blockIndex2 ⟨(i 0).val / 8000, ht⟩
  refine ⟨⟨(i 0).val / 8000, ht⟩, flush2_3 _, ?_⟩
  rw [mem_block2]
  intro a
  match a with
  | ⟨0, _⟩ => show win2_3.index ⟨(i 0).val / 8000, ht⟩ (0 : Fin 2) * 8000 ≤ (i 0).val ∧ (i 0).val < win2_3.index ⟨(i 0).val / 8000, ht⟩ (0 : Fin 2) * 8000 + 8000; rw [q0]; show (i 0).val / 8000 * 8000 ≤ (i 0).val ∧ (i 0).val < (i 0).val / 8000 * 8000 + 8000; omega
  | ⟨1, _⟩ => show win2_3.index ⟨(i 0).val / 8000, ht⟩ (1 : Fin 2) * 32 ≤ (i 1).val ∧ (i 1).val < win2_3.index ⟨(i 0).val / 8000, ht⟩ (1 : Fin 2) * 32 + 32; rw [q1]; omega

/-- The output table after region 2 is (a + b) − c of the three operand tables the region finds. -/
theorem combine2 (V : (c : Dev nD) → (b : Ref sig .tc) → Buf (Elt Ideal) ((c : Thread nD τ).loc b)) (c : Dev nD) :
    (dat2 (F := Ideal) V c).arrAt 3 cfg2.N
      = Cert.Spec.combine (V c (Pipeline.arrRef spec2 0)) (V c (Pipeline.arrRef spec2 1)) (V c (Pipeline.arrRef spec2 2)) :=
  (dat2 (F := Ideal) V c).arrAt_eq_of_cover 3 _ (fun t _ => flushed2_eq V c t) cover2

/-! ## Region 4 -/

/-- The body's stored value: a reshape to the same shape changes nothing, so it is (x0 + x1) − x2. -/
theorem payload4_eq (x0 x1 x2 : Vec Ideal S8000x32 .f32) :
    k4_pay1 (F := Ideal) x0 x1 x2 = subf (F := Ideal) (s := S8000x32) (φ := .f32) (addf (F := Ideal) (s := S8000x32) (φ := .f32) x0 x1) x2 := by
  unfold k4_pay1
  simp only [shapeCast_self]

/-- One whole-block load of each operand and one whole-block store: the output block is (x0 + x1) − x2. -/
theorem block4_eq (x0 x1 x2 : Vec Ideal S8000x32 .f32) :
    out4_3 (F := Ideal) x0 x1 x2 = subf (F := Ideal) (s := S8000x32) (φ := .f32) (addf (F := Ideal) (s := S8000x32) (φ := .f32) x0 x1) x2 := by
  unfold out4_3
  rw [View.canon_unit_zero zeroOffsets]
  simp only [View.ld_unit_zero (S := S8000x32) zeroOffsets]
  exact payload4_eq x0 x1 x2

/-- The four windows move together: at point t each sits at block (t, 0). -/
theorem blockIndex4 : ∀ t : Fin cfg4.N,
    win4_0.index t (0 : Fin 2) = win4_3.index t (0 : Fin 2) ∧ win4_0.index t (1 : Fin 2) = win4_3.index t (1 : Fin 2)
    ∧ win4_1.index t (0 : Fin 2) = win4_3.index t (0 : Fin 2) ∧ win4_1.index t (1 : Fin 2) = win4_3.index t (1 : Fin 2)
    ∧ win4_2.index t (0 : Fin 2) = win4_3.index t (0 : Fin 2) ∧ win4_2.index t (1 : Fin 2) = win4_3.index t (1 : Fin 2)
    ∧ win4_3.index t (0 : Fin 2) = t.val ∧ win4_3.index t (1 : Fin 2) = 0 :=
  (by decide +kernel : ∀ t : Fin grid4.N, _)

set_option maxHeartbeats 1000000 in
/-- What point t writes back is block t of (a + b) − c, for the operand tables as the region finds them. -/
theorem flushed4_eq (V : (c : Dev nD) → (b : Ref sig .tc) → Buf (Elt Ideal) ((c : Thread nD τ).loc b)) (c : Dev nD) (t : Fin cfg4.N) :
    (dat4 (F := Ideal) V c).flushed 3 t
      = ((cfg4.win 3).blk t).view.read (Elt Ideal)
          (Cert.Spec.combine (V c (Pipeline.arrRef spec4 0)) (V c (Pipeline.arrRef spec4 1)) (V c (Pipeline.arrRef spec4 2))) := by
  show (cfg4.win 3).cut (grid4.coords t) ((dat4 V c).after 3 t) = _
  rw [after4_3]
  have hb := block4_eq (iblk4 V c 0 t) (iblk4 V c 1 t) (iblk4 V c 2 t)
  rw [hb]
  obtain ⟨e00, e01, e10, e11, e20, e21, -, -⟩ := blockIndex4 t
  funext j
  show FloatOps.subf (F := Ideal) (φ := .f32) (FloatOps.addf (F := Ideal) (φ := .f32) (V c (Pipeline.arrRef spec4 0) (((cfg4.win 0).blk t).view.emb j)) (V c (Pipeline.arrRef spec4 1) (((cfg4.win 1).blk t).view.emb j))) (V c (Pipeline.arrRef spec4 2) (((cfg4.win 2).blk t).view.emb j))
    = FloatOps.subf (F := Ideal) (φ := .f32) (FloatOps.addf (F := Ideal) (φ := .f32) (V c (Pipeline.arrRef spec4 0) (((cfg4.win 3).blk t).view.emb j)) (V c (Pipeline.arrRef spec4 1) (((cfg4.win 3).blk t).view.emb j))) (V c (Pipeline.arrRef spec4 2) (((cfg4.win 3).blk t).view.emb j))
  have h0 : ((cfg4.win 0).blk t).view.emb j = ((cfg4.win 3).blk t).view.emb j := by
    funext a; apply Fin.ext
    match a with
    | ⟨0, _⟩ => show win4_0.index t (0 : Fin 2) * 8000 + 1 * (j 0).val = win4_3.index t (0 : Fin 2) * 8000 + 1 * (j 0).val; omega
    | ⟨1, _⟩ => show win4_0.index t (1 : Fin 2) * 32 + 1 * (j 1).val = win4_3.index t (1 : Fin 2) * 32 + 1 * (j 1).val; omega
  have h1 : ((cfg4.win 1).blk t).view.emb j = ((cfg4.win 3).blk t).view.emb j := by
    funext a; apply Fin.ext
    match a with
    | ⟨0, _⟩ => show win4_1.index t (0 : Fin 2) * 8000 + 1 * (j 0).val = win4_3.index t (0 : Fin 2) * 8000 + 1 * (j 0).val; omega
    | ⟨1, _⟩ => show win4_1.index t (1 : Fin 2) * 32 + 1 * (j 1).val = win4_3.index t (1 : Fin 2) * 32 + 1 * (j 1).val; omega
  have h2 : ((cfg4.win 2).blk t).view.emb j = ((cfg4.win 3).blk t).view.emb j := by
    funext a; apply Fin.ext
    match a with
    | ⟨0, _⟩ => show win4_2.index t (0 : Fin 2) * 8000 + 1 * (j 0).val = win4_3.index t (0 : Fin 2) * 8000 + 1 * (j 0).val; omega
    | ⟨1, _⟩ => show win4_2.index t (1 : Fin 2) * 32 + 1 * (j 1).val = win4_3.index t (1 : Fin 2) * 32 + 1 * (j 1).val; omega
  rw [h0, h1, h2]

/-- A position of the table is in point t's block iff each coordinate is in the block's range on its axis. -/
theorem mem_block4 (t : Fin cfg4.N) (i : S1600000x32.Idx) :
    i ∈ ((cfg4.win 3).blk t).view.set ↔ ∀ a : Fin 2, win4_3.index t a * S8000x32.size a ≤ (i a).val ∧ (i a).val < win4_3.index t a * S8000x32.size a + S8000x32.size a := by
  show i ∈ ((View.whole main_v122).slice (win4_3.rect t)).set ↔ _
  rw [View.set_slice_whole, Rect.mem_set_unit]
  exact Iff.rfl

/-- Every position of the table is in some point's block: row r is in block r / 8000. -/
theorem cover4 (i : S1600000x32.Idx) :
    ∃ t : Fin cfg4.N, (cfg4.win 3).flush t = true ∧ i ∈ ((cfg4.win 3).blk t).view.set := by
  have hi0 : (i 0).val < 1600000 := (i 0).isLt
  have hi1 : (i 1).val < 32 := (i 1).isLt
  have ht : (i 0).val / 8000 < 200 := by omega
  obtain ⟨-, -, -, -, -, -, q0, q1⟩ := blockIndex4 ⟨(i 0).val / 8000, ht⟩
  refine ⟨⟨(i 0).val / 8000, ht⟩, flush4_3 _, ?_⟩
  rw [mem_block4]
  intro a
  match a with
  | ⟨0, _⟩ => show win4_3.index ⟨(i 0).val / 8000, ht⟩ (0 : Fin 2) * 8000 ≤ (i 0).val ∧ (i 0).val < win4_3.index ⟨(i 0).val / 8000, ht⟩ (0 : Fin 2) * 8000 + 8000; rw [q0]; show (i 0).val / 8000 * 8000 ≤ (i 0).val ∧ (i 0).val < (i 0).val / 8000 * 8000 + 8000; omega
  | ⟨1, _⟩ => show win4_3.index ⟨(i 0).val / 8000, ht⟩ (1 : Fin 2) * 32 ≤ (i 1).val ∧ (i 1).val < win4_3.index ⟨(i 0).val / 8000, ht⟩ (1 : Fin 2) * 32 + 32; rw [q1]; omega

/-- The output table after region 4 is (a + b) − c of the three operand tables the region finds. -/
theorem combine4 (V : (c : Dev nD) → (b : Ref sig .tc) → Buf (Elt Ideal) ((c : Thread nD τ).loc b)) (c : Dev nD) :
    (dat4 (F := Ideal) V c).arrAt 3 cfg4.N
      = Cert.Spec.combine (V c (Pipeline.arrRef spec4 0)) (V c (Pipeline.arrRef spec4 1)) (V c (Pipeline.arrRef spec4 2)) :=
  (dat4 (F := Ideal) V c).arrAt_eq_of_cover 3 _ (fun t _ => flushed4_eq V c t) cover4

/-! ## Region 6 -/

/-- The body's stored value: a reshape to the same shape changes nothing, so it is (x0 + x1) − x2. -/
theorem payload6_eq (x0 x1 x2 : Vec Ideal S8000x32 .f32) :
    k6_pay1 (F := Ideal) x0 x1 x2 = subf (F := Ideal) (s := S8000x32) (φ := .f32) (addf (F := Ideal) (s := S8000x32) (φ := .f32) x0 x1) x2 := by
  unfold k6_pay1
  simp only [shapeCast_self]

/-- One whole-block load of each operand and one whole-block store: the output block is (x0 + x1) − x2. -/
theorem block6_eq (x0 x1 x2 : Vec Ideal S8000x32 .f32) :
    out6_3 (F := Ideal) x0 x1 x2 = subf (F := Ideal) (s := S8000x32) (φ := .f32) (addf (F := Ideal) (s := S8000x32) (φ := .f32) x0 x1) x2 := by
  unfold out6_3
  rw [View.canon_unit_zero zeroOffsets]
  simp only [View.ld_unit_zero (S := S8000x32) zeroOffsets]
  exact payload6_eq x0 x1 x2

/-- The four windows move together: at point t each sits at block (t, 0). -/
theorem blockIndex6 : ∀ t : Fin cfg6.N,
    win6_0.index t (0 : Fin 2) = win6_3.index t (0 : Fin 2) ∧ win6_0.index t (1 : Fin 2) = win6_3.index t (1 : Fin 2)
    ∧ win6_1.index t (0 : Fin 2) = win6_3.index t (0 : Fin 2) ∧ win6_1.index t (1 : Fin 2) = win6_3.index t (1 : Fin 2)
    ∧ win6_2.index t (0 : Fin 2) = win6_3.index t (0 : Fin 2) ∧ win6_2.index t (1 : Fin 2) = win6_3.index t (1 : Fin 2)
    ∧ win6_3.index t (0 : Fin 2) = t.val ∧ win6_3.index t (1 : Fin 2) = 0 :=
  (by decide +kernel : ∀ t : Fin grid6.N, _)

set_option maxHeartbeats 1000000 in
/-- What point t writes back is block t of (a + b) − c, for the operand tables as the region finds them. -/
theorem flushed6_eq (V : (c : Dev nD) → (b : Ref sig .tc) → Buf (Elt Ideal) ((c : Thread nD τ).loc b)) (c : Dev nD) (t : Fin cfg6.N) :
    (dat6 (F := Ideal) V c).flushed 3 t
      = ((cfg6.win 3).blk t).view.read (Elt Ideal)
          (Cert.Spec.combine (V c (Pipeline.arrRef spec6 0)) (V c (Pipeline.arrRef spec6 1)) (V c (Pipeline.arrRef spec6 2))) := by
  show (cfg6.win 3).cut (grid6.coords t) ((dat6 V c).after 3 t) = _
  rw [after6_3]
  have hb := block6_eq (iblk6 V c 0 t) (iblk6 V c 1 t) (iblk6 V c 2 t)
  rw [hb]
  obtain ⟨e00, e01, e10, e11, e20, e21, -, -⟩ := blockIndex6 t
  funext j
  show FloatOps.subf (F := Ideal) (φ := .f32) (FloatOps.addf (F := Ideal) (φ := .f32) (V c (Pipeline.arrRef spec6 0) (((cfg6.win 0).blk t).view.emb j)) (V c (Pipeline.arrRef spec6 1) (((cfg6.win 1).blk t).view.emb j))) (V c (Pipeline.arrRef spec6 2) (((cfg6.win 2).blk t).view.emb j))
    = FloatOps.subf (F := Ideal) (φ := .f32) (FloatOps.addf (F := Ideal) (φ := .f32) (V c (Pipeline.arrRef spec6 0) (((cfg6.win 3).blk t).view.emb j)) (V c (Pipeline.arrRef spec6 1) (((cfg6.win 3).blk t).view.emb j))) (V c (Pipeline.arrRef spec6 2) (((cfg6.win 3).blk t).view.emb j))
  have h0 : ((cfg6.win 0).blk t).view.emb j = ((cfg6.win 3).blk t).view.emb j := by
    funext a; apply Fin.ext
    match a with
    | ⟨0, _⟩ => show win6_0.index t (0 : Fin 2) * 8000 + 1 * (j 0).val = win6_3.index t (0 : Fin 2) * 8000 + 1 * (j 0).val; omega
    | ⟨1, _⟩ => show win6_0.index t (1 : Fin 2) * 32 + 1 * (j 1).val = win6_3.index t (1 : Fin 2) * 32 + 1 * (j 1).val; omega
  have h1 : ((cfg6.win 1).blk t).view.emb j = ((cfg6.win 3).blk t).view.emb j := by
    funext a; apply Fin.ext
    match a with
    | ⟨0, _⟩ => show win6_1.index t (0 : Fin 2) * 8000 + 1 * (j 0).val = win6_3.index t (0 : Fin 2) * 8000 + 1 * (j 0).val; omega
    | ⟨1, _⟩ => show win6_1.index t (1 : Fin 2) * 32 + 1 * (j 1).val = win6_3.index t (1 : Fin 2) * 32 + 1 * (j 1).val; omega
  have h2 : ((cfg6.win 2).blk t).view.emb j = ((cfg6.win 3).blk t).view.emb j := by
    funext a; apply Fin.ext
    match a with
    | ⟨0, _⟩ => show win6_2.index t (0 : Fin 2) * 8000 + 1 * (j 0).val = win6_3.index t (0 : Fin 2) * 8000 + 1 * (j 0).val; omega
    | ⟨1, _⟩ => show win6_2.index t (1 : Fin 2) * 32 + 1 * (j 1).val = win6_3.index t (1 : Fin 2) * 32 + 1 * (j 1).val; omega
  rw [h0, h1, h2]

/-- A position of the table is in point t's block iff each coordinate is in the block's range on its axis. -/
theorem mem_block6 (t : Fin cfg6.N) (i : S1600000x32.Idx) :
    i ∈ ((cfg6.win 3).blk t).view.set ↔ ∀ a : Fin 2, win6_3.index t a * S8000x32.size a ≤ (i a).val ∧ (i a).val < win6_3.index t a * S8000x32.size a + S8000x32.size a := by
  show i ∈ ((View.whole main_v166).slice (win6_3.rect t)).set ↔ _
  rw [View.set_slice_whole, Rect.mem_set_unit]
  exact Iff.rfl

/-- Every position of the table is in some point's block: row r is in block r / 8000. -/
theorem cover6 (i : S1600000x32.Idx) :
    ∃ t : Fin cfg6.N, (cfg6.win 3).flush t = true ∧ i ∈ ((cfg6.win 3).blk t).view.set := by
  have hi0 : (i 0).val < 1600000 := (i 0).isLt
  have hi1 : (i 1).val < 32 := (i 1).isLt
  have ht : (i 0).val / 8000 < 200 := by omega
  obtain ⟨-, -, -, -, -, -, q0, q1⟩ := blockIndex6 ⟨(i 0).val / 8000, ht⟩
  refine ⟨⟨(i 0).val / 8000, ht⟩, flush6_3 _, ?_⟩
  rw [mem_block6]
  intro a
  match a with
  | ⟨0, _⟩ => show win6_3.index ⟨(i 0).val / 8000, ht⟩ (0 : Fin 2) * 8000 ≤ (i 0).val ∧ (i 0).val < win6_3.index ⟨(i 0).val / 8000, ht⟩ (0 : Fin 2) * 8000 + 8000; rw [q0]; show (i 0).val / 8000 * 8000 ≤ (i 0).val ∧ (i 0).val < (i 0).val / 8000 * 8000 + 8000; omega
  | ⟨1, _⟩ => show win6_3.index ⟨(i 0).val / 8000, ht⟩ (1 : Fin 2) * 32 ≤ (i 1).val ∧ (i 1).val < win6_3.index ⟨(i 0).val / 8000, ht⟩ (1 : Fin 2) * 32 + 32; rw [q1]; omega

/-- The output table after region 6 is (a + b) − c of the three operand tables the region finds. -/
theorem combine6 (V : (c : Dev nD) → (b : Ref sig .tc) → Buf (Elt Ideal) ((c : Thread nD τ).loc b)) (c : Dev nD) :
    (dat6 (F := Ideal) V c).arrAt 3 cfg6.N
      = Cert.Spec.combine (V c (Pipeline.arrRef spec6 0)) (V c (Pipeline.arrRef spec6 1)) (V c (Pipeline.arrRef spec6 2)) :=
  (dat6 (F := Ideal) V c).arrAt_eq_of_cover 3 _ (fun t _ => flushed6_eq V c t) cover6

end Cert.RegionCombine

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«110563_j43284680409676_1_alg».proof.Proof.LibPlainMatmul
import proofs.«110563_j43284680409676_1_alg».proof.Proof.LibHostReads
import proofs.«110563_j43284680409676_1_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.LibRowLayers.lean ====
/-
  Layers of a dense network read on picked rows, one operation at a time.

  A block of TM rows is cut out of a tall matrix of M rows by a map ρ of row numbers (Cert.BlockRows.rowsOf). Each
  lemma below takes an operand that IS the picked rows of some tall matrix (an equation, so that the lemma applies to
  whatever expression the operand is spelled as) and says that one more operation on it gives the picked rows of the
  host's operation on the tall matrix:

  * a bias given as a matrix B of ONE row, broadcast down the block, against the same row broadcast down all M rows;
  * a sum of two operands, a maximum with a constant zero, a reshape to the operand's own shape;
  * a change to a narrower float format, which on the extended reals changes nothing;
  * the matrix unit's product into a zero accumulator with a fixed right factor against the host's plain product.

  Chained, they read max(x·W + B, 0) and the like, computed on a block, as rows of the same expression on whole arrays.
-/
import Idealize.ShloMosaic.PureOps.Ideal.Laws
import Idealize.ShloMosaic.Lib.Pipeline.Value
import Idealize.ShloMosaic.Lib.ValueIdx
import Idealize.ShloMosaic.Lib.ValueLayout
import proofs.«110563_j43284680409676_1_alg».proof.Proof.LibBlockRows

noncomputable section

namespace Cert.RowLayers

open Idealize.ShloMosaic Idealize.ShloMosaic.ValueIdx Cert.BlockRows

variable {TM M K N : Nat}

/-- The host's bias matrix of a one-row matrix: the row broadcast down M rows. -/
def rowBias {α : Type} (h2 : (⟨2, ![1, N]⟩ : Shape).BroadcastsInDim ⟨2, ![M, N]⟩ ![0, 1])
    (B : (⟨2, ![1, N]⟩ : Shape).Idx → α) : (⟨2, ![M, N]⟩ : Shape).Idx → α :=
  broadcastInDim ⟨2, ![M, N]⟩ ![0, 1] h2 B

/-- Entry (r, c) of the bias matrix is entry (0, c) of the row. -/
theorem rowBias_apply {α : Type} (h2 : (⟨2, ![1, N]⟩ : Shape).BroadcastsInDim ⟨2, ![M, N]⟩ ![0, 1])
    (B : (⟨2, ![1, N]⟩ : Shape).Idx → α) (r : Fin M) (c : Fin N) : rowBias h2 B (ix2 r c) = B (ix2 (0 : Fin 1) c) := by
  unfold rowBias
  refine broadcastInDim_apply _ h2 B (ix2 r c) (ix2 (0 : Fin 1) c) fun a => ?_
  match a with
  | ⟨0, _⟩ => show (0 : Fin 1).val = if (1 : Nat) = 1 then 0 else r.val; rw [if_pos rfl]; rfl
  | ⟨1, _⟩ =>
    show c.val = if N = 1 then 0 else c.val
    split
    · have := c.isLt; omega
    · rfl

/-- The one row, reshaped to its own shape and broadcast down a block of TM rows, is any TM picked rows of the
    host's bias matrix. -/
theorem rowBias_rows {α : Type} (ρ : Fin TM → Fin M) (B : (⟨2, ![1, N]⟩ : Shape).Idx → α)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    broadcastTo ⟨2, ![TM, N]⟩ (shapeCast ⟨2, ![1, N]⟩ B hs) hb = rowsOf ρ (rowBias h2 B) := by
  rw [shapeCast_self]
  funext j
  obtain ⟨p, c, rfl⟩ : ∃ (p : Fin TM) (c : Fin N), j = ix2 p c := ⟨j 0, j 1, eq_ix2 j⟩
  rw [broadcastTo_1b_ab_apply, rowsOf_apply, rowBias_apply]

/-- A reshape of picked rows to their own shape is the picked rows. -/
theorem cast_of_rows {α : Type} (ρ : Fin TM → Fin M) (y : (⟨2, ![TM, N]⟩ : Shape).Idx → α) (Y : (⟨2, ![M, N]⟩ : Shape).Idx → α)
    (hy : y = rowsOf ρ Y) (hs : (⟨2, ![TM, N]⟩ : Shape).ShapeCasts ⟨2, ![TM, N]⟩) :
    shapeCast ⟨2, ![TM, N]⟩ y hs = rowsOf ρ Y := by
  rw [shapeCast_self]; exact hy

/-- Picked rows plus the bias row broadcast down the block are the picked rows of the host's sum with the bias matrix. -/
theorem addBias_of_rows (ρ : Fin TM → Fin M) (y : FVec Ideal ⟨2, ![TM, N]⟩ .f32) (Y : FVec Ideal ⟨2, ![M, N]⟩ .f32)
    (hy : y = rowsOf ρ Y) (B : FVec Ideal ⟨2, ![1, N]⟩ .f32)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    addf y (broadcastTo ⟨2, ![TM, N]⟩ (shapeCast ⟨2, ![1, N]⟩ B hs) hb) = rowsOf ρ (addf Y (rowBias h2 B)) := by
  subst hy
  rw [rowBias_rows ρ B hs hb h2, addf_rows]

/-- A sum of two operands that are picked rows is the picked rows of the sum. -/
theorem addf_of_rows (ρ : Fin TM → Fin M) (y z : FVec Ideal ⟨2, ![TM, N]⟩ .f32) (Y Z : FVec Ideal ⟨2, ![M, N]⟩ .f32)
    (hy : y = rowsOf ρ Y) (hz : z = rowsOf ρ Z) : addf y z = rowsOf ρ (addf Y Z) := by
  subst hy hz; rfl

/-- The maximum of picked rows with a splat zero is the picked rows of the host's maximum with zero. -/
theorem relu_of_rows (ρ : Fin TM → Fin M) (y : FVec Ideal ⟨2, ![TM, N]⟩ .f32) (Y : FVec Ideal ⟨2, ![M, N]⟩ .f32)
    (hy : y = rowsOf ρ Y) (h0 : (⟨0, ![]⟩ : Shape).BroadcastsInDim ⟨2, ![M, N]⟩ ![]) :
    maximumf y (broadcast ⟨2, ![TM, N]⟩ (Scalar.ofBits (F := Ideal) .f32 0x00000000#32)) = rowsOf ρ (relu h0 Y) := by
  subst hy
  exact relu_rows ρ h0 Y

/-- Picked rows converted to a narrower float format are, on the extended reals, the same picked rows. -/
theorem trunc_of_rows (ρ : Fin TM → Fin M) {ψ : FTy} (hψ : ψ.bits < FTy.f32.bits) (y : FVec Ideal ⟨2, ![TM, N]⟩ .f32)
    (Y : FVec Ideal ⟨2, ![M, N]⟩ .f32) (hy : y = rowsOf ρ Y) :
    (truncf ψ y hψ : (⟨2, ![TM, N]⟩ : Shape).Idx → EReal) = rowsOf ρ Y := hy

/-- A whole matrix converted to a narrower float format is, on the extended reals, the same matrix. -/
theorem trunc_whole {s : Shape} {ψ : FTy} (hψ : ψ.bits < FTy.f32.bits) (g G : FVec Ideal s .f32) (hg : g = G) :
    (truncf ψ g hψ : s.Idx → EReal) = G := hg

/-- The matrix unit's product into zeros of a left operand that IS picked rows of A with a right operand that IS G
    (either possibly in another float format) is the picked rows of the host's A · G. -/
theorem matmul_of_rows (ρ : Fin TM → Fin M) {φ₁ φ₂ : FTy} (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : (a : (⟨2, ![TM, K]⟩ : Shape).Idx → EReal) = rowsOf ρ A) (hg : (g : (⟨2, ![K, N]⟩ : Shape).Idx → EReal) = G) :
    matmul (DotDims.plain TM K N) none a g (constant ⟨2, ![TM, N]⟩ .f32 0x00000000#32) = rowsOf ρ (propagate A G) :=
  matmul_rows ρ none none a g A G (fun p k => congrFun ha (ix2 p k)) (fun k n => congrFun hg (ix2 k n))

end Cert.RowLayers

end
-- ==== Proof.LibRowTanh.lean ====
/-
  Three more operations read on picked rows, on the extended reals, over any sizes.

  A map ρ of row numbers lays rows ρ 0, ρ 1, … of a tall matrix as a small matrix (Cert.BlockRows.rowsOf).  For an
  operand that IS the picked rows of a tall matrix (an equation, so that the lemma applies to whatever expression the
  operand is spelled as):

  * tanh, entry by entry, of the picked rows is the picked rows of the host's tanh (one function on the extended reals);
  * a difference of two such operands is the picked rows of the difference;
  * the matrix unit's product into a zero accumulator with a fixed right factor — the two factors and the tall
    matrix's right factor each in ANY float format — is the picked rows of the host's plain product: entry (p, c) of
    either is Σ_k A (ρ p, k) · G (k, c).

  Chained with the sums and format changes of the same style they read tanh((a − b)·W)·Wᵀ, computed on a block of
  rows, as rows of the same expression on whole tables.
-/
import Idealize.ShloMosaic.PureOps.Ideal.Laws
import Idealize.ShloMosaic.Lib.Pipeline.Value
import Idealize.ShloMosaic.Lib.ValueIdx
import proofs.«110563_j43284680409676_1_alg».proof.Proof.LibBlockRows
import proofs.«110563_j43284680409676_1_alg».proof.Proof.LibRowLayers

noncomputable section

namespace Cert.RowTanh

open Idealize.ShloMosaic Idealize.ShloMosaic.ValueIdx Cert.BlockRows Cert.RowLayers

variable {TM M K N : Nat}

/-- The tanh of picked rows is the picked rows of the host's tanh: one function on the extended reals, entry by entry. -/
theorem tanh_of_rows (ρ : Fin TM → Fin M) (y : FVec Ideal ⟨2, ![TM, N]⟩ .f32) (Y : FVec Ideal ⟨2, ![M, N]⟩ .f32)
    (hy : y = rowsOf ρ Y) : tanh y = rowsOf ρ (Host.tanh Y) := by
  subst hy; rfl

/-- A difference of two operands that are picked rows is the picked rows of the difference. -/
theorem subf_of_rows (ρ : Fin TM → Fin M) (y z : FVec Ideal ⟨2, ![TM, N]⟩ .f32) (Y Z : FVec Ideal ⟨2, ![M, N]⟩ .f32)
    (hy : y = rowsOf ρ Y) (hz : z = rowsOf ρ Z) : subf y z = rowsOf ρ (subf Y Z) := by
  subst hy hz; rfl

/-- The matrix unit's product into zeros of a left operand that is picked rows of A with a right operand that is G,
    each in any float format, is the picked rows of the host's plain product A · G: entry (p, c) of either is
    Σ_k A (ρ p, k) · G (k, c). -/
theorem times_of_rows (ρ : Fin TM → Fin M) {φ₁ φ₂ φ₃ : FTy} (a : FVec Ideal ⟨2, ![TM, K]⟩ φ₁) (g : FVec Ideal ⟨2, ![K, N]⟩ φ₂)
    (A : FVec Ideal ⟨2, ![M, K]⟩ .f32) (G : FVec Ideal ⟨2, ![K, N]⟩ φ₃)
    (ha : (a : (⟨2, ![TM, K]⟩ : Shape).Idx → EReal) = rowsOf ρ A) (hg : (g : (⟨2, ![K, N]⟩ : Shape).Idx → EReal) = G) :
    matmul (DotDims.plain TM K N) none a g (constant ⟨2, ![TM, N]⟩ .f32 0x00000000#32)
      = rowsOf ρ (Host.dotGeneral (F := Ideal) (DotDims.plain M K N) none A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N none a g p c).trans ?_
  exact Finset.sum_congr rfl fun k _ => congrArg₂ (· * ·) (congrFun ha (ix2 p k)) (congrFun hg (ix2 k c))

end Cert.RowTanh

end
-- ==== Proof.RegionMlp.lean ====
/-
  The MLP kernel, read on whole tables.

  An edge table of E = 1 600 000 rows and C = 32 channels is cut into 200 blocks of 8000 rows. On a block the kernel
  computes, from the rows gs, gd of two edge tables and four whole C × C weight tables,

      tanh((gs − gd) · wg) · wgt + tanh(gd · ws) · wst,

  every product a plain matrix product into a zero accumulator, the left factor first changed to a narrower float
  format (the identity on the extended reals). Each of these operations acts on every row separately: a difference,
  a change of format and a tanh entry by entry, a product with a fixed right factor row by row. So the block of the
  result at point t is rows 8000 · t … 8000 · t + 7999 of the same expression computed on the whole tables, and, the
  200 blocks tiling the E rows, the output table after the run is that expression of the six whole tables.
-/
import proofs.«110563_j43284680409676_1_alg».proof.Proof.Gen.KernelIdeal.Frame
import proofs.«110563_j43284680409676_1_alg».proof.Proof.Spec
import proofs.«110563_j43284680409676_1_alg».proof.Proof.LibBlockRows
import proofs.«110563_j43284680409676_1_alg».proof.Proof.LibRowLayers
import proofs.«110563_j43284680409676_1_alg».proof.Proof.LibRowTanh
import Idealize.ShloMosaic.Lib.Pipeline.Value
import Idealize.ShloMosaic.Lib.ValueIdx

noncomputable section

open scoped BigOperators

namespace Cert.RegionMlp

open Idealize.ShloMosaic Idealize.ShloMosaic.TcCoe Idealize.ShloMosaic.ValueIdx Idealize.SL.Sem
open Idealize.ShloMosaic.Pipeline (Dat)
open Cert.KernelIdeal Cert.KernelIdeal.Facts₀ Cert.BlockRows Cert.RowLayers Cert.RowTanh

/-! ## The body on a block of picked rows -/

/-- The kernel's contraction is the plain product of an 8000 × 32 by a 32 × 32 matrix. -/
theorem dot_plain : dot_S8000x32_S32x32_S8000x32_1_0_0_1_n_n = DotDims.plain 8000 32 32 := rfl

/-- THE BODY, ROW BY ROW: when the two edge blocks are rows ρ 0, ρ 1, … of the edge tables GS, GD and the four weight
    blocks are the weight tables, the body's result is rows ρ 0, ρ 1, … of the MLP expression on the whole tables. -/
theorem pay1_rows (ρ : Fin 8000 → Fin 1600000) (x0 x1 : Vec Ideal S8000x32 .f32) (x2 x3 x4 x5 : Vec Ideal S32x32 .bf16)
    (GS GD : Cert.Spec.EC) (W2 W3 W4 W5 : Cert.Spec.WB)
    (h0 : x0 = rowsOf ρ GS) (h1 : x1 = rowsOf ρ GD) (h2 : x2 = W2) (h3 : x3 = W3) (h4 : x4 = W4) (h5 : x5 = W5) :
    Gen.k1_pay1 (F := Ideal) x0 x1 x2 x3 x4 x5 = rowsOf ρ (Cert.Spec.mlp GS GD W2 W3 W4 W5) := by
  subst h0 h1 h2 h3 h4 h5
  unfold Gen.k1_pay1 Cert.Spec.mlp Cert.Spec.times
  simp only [shapeCast_self]
  rw [dot_plain]
  refine addf_of_rows ρ _ _ _ _ ?_ ?_
  · refine times_of_rows ρ _ _ _ _ ?_ rfl
    refine trunc_of_rows ρ _ _ _ ?_
    refine tanh_of_rows ρ _ _ ?_
    refine times_of_rows ρ _ _ _ _ ?_ rfl
    refine trunc_of_rows ρ _ _ _ ?_
    exact subf_of_rows ρ _ _ _ _ rfl rfl
  · refine times_of_rows ρ _ _ _ _ ?_ rfl
    refine trunc_of_rows ρ _ _ _ ?_
    refine tanh_of_rows ρ _ _ ?_
    refine times_of_rows ρ _ _ _ _ ?_ rfl
    exact trunc_of_rows ρ _ _ _ rfl

/-- Region 3's body is the same expression. -/
theorem pay3_rows (ρ : Fin 8000 → Fin 1600000) (x0 x1 : Vec Ideal S8000x32 .f32) (x2 x3 x4 x5 : Vec Ideal S32x32 .bf16)
    (GS GD : Cert.Spec.EC) (W2 W3 W4 W5 : Cert.Spec.WB)
    (h0 : x0 = rowsOf ρ GS) (h1 : x1 = rowsOf ρ GD) (h2 : x2 = W2) (h3 : x3 = W3) (h4 : x4 = W4) (h5 : x5 = W5) :
    Gen.k3_pay1 (F := Ideal) x0 x1 x2 x3 x4 x5 = rowsOf ρ (Cert.Spec.mlp GS GD W2 W3 W4 W5) :=
  pay1_rows ρ x0 x1 x2 x3 x4 x5 GS GD W2 W3 W4 W5 h0 h1 h2 h3 h4 h5

/-- Region 5's body is the same expression. -/
theorem pay5_rows (ρ : Fin 8000 → Fin 1600000) (x0 x1 : Vec Ideal S8000x32 .f32) (x2 x3 x4 x5 : Vec Ideal S32x32 .bf16)
    (GS GD : Cert.Spec.EC) (W2 W3 W4 W5 : Cert.Spec.WB)
    (h0 : x0 = rowsOf ρ GS) (h1 : x1 = rowsOf ρ GD) (h2 : x2 = W2) (h3 : x3 = W3) (h4 : x4 = W4) (h5 : x5 = W5) :
    Gen.k5_pay1 (F := Ideal) x0 x1 x2 x3 x4 x5 = rowsOf ρ (Cert.Spec.mlp GS GD W2 W3 W4 W5) :=
  pay1_rows ρ x0 x1 x2 x3 x4 x5 GS GD W2 W3 W4 W5 h0 h1 h2 h3 h4 h5

/-! ## Region 1: from the blocks to the table -/

section Region1

variable (V : (c : Dev nD) → (b : Ref sig .tc) → Buf (Elt Ideal) ((c : Thread nD τ).loc b))

/-- The block indices over the grid: an edge window's block at point t is block (t, 0) of its table, a weight
    window's is the one block (0, 0) of its table. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- The rows of block t: row p of the block is row 8000 · t + p of the table. -/
def rows1 (t : Fin cfg1.N) : Fin 8000 → Fin 1600000 :=
  blockRow 8000 200 1600000 (by decide) ⟨t.val, Nat.lt_of_lt_of_eq t.isLt Gen.N_1⟩

/-- Their row numbers. -/
theorem rows1_val (t : Fin cfg1.N) (p : Fin 8000) : (rows1 t p).val = 8000 * t.val + p.val := rfl

/-- The first edge window's block at point t is rows 8000 · t … of its table. -/
theorem iblk1_0 (c : Dev nD) (t : Fin cfg1.N) :
    Gen.iblk1 (F := Ideal) V c 0 t = rowsOf (rows1 t) (V c (Pipeline.arrRef spec1 0) : Cert.Spec.EC) := by
  funext y
  unfold Gen.iblk1
  rw [View.read_apply]
  show (V c (Pipeline.arrRef spec1 0) : Cert.Spec.EC) (((cfg1.win 0).blk t).view.emb y)
    = (V c (Pipeline.arrRef spec1 0) : Cert.Spec.EC) (ix2 (rows1 t (y 0)) (y 1))
  refine congrArg _ (funext fun a => Fin.ext ?_)
  obtain ⟨⟨e0, e1⟩, -⟩ := idx1 t
  match a with
  | ⟨0, _⟩ => show win1_0.index t (0 : Fin 2) * 8000 + 1 * (y 0).val = 8000 * t.val + (y 0).val; rw [e0]; omega
  | ⟨1, _⟩ => show win1_0.index t (1 : Fin 2) * 32 + 1 * (y 1).val = (y 1).val; rw [e1]; omega

/-- The second edge window's block at point t is rows 8000 · t … of its table. -/
theorem iblk1_1 (c : Dev nD) (t : Fin cfg1.N) :
    Gen.iblk1 (F := Ideal) V c 1 t = rowsOf (rows1 t) (V c (Pipeline.arrRef spec1 1) : Cert.Spec.EC) := by
  funext y
  unfold Gen.iblk1
  rw [View.read_apply]
  show (V c (Pipeline.arrRef spec1 1) : Cert.Spec.EC) (((cfg1.win 1).blk t).view.emb y)
    = (V c (Pipeline.arrRef spec1 1) : Cert.Spec.EC) (ix2 (rows1 t (y 0)) (y 1))
  refine congrArg _ (funext fun a => Fin.ext ?_)
  obtain ⟨-, ⟨e0, e1⟩, -⟩ := idx1 t
  match a with
  | ⟨0, _⟩ => show win1_1.index t (0 : Fin 2) * 8000 + 1 * (y 0).val = 8000 * t.val + (y 0).val; rw [e0]; omega
  | ⟨1, _⟩ => show win1_1.index t (1 : Fin 2) * 32 + 1 * (y 1).val = (y 1).val; rw [e1]; omega

/-- The first weight window's block at any point is its whole table. -/
theorem iblk1_2 (c : Dev nD) (t : Fin cfg1.N) :
    Gen.iblk1 (F := Ideal) V c 2 t = (V c (Pipeline.arrRef spec1 2) : Cert.Spec.WB) := by
  funext y
  unfold Gen.iblk1
  rw [View.read_apply]
  show (V c (Pipeline.arrRef spec1 2) : Cert.Spec.WB) (((cfg1.win 2).blk t).view.emb y)
    = (V c (Pipeline.arrRef spec1 2) : Cert.Spec.WB) y
  refine congrArg _ (funext fun a => Fin.ext ?_)
  obtain ⟨-, -, ⟨e0, e1⟩, -⟩ := idx1 t
  match a with
  | ⟨0, _⟩ => show win1_2.index t (0 : Fin 2) * 32 + 1 * (y 0).val = (y 0).val; rw [e0]; omega
  | ⟨1, _⟩ => show win1_2.index t (1 : Fin 2) * 32 + 1 * (y 1).val = (y 1).val; rw [e1]; omega

/-- The second weight window's block at any point is its whole table. -/
theorem iblk1_3 (c : Dev nD) (t : Fin cfg1.N) :
    Gen.iblk1 (F := Ideal) V c 3 t = (V c (Pipeline.arrRef spec1 3) : Cert.Spec.WB) := by
  funext y
  unfold Gen.iblk1
  rw [View.read_apply]
  show (V c (Pipeline.arrRef spec1 3) : Cert.Spec.WB) (((cfg1.win 3).blk t).view.emb y)
    = (V c (Pipeline.arrRef spec1 3) : Cert.Spec.WB) y
  refine congrArg _ (funext fun a => Fin.ext ?_)
  obtain ⟨-, -, -, ⟨e0, e1⟩, -⟩ := idx1 t
  match a with
  | ⟨0, _⟩ => show win1_3.index t (0 : Fin 2) * 32 + 1 * (y 0).val = (y 0).val; rw [e0]; omega
  | ⟨1, _⟩ => show win1_3.index t (1 : Fin 2) * 32 + 1 * (y 1).val = (y 1).val; rw [e1]; omega

/-- The third weight window's block at any point is its whole table. -/
theorem iblk1_4 (c : Dev nD) (t : Fin cfg1.N) :
    Gen.iblk1 (F := Ideal) V c 4 t = (V c (Pipeline.arrRef spec1 4) : Cert.Spec.WB) := by
  funext y
  unfold Gen.iblk1
  rw [View.read_apply]
  show (V c (Pipeline.arrRef spec1 4) : Cert.Spec.WB) (((cfg1.win 4).blk t).view.emb y)
    = (V c (Pipeline.arrRef spec1 4) : Cert.Spec.WB) y
  refine congrArg _ (funext fun a => Fin.ext ?_)
  obtain ⟨-, -, -, -, ⟨e0, e1⟩, -⟩ := idx1 t
  match a with
  | ⟨0, _⟩ => show win1_4.index t (0 : Fin 2) * 32 + 1 * (y 0).val = (y 0).val; rw [e0]; omega
  | ⟨1, _⟩ => show win1_4.index t (1 : Fin 2) * 32 + 1 * (y 1).val = (y 1).val; rw [e1]; omega

/-- The fourth weight window's block at any point is its whole table. -/
theorem iblk1_5 (c : Dev nD) (t : Fin cfg1.N) :
    Gen.iblk1 (F := Ideal) V c 5 t = (V c (Pipeline.arrRef spec1 5) : Cert.Spec.WB) := by
  funext y
  unfold Gen.iblk1
  rw [View.read_apply]
  show (V c (Pipeline.arrRef spec1 5) : Cert.Spec.WB) (((cfg1.win 5).blk t).view.emb y)
    = (V c (Pipeline.arrRef spec1 5) : Cert.Spec.WB) y
  refine congrArg _ (funext fun a => Fin.ext ?_)
  obtain ⟨-, -, -, -, -, ⟨e0, e1⟩, -⟩ := idx1 t
  match a with
  | ⟨0, _⟩ => show win1_5.index t (0 : Fin 2) * 32 + 1 * (y 0).val = (y 0).val; rw [e0]; omega
  | ⟨1, _⟩ => show win1_5.index t (1 : Fin 2) * 32 + 1 * (y 1).val = (y 1).val; rw [e1]; omega

/-- A block is read and written whole: from offset zero on both axes. -/
theorem zero_offsets1 : (![0, 0] : Fin 2 → Nat) = fun _ => 0 := funext fun a => by fin_cases a <;> rfl

/-- Rows 8000 · t … of any table G, as the write-back at point t moves them, are G read through the output window's
    block at t: entry (p, q) of the block sits at row 8000 · t + p, column q of the table. -/
theorem rows_eq_block1 (t : Fin cfg1.N) (G : Cert.Spec.EC) :
    (cfg1.win 6).cut (grid1.coords t) (rowsOf (rows1 t) G) = ((cfg1.win 6).blk t).view.read (Elt Ideal) G := by
  funext y
  rw [View.read_apply]
  show G (ix2 (rows1 t (y 0)) (y 1)) = G (((cfg1.win 6).blk t).view.emb y)
  refine congrArg G (funext fun a => Fin.ext ?_)
  obtain ⟨-, -, -, -, -, -, e0, e1⟩ := idx1 t
  match a with
  | ⟨0, _⟩ => show 8000 * t.val + (y 0).val = win1_6.index t (0 : Fin 2) * 8000 + 1 * (y 0).val; rw [e0]; omega
  | ⟨1, _⟩ => show (y 1).val = win1_6.index t (1 : Fin 2) * 32 + 1 * (y 1).val; rw [e1]; omega

/-- WHAT POINT t WRITES BACK is rows 8000 · t … 8000 · t + 7999 of the MLP expression on the six tables as the region
    finds them: the body's result on the picked rows is the picked rows of the expression, and the output's block at t
    sits at the same rows. -/
theorem flushed1 (c : Dev nD) (t : Fin cfg1.N) :
    (Gen.dat1 (F := Ideal) V c).flushed 6 t = ((cfg1.win 6).blk t).view.read (Elt Ideal)
      (Cert.Spec.mlp (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((Gen.dat1 (F := Ideal) V c).after 6 t) = _
  rw [Gen.after1_6]
  unfold Gen.out1_6
  rw [View.canon_unit_zero zero_offsets1]
  simp only [View.ld_unit_zero (S := S8000x32) zero_offsets1, View.ld_unit_zero (S := S32x32) zero_offsets1]
  rw [pay1_rows (rows1 t) (Gen.iblk1 V c 0 t) (Gen.iblk1 V c 1 t) (Gen.iblk1 V c 2 t) (Gen.iblk1 V c 3 t)
    (Gen.iblk1 V c 4 t) (Gen.iblk1 V c 5 t) (V c (Pipeline.arrRef spec1 0)) (V c (Pipeline.arrRef spec1 1))
    (V c (Pipeline.arrRef spec1 2)) (V c (Pipeline.arrRef spec1 3)) (V c (Pipeline.arrRef spec1 4)) (V c (Pipeline.arrRef spec1 5))
    (iblk1_0 V c t) (iblk1_1 V c t) (iblk1_2 V c t) (iblk1_3 V c t) (iblk1_4 V c t) (iblk1_5 V c t)]
  exact rows_eq_block1 t _

/-- An entry of the table is in point t's block iff each of its coordinates is in the block's range on its axis. -/
theorem mem_blk1 (t : Fin cfg1.N) (i : S1600000x32.Idx) :
    i ∈ ((cfg1.win 6).blk t).view.set ↔ ∀ a : Fin 2, win1_6.index t a * S8000x32.size a ≤ (i a).val
      ∧ (i a).val < win1_6.index t a * S8000x32.size a + S8000x32.size a := by
  show i ∈ ((View.whole main_v54).slice (win1_6.rect t)).set ↔ _
  rw [View.set_slice_whole, Rect.mem_set_unit]
  exact Iff.rfl

/-- The 200 blocks tile the table: row r is in the block of point r / 8000, which is written back. -/
theorem cover1 (i : S1600000x32.Idx) :
    ∃ t : Fin cfg1.N, (cfg1.win 6).flush t = true ∧ i ∈ ((cfg1.win 6).blk t).view.set := by
  have hi0 : (i 0).val < 1600000 := (i 0).isLt
  have hi1 : (i 1).val < 32 := (i 1).isLt
  have hN : cfg1.N = 200 := Gen.N_1
  have ht : (i 0).val / 8000 < cfg1.N := by rw [hN]; omega
  obtain ⟨-, -, -, -, -, -, e0, e1⟩ := idx1 ⟨(i 0).val / 8000, ht⟩
  refine ⟨⟨(i 0).val / 8000, ht⟩, Gen.flush1_6 _, ?_⟩
  rw [mem_blk1]
  intro a
  match a with
  | ⟨0, _⟩ =>
    show win1_6.index ⟨(i 0).val / 8000, ht⟩ (0 : Fin 2) * 8000 ≤ (i 0).val
      ∧ (i 0).val < win1_6.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win1_6.index ⟨(i 0).val / 8000, ht⟩ (1 : Fin 2) * 32 ≤ (i 1).val
      ∧ (i 1).val < win1_6.index ⟨(i 0).val / 8000, ht⟩ (1 : Fin 2) * 32 + 32
    rw [e1]
    omega

/-- THE OUTPUT TABLE after the region: the MLP expression of the six tables as the region finds them. -/
theorem mlp1 (c : Dev nD) :
    (Gen.dat1 (F := Ideal) V c).arrAt 6 cfg1.N
      = Cert.Spec.mlp (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (Gen.dat1 (F := Ideal) V c).arrAt_eq_of_cover 6 _ (fun t _ => flushed1 V c t) cover1

end Region1

/-! ## Region 3: from the blocks to the table -/

section Region3

variable (V : (c : Dev nD) → (b : Ref sig .tc) → Buf (Elt Ideal) ((c : Thread nD τ).loc b))

/-- The block indices over the grid: an edge window's block at point t is block (t, 0) of its table, a weight
    window's is the one block (0, 0) of its table. -/
theorem idx3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = t.val ∧ win3_6.index t (1 : Fin 2) = 0) :=
  (by decide +kernel : ∀ t : Fin grid3.N, _)

/-- The rows of block t: row p of the block is row 8000 · t + p of the table. -/
def rows3 (t : Fin cfg3.N) : Fin 8000 → Fin 1600000 :=
  blockRow 8000 200 1600000 (by decide) ⟨t.val, Nat.lt_of_lt_of_eq t.isLt Gen.N_3⟩

/-- Their row numbers. -/
theorem rows3_val (t : Fin cfg3.N) (p : Fin 8000) : (rows3 t p).val = 8000 * t.val + p.val := rfl

/-- The first edge window's block at point t is rows 8000 · t … of its table. -/
theorem iblk3_0 (c : Dev nD) (t : Fin cfg3.N) :
    Gen.iblk3 (F := Ideal) V c 0 t = rowsOf (rows3 t) (V c (Pipeline.arrRef spec3 0) : Cert.Spec.EC) := by
  funext y
  unfold Gen.iblk3
  rw [View.read_apply]
  show (V c (Pipeline.arrRef spec3 0) : Cert.Spec.EC) (((cfg3.win 0).blk t).view.emb y)
    = (V c (Pipeline.arrRef spec3 0) : Cert.Spec.EC) (ix2 (rows3 t (y 0)) (y 1))
  refine congrArg _ (funext fun a => Fin.ext ?_)
  obtain ⟨⟨e0, e1⟩, -⟩ := idx3 t
  match a with
  | ⟨0, _⟩ => show win3_0.index t (0 : Fin 2) * 8000 + 1 * (y 0).val = 8000 * t.val + (y 0).val; rw [e0]; omega
  | ⟨1, _⟩ => show win3_0.index t (1 : Fin 2) * 32 + 1 * (y 1).val = (y 1).val; rw [e1]; omega

/-- The second edge window's block at point t is rows 8000 · t … of its table. -/
theorem iblk3_1 (c : Dev nD) (t : Fin cfg3.N) :
    Gen.iblk3 (F := Ideal) V c 1 t = rowsOf (rows3 t) (V c (Pipeline.arrRef spec3 1) : Cert.Spec.EC) := by
  funext y
  unfold Gen.iblk3
  rw [View.read_apply]
  show (V c (Pipeline.arrRef spec3 1) : Cert.Spec.EC) (((cfg3.win 1).blk t).view.emb y)
    = (V c (Pipeline.arrRef spec3 1) : Cert.Spec.EC) (ix2 (rows3 t (y 0)) (y 1))
  refine congrArg _ (funext fun a => Fin.ext ?_)
  obtain ⟨-, ⟨e0, e1⟩, -⟩ := idx3 t
  match a with
  | ⟨0, _⟩ => show win3_1.index t (0 : Fin 2) * 8000 + 1 * (y 0).val = 8000 * t.val + (y 0).val; rw [e0]; omega
  | ⟨1, _⟩ => show win3_1.index t (1 : Fin 2) * 32 + 1 * (y 1).val = (y 1).val; rw [e1]; omega

/-- The first weight window's block at any point is its whole table. -/
theorem iblk3_2 (c : Dev nD) (t : Fin cfg3.N) :
    Gen.iblk3 (F := Ideal) V c 2 t = (V c (Pipeline.arrRef spec3 2) : Cert.Spec.WB) := by
  funext y
  unfold Gen.iblk3
  rw [View.read_apply]
  show (V c (Pipeline.arrRef spec3 2) : Cert.Spec.WB) (((cfg3.win 2).blk t).view.emb y)
    = (V c (Pipeline.arrRef spec3 2) : Cert.Spec.WB) y
  refine congrArg _ (funext fun a => Fin.ext ?_)
  obtain ⟨-, -, ⟨e0, e1⟩, -⟩ := idx3 t
  match a with
  | ⟨0, _⟩ => show win3_2.index t (0 : Fin 2) * 32 + 1 * (y 0).val = (y 0).val; rw [e0]; omega
  | ⟨1, _⟩ => show win3_2.index t (1 : Fin 2) * 32 + 1 * (y 1).val = (y 1).val; rw [e1]; omega

/-- The second weight window's block at any point is its whole table. -/
theorem iblk3_3 (c : Dev nD) (t : Fin cfg3.N) :
    Gen.iblk3 (F := Ideal) V c 3 t = (V c (Pipeline.arrRef spec3 3) : Cert.Spec.WB) := by
  funext y
  unfold Gen.iblk3
  rw [View.read_apply]
  show (V c (Pipeline.arrRef spec3 3) : Cert.Spec.WB) (((cfg3.win 3).blk t).view.emb y)
    = (V c (Pipeline.arrRef spec3 3) : Cert.Spec.WB) y
  refine congrArg _ (funext fun a => Fin.ext ?_)
  obtain ⟨-, -, -, ⟨e0, e1⟩, -⟩ := idx3 t
  match a with
  | ⟨0, _⟩ => show win3_3.index t (0 : Fin 2) * 32 + 1 * (y 0).val = (y 0).val; rw [e0]; omega
  | ⟨1, _⟩ => show win3_3.index t (1 : Fin 2) * 32 + 1 * (y 1).val = (y 1).val; rw [e1]; omega

/-- The third weight window's block at any point is its whole table. -/
theorem iblk3_4 (c : Dev nD) (t : Fin cfg3.N) :
    Gen.iblk3 (F := Ideal) V c 4 t = (V c (Pipeline.arrRef spec3 4) : Cert.Spec.WB) := by
  funext y
  unfold Gen.iblk3
  rw [View.read_apply]
  show (V c (Pipeline.arrRef spec3 4) : Cert.Spec.WB) (((cfg3.win 4).blk t).view.emb y)
    = (V c (Pipeline.arrRef spec3 4) : Cert.Spec.WB) y
  refine congrArg _ (funext fun a => Fin.ext ?_)
  obtain ⟨-, -, -, -, ⟨e0, e1⟩, -⟩ := idx3 t
  match a with
  | ⟨0, _⟩ => show win3_4.index t (0 : Fin 2) * 32 + 1 * (y 0).val = (y 0).val; rw [e0]; omega
  | ⟨1, _⟩ => show win3_4.index t (1 : Fin 2) * 32 + 1 * (y 1).val = (y 1).val; rw [e1]; omega

/-- The fourth weight window's block at any point is its whole table. -/
theorem iblk3_5 (c : Dev nD) (t : Fin cfg3.N) :
    Gen.iblk3 (F := Ideal) V c 5 t = (V c (Pipeline.arrRef spec3 5) : Cert.Spec.WB) := by
  funext y
  unfold Gen.iblk3
  rw [View.read_apply]
  show (V c (Pipeline.arrRef spec3 5) : Cert.Spec.WB) (((cfg3.win 5).blk t).view.emb y)
    = (V c (Pipeline.arrRef spec3 5) : Cert.Spec.WB) y
  refine congrArg _ (funext fun a => Fin.ext ?_)
  obtain ⟨-, -, -, -, -, ⟨e0, e1⟩, -⟩ := idx3 t
  match a with
  | ⟨0, _⟩ => show win3_5.index t (0 : Fin 2) * 32 + 1 * (y 0).val = (y 0).val; rw [e0]; omega
  | ⟨1, _⟩ => show win3_5.index t (1 : Fin 2) * 32 + 1 * (y 1).val = (y 1).val; rw [e1]; omega

/-- A block is read and written whole: from offset zero on both axes. -/
theorem zero_offsets3 : (![0, 0] : Fin 2 → Nat) = fun _ => 0 := funext fun a => by fin_cases a <;> rfl

/-- Rows 8000 · t … of any table G, as the write-back at point t moves them, are G read through the output window's
    block at t: entry (p, q) of the block sits at row 8000 · t + p, column q of the table. -/
theorem rows_eq_block3 (t : Fin cfg3.N) (G : Cert.Spec.EC) :
    (cfg3.win 6).cut (grid3.coords t) (rowsOf (rows3 t) G) = ((cfg3.win 6).blk t).view.read (Elt Ideal) G := by
  funext y
  rw [View.read_apply]
  show G (ix2 (rows3 t (y 0)) (y 1)) = G (((cfg3.win 6).blk t).view.emb y)
  refine congrArg G (funext fun a => Fin.ext ?_)
  obtain ⟨-, -, -, -, -, -, e0, e1⟩ := idx3 t
  match a with
  | ⟨0, _⟩ => show 8000 * t.val + (y 0).val = win3_6.index t (0 : Fin 2) * 8000 + 1 * (y 0).val; rw [e0]; omega
  | ⟨1, _⟩ => show (y 1).val = win3_6.index t (1 : Fin 2) * 32 + 1 * (y 1).val; rw [e1]; omega

/-- WHAT POINT t WRITES BACK is rows 8000 · t … 8000 · t + 7999 of the MLP expression on the six tables as the region
    finds them: the body's result on the picked rows is the picked rows of the expression, and the output's block at t
    sits at the same rows. -/
theorem flushed3 (c : Dev nD) (t : Fin cfg3.N) :
    (Gen.dat3 (F := Ideal) V c).flushed 6 t = ((cfg3.win 6).blk t).view.read (Elt Ideal)
      (Cert.Spec.mlp (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  show (cfg3.win 6).cut (grid3.coords t) ((Gen.dat3 (F := Ideal) V c).after 6 t) = _
  rw [Gen.after3_6]
  unfold Gen.out3_6
  rw [View.canon_unit_zero zero_offsets3]
  simp only [View.ld_unit_zero (S := S8000x32) zero_offsets3, View.ld_unit_zero (S := S32x32) zero_offsets3]
  rw [pay3_rows (rows3 t) (Gen.iblk3 V c 0 t) (Gen.iblk3 V c 1 t) (Gen.iblk3 V c 2 t) (Gen.iblk3 V c 3 t)
    (Gen.iblk3 V c 4 t) (Gen.iblk3 V c 5 t) (V c (Pipeline.arrRef spec3 0)) (V c (Pipeline.arrRef spec3 1))
    (V c (Pipeline.arrRef spec3 2)) (V c (Pipeline.arrRef spec3 3)) (V c (Pipeline.arrRef spec3 4)) (V c (Pipeline.arrRef spec3 5))
    (iblk3_0 V c t) (iblk3_1 V c t) (iblk3_2 V c t) (iblk3_3 V c t) (iblk3_4 V c t) (iblk3_5 V c t)]
  exact rows_eq_block3 t _

/-- An entry of the table is in point t's block iff each of its coordinates is in the block's range on its axis. -/
theorem mem_blk3 (t : Fin cfg3.N) (i : S1600000x32.Idx) :
    i ∈ ((cfg3.win 6).blk t).view.set ↔ ∀ a : Fin 2, win3_6.index t a * S8000x32.size a ≤ (i a).val
      ∧ (i a).val < win3_6.index t a * S8000x32.size a + S8000x32.size a := by
  show i ∈ ((View.whole main_v98).slice (win3_6.rect t)).set ↔ _
  rw [View.set_slice_whole, Rect.mem_set_unit]
  exact Iff.rfl

/-- The 200 blocks tile the table: row r is in the block of point r / 8000, which is written back. -/
theorem cover3 (i : S1600000x32.Idx) :
    ∃ t : Fin cfg3.N, (cfg3.win 6).flush t = true ∧ i ∈ ((cfg3.win 6).blk t).view.set := by
  have hi0 : (i 0).val < 1600000 := (i 0).isLt
  have hi1 : (i 1).val < 32 := (i 1).isLt
  have hN : cfg3.N = 200 := Gen.N_3
  have ht : (i 0).val / 8000 < cfg3.N := by rw [hN]; omega
  obtain ⟨-, -, -, -, -, -, e0, e1⟩ := idx3 ⟨(i 0).val / 8000, ht⟩
  refine ⟨⟨(i 0).val / 8000, ht⟩, Gen.flush3_6 _, ?_⟩
  rw [mem_blk3]
  intro a
  match a with
  | ⟨0, _⟩ =>
    show win3_6.index ⟨(i 0).val / 8000, ht⟩ (0 : Fin 2) * 8000 ≤ (i 0).val
      ∧ (i 0).val < win3_6.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win3_6.index ⟨(i 0).val / 8000, ht⟩ (1 : Fin 2) * 32 ≤ (i 1).val
      ∧ (i 1).val < win3_6.index ⟨(i 0).val / 8000, ht⟩ (1 : Fin 2) * 32 + 32
    rw [e1]
    omega

/-- THE OUTPUT TABLE after the region: the MLP expression of the six tables as the region finds them. -/
theorem mlp3 (c : Dev nD) :
    (Gen.dat3 (F := Ideal) V c).arrAt 6 cfg3.N
      = Cert.Spec.mlp (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (Gen.dat3 (F := Ideal) V c).arrAt_eq_of_cover 6 _ (fun t _ => flushed3 V c t) cover3

end Region3

/-! ## Region 5: from the blocks to the table -/

section Region5

variable (V : (c : Dev nD) → (b : Ref sig .tc) → Buf (Elt Ideal) ((c : Thread nD τ).loc b))

/-- The block indices over the grid: an edge window's block at point t is block (t, 0) of its table, a weight
    window's is the one block (0, 0) of its table. -/
theorem idx5 : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = t.val ∧ win5_6.index t (1 : Fin 2) = 0) :=
  (by decide +kernel : ∀ t : Fin grid5.N, _)

/-- The rows of block t: row p of the block is row 8000 · t + p of the table. -/
def rows5 (t : Fin cfg5.N) : Fin 8000 → Fin 1600000 :=
  blockRow 8000 200 1600000 (by decide) ⟨t.val, Nat.lt_of_lt_of_eq t.isLt Gen.N_5⟩

/-- Their row numbers. -/
theorem rows5_val (t : Fin cfg5.N) (p : Fin 8000) : (rows5 t p).val = 8000 * t.val + p.val := rfl

/-- The first edge window's block at point t is rows 8000 · t … of its table. -/
theorem iblk5_0 (c : Dev nD) (t : Fin cfg5.N) :
    Gen.iblk5 (F := Ideal) V c 0 t = rowsOf (rows5 t) (V c (Pipeline.arrRef spec5 0) : Cert.Spec.EC) := by
  funext y
  unfold Gen.iblk5
  rw [View.read_apply]
  show (V c (Pipeline.arrRef spec5 0) : Cert.Spec.EC) (((cfg5.win 0).blk t).view.emb y)
    = (V c (Pipeline.arrRef spec5 0) : Cert.Spec.EC) (ix2 (rows5 t (y 0)) (y 1))
  refine congrArg _ (funext fun a => Fin.ext ?_)
  obtain ⟨⟨e0, e1⟩, -⟩ := idx5 t
  match a with
  | ⟨0, _⟩ => show win5_0.index t (0 : Fin 2) * 8000 + 1 * (y 0).val = 8000 * t.val + (y 0).val; rw [e0]; omega
  | ⟨1, _⟩ => show win5_0.index t (1 : Fin 2) * 32 + 1 * (y 1).val = (y 1).val; rw [e1]; omega

/-- The second edge window's block at point t is rows 8000 · t … of its table. -/
theorem iblk5_1 (c : Dev nD) (t : Fin cfg5.N) :
    Gen.iblk5 (F := Ideal) V c 1 t = rowsOf (rows5 t) (V c (Pipeline.arrRef spec5 1) : Cert.Spec.EC) := by
  funext y
  unfold Gen.iblk5
  rw [View.read_apply]
  show (V c (Pipeline.arrRef spec5 1) : Cert.Spec.EC) (((cfg5.win 1).blk t).view.emb y)
    = (V c (Pipeline.arrRef spec5 1) : Cert.Spec.EC) (ix2 (rows5 t (y 0)) (y 1))
  refine congrArg _ (funext fun a => Fin.ext ?_)
  obtain ⟨-, ⟨e0, e1⟩, -⟩ := idx5 t
  match a with
  | ⟨0, _⟩ => show win5_1.index t (0 : Fin 2) * 8000 + 1 * (y 0).val = 8000 * t.val + (y 0).val; rw [e0]; omega
  | ⟨1, _⟩ => show win5_1.index t (1 : Fin 2) * 32 + 1 * (y 1).val = (y 1).val; rw [e1]; omega

/-- The first weight window's block at any point is its whole table. -/
theorem iblk5_2 (c : Dev nD) (t : Fin cfg5.N) :
    Gen.iblk5 (F := Ideal) V c 2 t = (V c (Pipeline.arrRef spec5 2) : Cert.Spec.WB) := by
  funext y
  unfold Gen.iblk5
  rw [View.read_apply]
  show (V c (Pipeline.arrRef spec5 2) : Cert.Spec.WB) (((cfg5.win 2).blk t).view.emb y)
    = (V c (Pipeline.arrRef spec5 2) : Cert.Spec.WB) y
  refine congrArg _ (funext fun a => Fin.ext ?_)
  obtain ⟨-, -, ⟨e0, e1⟩, -⟩ := idx5 t
  match a with
  | ⟨0, _⟩ => show win5_2.index t (0 : Fin 2) * 32 + 1 * (y 0).val = (y 0).val; rw [e0]; omega
  | ⟨1, _⟩ => show win5_2.index t (1 : Fin 2) * 32 + 1 * (y 1).val = (y 1).val; rw [e1]; omega

/-- The second weight window's block at any point is its whole table. -/
theorem iblk5_3 (c : Dev nD) (t : Fin cfg5.N) :
    Gen.iblk5 (F := Ideal) V c 3 t = (V c (Pipeline.arrRef spec5 3) : Cert.Spec.WB) := by
  funext y
  unfold Gen.iblk5
  rw [View.read_apply]
  show (V c (Pipeline.arrRef spec5 3) : Cert.Spec.WB) (((cfg5.win 3).blk t).view.emb y)
    = (V c (Pipeline.arrRef spec5 3) : Cert.Spec.WB) y
  refine congrArg _ (funext fun a => Fin.ext ?_)
  obtain ⟨-, -, -, ⟨e0, e1⟩, -⟩ := idx5 t
  match a with
  | ⟨0, _⟩ => show win5_3.index t (0 : Fin 2) * 32 + 1 * (y 0).val = (y 0).val; rw [e0]; omega
  | ⟨1, _⟩ => show win5_3.index t (1 : Fin 2) * 32 + 1 * (y 1).val = (y 1).val; rw [e1]; omega

/-- The third weight window's block at any point is its whole table. -/
theorem iblk5_4 (c : Dev nD) (t : Fin cfg5.N) :
    Gen.iblk5 (F := Ideal) V c 4 t = (V c (Pipeline.arrRef spec5 4) : Cert.Spec.WB) := by
  funext y
  unfold Gen.iblk5
  rw [View.read_apply]
  show (V c (Pipeline.arrRef spec5 4) : Cert.Spec.WB) (((cfg5.win 4).blk t).view.emb y)
    = (V c (Pipeline.arrRef spec5 4) : Cert.Spec.WB) y
  refine congrArg _ (funext fun a => Fin.ext ?_)
  obtain ⟨-, -, -, -, ⟨e0, e1⟩, -⟩ := idx5 t
  match a with
  | ⟨0, _⟩ => show win5_4.index t (0 : Fin 2) * 32 + 1 * (y 0).val = (y 0).val; rw [e0]; omega
  | ⟨1, _⟩ => show win5_4.index t (1 : Fin 2) * 32 + 1 * (y 1).val = (y 1).val; rw [e1]; omega

/-- The fourth weight window's block at any point is its whole table. -/
theorem iblk5_5 (c : Dev nD) (t : Fin cfg5.N) :
    Gen.iblk5 (F := Ideal) V c 5 t = (V c (Pipeline.arrRef spec5 5) : Cert.Spec.WB) := by
  funext y
  unfold Gen.iblk5
  rw [View.read_apply]
  show (V c (Pipeline.arrRef spec5 5) : Cert.Spec.WB) (((cfg5.win 5).blk t).view.emb y)
    = (V c (Pipeline.arrRef spec5 5) : Cert.Spec.WB) y
  refine congrArg _ (funext fun a => Fin.ext ?_)
  obtain ⟨-, -, -, -, -, ⟨e0, e1⟩, -⟩ := idx5 t
  match a with
  | ⟨0, _⟩ => show win5_5.index t (0 : Fin 2) * 32 + 1 * (y 0).val = (y 0).val; rw [e0]; omega
  | ⟨1, _⟩ => show win5_5.index t (1 : Fin 2) * 32 + 1 * (y 1).val = (y 1).val; rw [e1]; omega

/-- A block is read and written whole: from offset zero on both axes. -/
theorem zero_offsets5 : (![0, 0] : Fin 2 → Nat) = fun _ => 0 := funext fun a => by fin_cases a <;> rfl

/-- Rows 8000 · t … of any table G, as the write-back at point t moves them, are G read through the output window's
    block at t: entry (p, q) of the block sits at row 8000 · t + p, column q of the table. -/
theorem rows_eq_block5 (t : Fin cfg5.N) (G : Cert.Spec.EC) :
    (cfg5.win 6).cut (grid5.coords t) (rowsOf (rows5 t) G) = ((cfg5.win 6).blk t).view.read (Elt Ideal) G := by
  funext y
  rw [View.read_apply]
  show G (ix2 (rows5 t (y 0)) (y 1)) = G (((cfg5.win 6).blk t).view.emb y)
  refine congrArg G (funext fun a => Fin.ext ?_)
  obtain ⟨-, -, -, -, -, -, e0, e1⟩ := idx5 t
  match a with
  | ⟨0, _⟩ => show 8000 * t.val + (y 0).val = win5_6.index t (0 : Fin 2) * 8000 + 1 * (y 0).val; rw [e0]; omega
  | ⟨1, _⟩ => show (y 1).val = win5_6.index t (1 : Fin 2) * 32 + 1 * (y 1).val; rw [e1]; omega

/-- WHAT POINT t WRITES BACK is rows 8000 · t … 8000 · t + 7999 of the MLP expression on the six tables as the region
    finds them: the body's result on the picked rows is the picked rows of the expression, and the output's block at t
    sits at the same rows. -/
theorem flushed5 (c : Dev nD) (t : Fin cfg5.N) :
    (Gen.dat5 (F := Ideal) V c).flushed 6 t = ((cfg5.win 6).blk t).view.read (Elt Ideal)
      (Cert.Spec.mlp (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) := by
  show (cfg5.win 6).cut (grid5.coords t) ((Gen.dat5 (F := Ideal) V c).after 6 t) = _
  rw [Gen.after5_6]
  unfold Gen.out5_6
  rw [View.canon_unit_zero zero_offsets5]
  simp only [View.ld_unit_zero (S := S8000x32) zero_offsets5, View.ld_unit_zero (S := S32x32) zero_offsets5]
  rw [pay5_rows (rows5 t) (Gen.iblk5 V c 0 t) (Gen.iblk5 V c 1 t) (Gen.iblk5 V c 2 t) (Gen.iblk5 V c 3 t)
    (Gen.iblk5 V c 4 t) (Gen.iblk5 V c 5 t) (V c (Pipeline.arrRef spec5 0)) (V c (Pipeline.arrRef spec5 1))
    (V c (Pipeline.arrRef spec5 2)) (V c (Pipeline.arrRef spec5 3)) (V c (Pipeline.arrRef spec5 4)) (V c (Pipeline.arrRef spec5 5))
    (iblk5_0 V c t) (iblk5_1 V c t) (iblk5_2 V c t) (iblk5_3 V c t) (iblk5_4 V c t) (iblk5_5 V c t)]
  exact rows_eq_block5 t _

/-- An entry of the table is in point t's block iff each of its coordinates is in the block's range on its axis. -/
theorem mem_blk5 (t : Fin cfg5.N) (i : S1600000x32.Idx) :
    i ∈ ((cfg5.win 6).blk t).view.set ↔ ∀ a : Fin 2, win5_6.index t a * S8000x32.size a ≤ (i a).val
      ∧ (i a).val < win5_6.index t a * S8000x32.size a + S8000x32.size a := by
  show i ∈ ((View.whole main_v142).slice (win5_6.rect t)).set ↔ _
  rw [View.set_slice_whole, Rect.mem_set_unit]
  exact Iff.rfl

/-- The 200 blocks tile the table: row r is in the block of point r / 8000, which is written back. -/
theorem cover5 (i : S1600000x32.Idx) :
    ∃ t : Fin cfg5.N, (cfg5.win 6).flush t = true ∧ i ∈ ((cfg5.win 6).blk t).view.set := by
  have hi0 : (i 0).val < 1600000 := (i 0).isLt
  have hi1 : (i 1).val < 32 := (i 1).isLt
  have hN : cfg5.N = 200 := Gen.N_5
  have ht : (i 0).val / 8000 < cfg5.N := by rw [hN]; omega
  obtain ⟨-, -, -, -, -, -, e0, e1⟩ := idx5 ⟨(i 0).val / 8000, ht⟩
  refine ⟨⟨(i 0).val / 8000, ht⟩, Gen.flush5_6 _, ?_⟩
  rw [mem_blk5]
  intro a
  match a with
  | ⟨0, _⟩ =>
    show win5_6.index ⟨(i 0).val / 8000, ht⟩ (0 : Fin 2) * 8000 ≤ (i 0).val
      ∧ (i 0).val < win5_6.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win5_6.index ⟨(i 0).val / 8000, ht⟩ (1 : Fin 2) * 32 ≤ (i 1).val
      ∧ (i 1).val < win5_6.index ⟨(i 0).val / 8000, ht⟩ (1 : Fin 2) * 32 + 32
    rw [e1]
    omega

/-- THE OUTPUT TABLE after the region: the MLP expression of the six tables as the region finds them. -/
theorem mlp5 (c : Dev nD) :
    (Gen.dat5 (F := Ideal) V c).arrAt 6 cfg5.N
      = Cert.Spec.mlp (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5)) :=
  (Gen.dat5 (F := Ideal) V c).arrAt_eq_of_cover 6 _ (fun t _ => flushed5 V c t) cover5

end Region5

end Cert.RegionMlp

end
-- ==== Proof.RegionEmb.lean ====
/-
  The embedding kernel on whole tables.

  The kernel is handed an edge table Z (E × C), a second edge table of the same shape and one C × C weight table W,
  and writes two E × C tables.  On a block of 8000 consecutive rows it multiplies the rows, narrowed to the short
  float format, by the whole of W into a zero accumulator.  A product with a fixed right factor acts on every row
  separately, so what block t receives is rows 8000·t … 8000·t + 7999 of the plain product of the whole table with W;
  the 200 blocks tile the 1 600 000 rows, so each output table ends as that whole product.
-/
import proofs.«110563_j43284680409676_1_alg».proof.Proof.Gen.KernelIdeal.Frame
import proofs.«110563_j43284680409676_1_alg».proof.Proof.Spec
import proofs.«110563_j43284680409676_1_alg».proof.Proof.LibBlockRows
import proofs.«110563_j43284680409676_1_alg».proof.Proof.LibRowLayers

set_option maxRecDepth 16384

noncomputable section

namespace Cert.RegionEmb

open Idealize.ShloMosaic Idealize.ShloMosaic.ValueIdx Idealize.ShloMosaic.TcCoe
open Idealize.ShloMosaic.Pipeline (Dat Cfg Window)
open Cert.KernelIdeal Cert.KernelIdeal.Facts₀ Cert.KernelIdeal.Gen Cert.BlockRows Cert.RowLayers

/-- The 200 blocks of 8000 rows fit in the 1 600 000 rows. -/
theorem blocks_fit : 8000 * 200 ≤ 1600000 := by decide

/-- Row p of block t. -/
abbrev rowAt (t : Fin 200) : Fin 8000 → Fin 1600000 := blockRow 8000 200 1600000 blocks_fit t

/-- The kernel's contraction is the plain product of an 8000 × 32 by a 32 × 32 matrix. -/
theorem dot_plain : dot_S8000x32_S32x32_S8000x32_1_0_0_1_n_n = DotDims.plain 8000 32 32 := rfl

/-- The first output's payload on picked rows of A and the whole of W is the picked rows of A · W. -/
theorem pay2_rows (ρ : Fin 8000 → Fin 1600000) (x0 : Vec Ideal S8000x32 .f32) (x2 : Vec Ideal S32x32 .bf16)
    (A : Spec.EC) (W : FVec Ideal S32x32 .bf16) (h0 : x0 = rowsOf ρ A) (h2 : x2 = W) :
    k7_pay2 (F := Ideal) x0 x2 = rowsOf ρ (Spec.times A W) := by
  subst h0 h2
  unfold k7_pay2 k7_pay1
  rw [dot_plain, shapeCast_self, shapeCast_self]
  exact matmul_rows ρ none none _ _ A x2 (fun _ _ => rfl) (fun _ _ => rfl)

/-- The second output's payload on picked rows of A and the whole of W is the picked rows of A · W. -/
theorem pay3_rows (ρ : Fin 8000 → Fin 1600000) (x1 : Vec Ideal S8000x32 .f32) (x2 : Vec Ideal S32x32 .bf16)
    (A : Spec.EC) (W : FVec Ideal S32x32 .bf16) (h1 : x1 = rowsOf ρ A) (h2 : x2 = W) :
    k7_pay3 (F := Ideal) x1 x2 = rowsOf ρ (Spec.times A W) := by
  subst h1 h2
  unfold k7_pay3 k7_pay1
  rw [dot_plain, shapeCast_self, shapeCast_self]
  exact matmul_rows ρ none none _ _ A x2 (fun _ _ => rfl) (fun _ _ => rfl)

/-! ## The windows' blocks as picked rows -/

-- the buffer contents when the region is entered
variable (V : (c : Dev nD) → (b : Ref sig .tc) → Buf (Elt Ideal) ((c : Thread nD τ).loc b))

/-- The windows' index maps over the grid: an edge window's block at point t is block (t, 0); the weight window's is
    always block (0, 0). -/
theorem index_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- The first edge window's block at point t is rows 8000·t … of its table. -/
theorem blk_edge0 (c : Dev nD) (t : Fin cfg7.N) :
    iblk7 (F := Ideal) V c 0 t = rowsOf (rowAt t) (V c (Pipeline.arrRef spec7 0)) := by
  funext j
  show V c (Pipeline.arrRef spec7 0) (((cfg7.win 0).blk t).view.emb j) = V c (Pipeline.arrRef spec7 0) (ix2 (rowAt t (j 0)) (j 1))
  refine congrArg _ ?_
  funext a; apply Fin.ext
  obtain ⟨e0, e1, -⟩ := index_facts t
  match a with
  | ⟨0, _⟩ => show win7_0.index t (0 : Fin 2) * 8000 + 1 * (j 0).val = 8000 * t.val + (j 0).val; omega
  | ⟨1, _⟩ => show win7_0.index t (1 : Fin 2) * 32 + 1 * (j 1).val = (j 1).val; omega

/-- The second edge window's block at point t is rows 8000·t … of its table. -/
theorem blk_edge1 (c : Dev nD) (t : Fin cfg7.N) :
    iblk7 (F := Ideal) V c 1 t = rowsOf (rowAt t) (V c (Pipeline.arrRef spec7 1)) := by
  funext j
  show V c (Pipeline.arrRef spec7 1) (((cfg7.win 1).blk t).view.emb j) = V c (Pipeline.arrRef spec7 1) (ix2 (rowAt t (j 0)) (j 1))
  refine congrArg _ ?_
  funext a; apply Fin.ext
  obtain ⟨-, -, e2, e3, -⟩ := index_facts t
  match a with
  | ⟨0, _⟩ => show win7_1.index t (0 : Fin 2) * 8000 + 1 * (j 0).val = 8000 * t.val + (j 0).val; omega
  | ⟨1, _⟩ => show win7_1.index t (1 : Fin 2) * 32 + 1 * (j 1).val = (j 1).val; omega

/-- The weight window's block is the whole weight table at every point. -/
theorem blk_weight (c : Dev nD) (t : Fin cfg7.N) :
    iblk7 (F := Ideal) V c 2 t = V c (Pipeline.arrRef spec7 2) := by
  funext j
  show V c (Pipeline.arrRef spec7 2) (((cfg7.win 2).blk t).view.emb j) = V c (Pipeline.arrRef spec7 2) j
  refine congrArg _ ?_
  funext a; apply Fin.ext
  obtain ⟨-, -, -, -, e4, e5, -⟩ := index_facts t
  match a with
  | ⟨0, _⟩ => show win7_2.index t (0 : Fin 2) * 32 + 1 * (j 0).val = (j 0).val; omega
  | ⟨1, _⟩ => show win7_2.index t (1 : Fin 2) * 32 + 1 * (j 1).val = (j 1).val; omega

/-! ## The first output table -/

/-- The stores and loads of the body start at the origin of their buffers. -/
theorem zero_offsets : (![0, 0] : Fin 2 → Nat) = fun _ => 0 := funext fun a => by fin_cases a <;> rfl

/-- What point t writes back through the first output window is block t of the whole product. -/
theorem flushed3 (c : Dev nD) (t : Fin cfg7.N) :
    (dat7 (F := Ideal) V c).flushed 3 t
      = ((cfg7.win 3).blk t).view.read (Elt Ideal) (Spec.times (φ := .bf16) (V c (Pipeline.arrRef spec7 0)) (V c (Pipeline.arrRef spec7 2))) := by
  show (cfg7.win 3).cut (grid7.coords t) ((dat7 (F := Ideal) V c).after 3 t) = _
  rw [after7_3]
  unfold out7_3
  rw [View.canon_unit_zero zero_offsets]
  simp only [View.ld_unit_zero (S := S8000x32) zero_offsets, View.ld_unit_zero (S := S32x32) zero_offsets]
  rw [pay2_rows (rowAt t) _ _ _ _ (blk_edge0 V c t) (blk_weight V c t)]
  generalize Spec.times (φ := .bf16) (V c (Pipeline.arrRef spec7 0)) (V c (Pipeline.arrRef spec7 2)) = G
  funext j
  show G (ix2 (rowAt t (j 0)) (j 1)) = G (((cfg7.win 3).blk t).view.emb j)
  refine congrArg _ ?_
  funext a; apply Fin.ext
  obtain ⟨-, -, -, -, -, -, e6, e7, -⟩ := index_facts t
  match a with
  | ⟨0, _⟩ => show 8000 * t.val + (j 0).val = win7_3.index t (0 : Fin 2) * 8000 + 1 * (j 0).val; omega
  | ⟨1, _⟩ => show (j 1).val = win7_3.index t (1 : Fin 2) * 32 + 1 * (j 1).val; omega

/-- An index of the first output table lies in point t's block iff each coordinate lies in the block's range. -/
theorem mem_blk3 (t : Fin cfg7.N) (i : S1600000x32.Idx) :
    i ∈ ((cfg7.win 3).blk t).view.set ↔ ∀ a : Fin 2, win7_3.index t a * S8000x32.size a ≤ (i a).val ∧ (i a).val < win7_3.index t a * S8000x32.size a + S8000x32.size a := by
  show i ∈ ((View.whole main_v167_0).slice (win7_3.rect t)).set ↔ _
  rw [View.set_slice_whole, Rect.mem_set_unit]
  exact Iff.rfl

/-- Every row r of the first output table is written back by the point r / 8000. -/
theorem cover3 (i : S1600000x32.Idx) :
    ∃ t : Fin cfg7.N, (cfg7.win 3).flush t = true ∧ i ∈ ((cfg7.win 3).blk t).view.set := by
  have hi0 : (i 0).val < 1600000 := (i 0).isLt
  have hi1 : (i 1).val < 32 := (i 1).isLt
  have hN : (i 0).val / 8000 < cfg7.N := by show _ < 200; omega
  refine ⟨⟨(i 0).val / 8000, hN⟩, flush7_3 _, ?_⟩
  rw [mem_blk3]
  obtain ⟨-, -, -, -, -, -, e6, e7, -⟩ := index_facts ⟨(i 0).val / 8000, hN⟩
  have e6' : win7_3.index ⟨(i 0).val / 8000, hN⟩ (0 : Fin 2) = (i 0).val / 8000 := e6
  intro a
  match a with
  | ⟨0, _⟩ =>
    show win7_3.index ⟨(i 0).val / 8000, hN⟩ (0 : Fin 2) * 8000 ≤ (i 0).val
      ∧ (i 0).val < win7_3.index ⟨(i 0).val / 8000, hN⟩ (0 : Fin 2) * 8000 + 8000
    omega
  | ⟨1, _⟩ =>
    show win7_3.index ⟨(i 0).val / 8000, hN⟩ (1 : Fin 2) * 32 ≤ (i 1).val
      ∧ (i 1).val < win7_3.index ⟨(i 0).val / 8000, hN⟩ (1 : Fin 2) * 32 + 32
    omega

/-- The first output table after the region: the whole product of the first edge table with the weight table. -/
theorem emb7_3 (c : Dev nD) :
    (dat7 (F := Ideal) V c).arrAt 3 cfg7.N
      = Spec.times (φ := .bf16) (V c (Pipeline.arrRef spec7 0)) (V c (Pipeline.arrRef spec7 2)) :=
  (dat7 (F := Ideal) V c).arrAt_eq_of_cover 3 _ (fun t _ => flushed3 V c t) cover3

/-! ## The second output table -/

/-- What point t writes back through the second output window is block t of the whole product. -/
theorem flushed4 (c : Dev nD) (t : Fin cfg7.N) :
    (dat7 (F := Ideal) V c).flushed 4 t
      = ((cfg7.win 4).blk t).view.read (Elt Ideal) (Spec.times (φ := .bf16) (V c (Pipeline.arrRef spec7 1)) (V c (Pipeline.arrRef spec7 2))) := by
  show (cfg7.win 4).cut (grid7.coords t) ((dat7 (F := Ideal) V c).after 4 t) = _
  rw [after7_4]
  unfold out7_4
  rw [View.canon_unit_zero zero_offsets]
  simp only [View.ld_unit_zero (S := S8000x32) zero_offsets, View.ld_unit_zero (S := S32x32) zero_offsets]
  rw [pay3_rows (rowAt t) _ _ _ _ (blk_edge1 V c t) (blk_weight V c t)]
  generalize Spec.times (φ := .bf16) (V c (Pipeline.arrRef spec7 1)) (V c (Pipeline.arrRef spec7 2)) = G
  funext j
  show G (ix2 (rowAt t (j 0)) (j 1)) = G (((cfg7.win 4).blk t).view.emb j)
  refine congrArg _ ?_
  funext a; apply Fin.ext
  obtain ⟨-, -, -, -, -, -, -, -, e8, e9⟩ := index_facts t
  match a with
  | ⟨0, _⟩ => show 8000 * t.val + (j 0).val = win7_4.index t (0 : Fin 2) * 8000 + 1 * (j 0).val; omega
  | ⟨1, _⟩ => show (j 1).val = win7_4.index t (1 : Fin 2) * 32 + 1 * (j 1).val; omega

/-- An index of the second output table lies in point t's block iff each coordinate lies in the block's range. -/
theorem mem_blk4 (t : Fin cfg7.N) (i : S1600000x32.Idx) :
    i ∈ ((cfg7.win 4).blk t).view.set ↔ ∀ a : Fin 2, win7_4.index t a * S8000x32.size a ≤ (i a).val ∧ (i a).val < win7_4.index t a * S8000x32.size a + S8000x32.size a := by
  show i ∈ ((View.whole main_v167_1).slice (win7_4.rect t)).set ↔ _
  rw [View.set_slice_whole, Rect.mem_set_unit]
  exact Iff.rfl

/-- Every row r of the second output table is written back by the point r / 8000. -/
theorem cover4 (i : S1600000x32.Idx) :
    ∃ t : Fin cfg7.N, (cfg7.win 4).flush t = true ∧ i ∈ ((cfg7.win 4).blk t).view.set := by
  have hi0 : (i 0).val < 1600000 := (i 0).isLt
  have hi1 : (i 1).val < 32 := (i 1).isLt
  have hN : (i 0).val / 8000 < cfg7.N := by show _ < 200; omega
  refine ⟨⟨(i 0).val / 8000, hN⟩, flush7_4 _, ?_⟩
  rw [mem_blk4]
  obtain ⟨-, -, -, -, -, -, -, -, e8, e9⟩ := index_facts ⟨(i 0).val / 8000, hN⟩
  have e8' : win7_4.index ⟨(i 0).val / 8000, hN⟩ (0 : Fin 2) = (i 0).val / 8000 := e8
  intro a
  match a with
  | ⟨0, _⟩ =>
    show win7_4.index ⟨(i 0).val / 8000, hN⟩ (0 : Fin 2) * 8000 ≤ (i 0).val
      ∧ (i 0).val < win7_4.index ⟨(i 0).val / 8000, hN⟩ (0 : Fin 2) * 8000 + 8000
    omega
  | ⟨1, _⟩ =>
    show win7_4.index ⟨(i 0).val / 8000, hN⟩ (1 : Fin 2) * 32 ≤ (i 1).val
      ∧ (i 1).val < win7_4.index ⟨(i 0).val / 8000, hN⟩ (1 : Fin 2) * 32 + 32
    omega

/-- The second output table after the region: the whole product of the second edge table with the weight table. -/
theorem emb7_4 (c : Dev nD) :
    (dat7 (F := Ideal) V c).arrAt 4 cfg7.N
      = Spec.times (φ := .bf16) (V c (Pipeline.arrRef spec7 1)) (V c (Pipeline.arrRef spec7 2)) :=
  (dat7 (F := Ideal) V c).arrAt_eq_of_cover 4 _ (fun t _ => flushed4 V c t) cover4

end Cert.RegionEmb

end
-- ==== Proof.FoldChain.lean ====
/-
  The kernel program's buffers, boundary by boundary.

  The program is fifteen segments: a stretch of host operations, then a pipeline, seven times over, and a last
  pipeline.  Starting from the launch memory, each boundary's contents are named for the buffers a later segment
  reads: the id rows, the data and the edge weights, the narrowed weight tables — carried unchanged from the first
  stretch on — and the moving tables: the edge table Z after each projection step, the MLP output after each round,
  the last residual.  A pipeline's output array is its kernel's whole-array function of its input arrays; a host
  stretch's results are the specification's functions of what it reads.  At the last boundary the three result
  buffers hold the embedding of the last projected table, the embedding of the last MLP output, and the last residual.
-/
import proofs.«110563_j43284680409676_1_alg».proof.Proof.Gen.KernelIdeal.Frame
import proofs.«110563_j43284680409676_1_alg».proof.Proof.Spec
import proofs.«110563_j43284680409676_1_alg».proof.Proof.FoldHost
import proofs.«110563_j43284680409676_1_alg».proof.Proof.FoldDefs
import proofs.«110563_j43284680409676_1_alg».proof.Proof.RegionCombine
import proofs.«110563_j43284680409676_1_alg».proof.Proof.RegionMlp
import proofs.«110563_j43284680409676_1_alg».proof.Proof.RegionEmb

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-! ## Boundary 1: after the first stretch -/
theorem w1_v1 : W1 m ρ c (Proc.devRef .tc main_v1) = src m c := Host.s0_src (W0 m ρ c)
theorem w1_v3 : W1 m ρ c (Proc.devRef .tc main_v3) = dst m c := Host.s0_dst (W0 m ρ c)
theorem w1_arg0 : W1 m ρ c (Proc.devRef .tc main_arg0) = aD m c := Host.keep0 (W0 m ρ c) main_arg0 (by decide)
theorem w1_arg2 : W1 m ρ c (Proc.devRef .tc main_arg2) = aEw m c := Host.keep0 (W0 m ρ c) main_arg2 (by decide)
theorem w1_v4 : W1 m ρ c (Proc.devRef .tc main_v4) = narrow (aWg m c) := Host.s0_wg (W0 m ρ c)
theorem w1_v6 : W1 m ρ c (Proc.devRef .tc main_v6) = narrow (flip (aWg m c)) := Host.s0_wgt (W0 m ρ c)
theorem w1_v7 : W1 m ρ c (Proc.devRef .tc main_v7) = narrow (aWs m c) := Host.s0_ws (W0 m ρ c)
theorem w1_v9 : W1 m ρ c (Proc.devRef .tc main_v9) = narrow (flip (aWs m c)) := Host.s0_wst (W0 m ρ c)
theorem w1_v10 : W1 m ρ c (Proc.devRef .tc main_v10) = narrow (aWemb m c) := Host.s0_wemb (W0 m ρ c)
theorem w1_arg1 : W1 m ρ c (Proc.devRef .tc main_arg1) = aX m c := Host.keep0 (W0 m ρ c) main_arg1 (by decide)
theorem w1_v31 : W1 m ρ c (Proc.devRef .tc main_v31) = resS m c (aX m c) := Host.s0_rs (W0 m ρ c)
theorem w1_v33 : W1 m ρ c (Proc.devRef .tc main_v33) = resD m c (aX m c) := Host.s0_rd (W0 m ρ c)

/-! ## Boundary 2: after pipeline 0 -/
theorem w2_v1 : W2 m ρ c (Proc.devRef .tc main_v1) = src m c := (W2_of_ne m ρ c main_v1 (by decide)).trans (w1_v1 m ρ c)
theorem w2_v3 : W2 m ρ c (Proc.devRef .tc main_v3) = dst m c := (W2_of_ne m ρ c main_v3 (by decide)).trans (w1_v3 m ρ c)
theorem w2_arg0 : W2 m ρ c (Proc.devRef .tc main_arg0) = aD m c := (W2_of_ne m ρ c main_arg0 (by decide)).trans (w1_arg0 m ρ c)
theorem w2_arg2 : W2 m ρ c (Proc.devRef .tc main_arg2) = aEw m c := (W2_of_ne m ρ c main_arg2 (by decide)).trans (w1_arg2 m ρ c)
theorem w2_v4 : W2 m ρ c (Proc.devRef .tc main_v4) = narrow (aWg m c) := (W2_of_ne m ρ c main_v4 (by decide)).trans (w1_v4 m ρ c)
theorem w2_v6 : W2 m ρ c (Proc.devRef .tc main_v6) = narrow (flip (aWg m c)) := (W2_of_ne m ρ c main_v6 (by decide)).trans (w1_v6 m ρ c)
theorem w2_v7 : W2 m ρ c (Proc.devRef .tc main_v7) = narrow (aWs m c) := (W2_of_ne m ρ c main_v7 (by decide)).trans (w1_v7 m ρ c)
theorem w2_v9 : W2 m ρ c (Proc.devRef .tc main_v9) = narrow (flip (aWs m c)) := (W2_of_ne m ρ c main_v9 (by decide)).trans (w1_v9 m ρ c)
theorem w2_v10 : W2 m ρ c (Proc.devRef .tc main_v10) = narrow (aWemb m c) := (W2_of_ne m ρ c main_v10 (by decide)).trans (w1_v10 m ρ c)
theorem w2_v34 : W2 m ρ c (Proc.devRef .tc main_v34) = Z0 m c :=
  (W2_arr m ρ c 3).trans ((Cert.RegionCombine.combine0 (V1 m ρ) c).trans (by
    show Spec.combine (W1 m ρ c (Proc.devRef .tc main_arg1)) (W1 m ρ c (Proc.devRef .tc main_v31)) (W1 m ρ c (Proc.devRef .tc main_v33)) = _
    rw [w1_arg1, w1_v31, w1_v33] <;> rfl))

/-! ## Boundary 3: after stretch 1 -/
theorem w3_v1 : W3 m ρ c (Proc.devRef .tc main_v1) = src m c := (Host.keep1 (W2 m ρ c) main_v1 (by decide)).trans (w2_v1 m ρ c)
theorem w3_v3 : W3 m ρ c (Proc.devRef .tc main_v3) = dst m c := (Host.keep1 (W2 m ρ c) main_v3 (by decide)).trans (w2_v3 m ρ c)
theorem w3_arg0 : W3 m ρ c (Proc.devRef .tc main_arg0) = aD m c := (Host.keep1 (W2 m ρ c) main_arg0 (by decide)).trans (w2_arg0 m ρ c)
theorem w3_arg2 : W3 m ρ c (Proc.devRef .tc main_arg2) = aEw m c := (Host.keep1 (W2 m ρ c) main_arg2 (by decide)).trans (w2_arg2 m ρ c)
theorem w3_v4 : W3 m ρ c (Proc.devRef .tc main_v4) = narrow (aWg m c) := (Host.keep1 (W2 m ρ c) main_v4 (by decide)).trans (w2_v4 m ρ c)
theorem w3_v6 : W3 m ρ c (Proc.devRef .tc main_v6) = narrow (flip (aWg m c)) := (Host.keep1 (W2 m ρ c) main_v6 (by decide)).trans (w2_v6 m ρ c)
theorem w3_v7 : W3 m ρ c (Proc.devRef .tc main_v7) = narrow (aWs m c) := (Host.keep1 (W2 m ρ c) main_v7 (by decide)).trans (w2_v7 m ρ c)
theorem w3_v9 : W3 m ρ c (Proc.devRef .tc main_v9) = narrow (flip (aWs m c)) := (Host.keep1 (W2 m ρ c) main_v9 (by decide)).trans (w2_v9 m ρ c)
theorem w3_v10 : W3 m ρ c (Proc.devRef .tc main_v10) = narrow (aWemb m c) := (Host.keep1 (W2 m ρ c) main_v10 (by decide)).trans (w2_v10 m ρ c)
theorem w3_v51 : W3 m ρ c (Proc.devRef .tc main_v51) = rowS m c (Z0 m c) :=
  (Host.s1_gs (W2 m ρ c)).trans (by rw [w2_arg2, w2_v34, w2_v1])
theorem w3_v53 : W3 m ρ c (Proc.devRef .tc main_v53) = rowD m c (Z0 m c) :=
  (Host.s1_gd (W2 m ρ c)).trans (by rw [w2_arg2, w2_v34, w2_v3])

/-! ## Boundary 4: after pipeline 1 -/
theorem w4_v1 : W4 m ρ c (Proc.devRef .tc main_v1) = src m c := (W4_of_ne m ρ c main_v1 (by decide)).trans (w3_v1 m ρ c)
theorem w4_v3 : W4 m ρ c (Proc.devRef .tc main_v3) = dst m c := (W4_of_ne m ρ c main_v3 (by decide)).trans (w3_v3 m ρ c)
theorem w4_arg0 : W4 m ρ c (Proc.devRef .tc main_arg0) = aD m c := (W4_of_ne m ρ c main_arg0 (by decide)).trans (w3_arg0 m ρ c)
theorem w4_arg2 : W4 m ρ c (Proc.devRef .tc main_arg2) = aEw m c := (W4_of_ne m ρ c main_arg2 (by decide)).trans (w3_arg2 m ρ c)
theorem w4_v4 : W4 m ρ c (Proc.devRef .tc main_v4) = narrow (aWg m c) := ((W4_arr m ρ c 2).trans (((dat1 (V3 m ρ) c).arrAt_in 2 rfl _).trans (A_eq1 (V3 m ρ) c 2))).trans (w3_v4 m ρ c)
theorem w4_v6 : W4 m ρ c (Proc.devRef .tc main_v6) = narrow (flip (aWg m c)) := ((W4_arr m ρ c 3).trans (((dat1 (V3 m ρ) c).arrAt_in 3 rfl _).trans (A_eq1 (V3 m ρ) c 3))).trans (w3_v6 m ρ c)
theorem w4_v7 : W4 m ρ c (Proc.devRef .tc main_v7) = narrow (aWs m c) := ((W4_arr m ρ c 4).trans (((dat1 (V3 m ρ) c).arrAt_in 4 rfl _).trans (A_eq1 (V3 m ρ) c 4))).trans (w3_v7 m ρ c)
theorem w4_v9 : W4 m ρ c (Proc.devRef .tc main_v9) = narrow (flip (aWs m c)) := ((W4_arr m ρ c 5).trans (((dat1 (V3 m ρ) c).arrAt_in 5 rfl _).trans (A_eq1 (V3 m ρ) c 5))).trans (w3_v9 m ρ c)
theorem w4_v10 : W4 m ρ c (Proc.devRef .tc main_v10) = narrow (aWemb m c) := (W4_of_ne m ρ c main_v10 (by decide)).trans (w3_v10 m ρ c)
theorem w4_v54 : W4 m ρ c (Proc.devRef .tc main_v54) = Y1 m c :=
  (W4_arr m ρ c 6).trans ((Cert.RegionMlp.mlp1 (V3 m ρ) c).trans (by
    show Spec.mlp (W3 m ρ c (Proc.devRef .tc main_v51)) (W3 m ρ c (Proc.devRef .tc main_v53)) (W3 m ρ c (Proc.devRef .tc main_v4)) (W3 m ρ c (Proc.devRef .tc main_v6)) (W3 m ρ c (Proc.devRef .tc main_v7)) (W3 m ρ c (Proc.devRef .tc main_v9)) = _
    rw [w3_v51, w3_v53, w3_v4, w3_v6, w3_v7, w3_v9] <;> rfl))

/-! ## Boundary 5: after stretch 2 -/
theorem w5_v1 : W5 m ρ c (Proc.devRef .tc main_v1) = src m c := (Host.keep2 (W4 m ρ c) main_v1 (by decide)).trans (w4_v1 m ρ c)
theorem w5_v3 : W5 m ρ c (Proc.devRef .tc main_v3) = dst m c := (Host.keep2 (W4 m ρ c) main_v3 (by decide)).trans (w4_v3 m ρ c)
theorem w5_arg0 : W5 m ρ c (Proc.devRef .tc main_arg0) = aD m c := (Host.keep2 (W4 m ρ c) main_arg0 (by decide)).trans (w4_arg0 m ρ c)
theorem w5_arg2 : W5 m ρ c (Proc.devRef .tc main_arg2) = aEw m c := (Host.keep2 (W4 m ρ c) main_arg2 (by decide)).trans (w4_arg2 m ρ c)
theorem w5_v4 : W5 m ρ c (Proc.devRef .tc main_v4) = narrow (aWg m c) := (Host.keep2 (W4 m ρ c) main_v4 (by decide)).trans (w4_v4 m ρ c)
theorem w5_v6 : W5 m ρ c (Proc.devRef .tc main_v6) = narrow (flip (aWg m c)) := (Host.keep2 (W4 m ρ c) main_v6 (by decide)).trans (w4_v6 m ρ c)
theorem w5_v7 : W5 m ρ c (Proc.devRef .tc main_v7) = narrow (aWs m c) := (Host.keep2 (W4 m ρ c) main_v7 (by decide)).trans (w4_v7 m ρ c)
theorem w5_v9 : W5 m ρ c (Proc.devRef .tc main_v9) = narrow (flip (aWs m c)) := (Host.keep2 (W4 m ρ c) main_v9 (by decide)).trans (w4_v9 m ρ c)
theorem w5_v10 : W5 m ρ c (Proc.devRef .tc main_v10) = narrow (aWemb m c) := (Host.keep2 (W4 m ρ c) main_v10 (by decide)).trans (w4_v10 m ρ c)
theorem w5_v54 : W5 m ρ c (Proc.devRef .tc main_v54) = Y1 m c := (Host.keep2 (W4 m ρ c) main_v54 (by decide)).trans (w4_v54 m ρ c)
theorem w5_v75 : W5 m ρ c (Proc.devRef .tc main_v75) = resS m c (Y1 m c) :=
  (Host.s2_rs (W4 m ρ c)).trans (by rw [w4_arg2, w4_arg0, w4_v1, w4_v54])
theorem w5_v77 : W5 m ρ c (Proc.devRef .tc main_v77) = resD m c (Y1 m c) :=
  (Host.s2_rd (W4 m ρ c)).trans (by rw [w4_arg2, w4_arg0, w4_v1, w4_v54, w4_v3])

/-! ## Boundary 6: after pipeline 2 -/
theorem w6_v1 : W6 m ρ c (Proc.devRef .tc main_v1) = src m c := (W6_of_ne m ρ c main_v1 (by decide)).trans (w5_v1 m ρ c)
theorem w6_v3 : W6 m ρ c (Proc.devRef .tc main_v3) = dst m c := (W6_of_ne m ρ c main_v3 (by decide)).trans (w5_v3 m ρ c)
theorem w6_arg0 : W6 m ρ c (Proc.devRef .tc main_arg0) = aD m c := (W6_of_ne m ρ c main_arg0 (by decide)).trans (w5_arg0 m ρ c)
theorem w6_arg2 : W6 m ρ c (Proc.devRef .tc main_arg2) = aEw m c := (W6_of_ne m ρ c main_arg2 (by decide)).trans (w5_arg2 m ρ c)
theorem w6_v4 : W6 m ρ c (Proc.devRef .tc main_v4) = narrow (aWg m c) := (W6_of_ne m ρ c main_v4 (by decide)).trans (w5_v4 m ρ c)
theorem w6_v6 : W6 m ρ c (Proc.devRef .tc main_v6) = narrow (flip (aWg m c)) := (W6_of_ne m ρ c main_v6 (by decide)).trans (w5_v6 m ρ c)
theorem w6_v7 : W6 m ρ c (Proc.devRef .tc main_v7) = narrow (aWs m c) := (W6_of_ne m ρ c main_v7 (by decide)).trans (w5_v7 m ρ c)
theorem w6_v9 : W6 m ρ c (Proc.devRef .tc main_v9) = narrow (flip (aWs m c)) := (W6_of_ne m ρ c main_v9 (by decide)).trans (w5_v9 m ρ c)
theorem w6_v10 : W6 m ρ c (Proc.devRef .tc main_v10) = narrow (aWemb m c) := (W6_of_ne m ρ c main_v10 (by decide)).trans (w5_v10 m ρ c)
theorem w6_v78 : W6 m ρ c (Proc.devRef .tc main_v78) = Z1 m c :=
  (W6_arr m ρ c 3).trans ((Cert.RegionCombine.combine2 (V5 m ρ) c).trans (by
    show Spec.combine (W5 m ρ c (Proc.devRef .tc main_v54)) (W5 m ρ c (Proc.devRef .tc main_v75)) (W5 m ρ c (Proc.devRef .tc main_v77)) = _
    rw [w5_v54, w5_v75, w5_v77] <;> rfl))

/-! ## Boundary 7: after stretch 3 -/
theorem w7_v1 : W7 m ρ c (Proc.devRef .tc main_v1) = src m c := (Host.keep3 (W6 m ρ c) main_v1 (by decide)).trans (w6_v1 m ρ c)
theorem w7_v3 : W7 m ρ c (Proc.devRef .tc main_v3) = dst m c := (Host.keep3 (W6 m ρ c) main_v3 (by decide)).trans (w6_v3 m ρ c)
theorem w7_arg0 : W7 m ρ c (Proc.devRef .tc main_arg0) = aD m c := (Host.keep3 (W6 m ρ c) main_arg0 (by decide)).trans (w6_arg0 m ρ c)
theorem w7_arg2 : W7 m ρ c (Proc.devRef .tc main_arg2) = aEw m c := (Host.keep3 (W6 m ρ c) main_arg2 (by decide)).trans (w6_arg2 m ρ c)
theorem w7_v4 : W7 m ρ c (Proc.devRef .tc main_v4) = narrow (aWg m c) := (Host.keep3 (W6 m ρ c) main_v4 (by decide)).trans (w6_v4 m ρ c)
theorem w7_v6 : W7 m ρ c (Proc.devRef .tc main_v6) = narrow (flip (aWg m c)) := (Host.keep3 (W6 m ρ c) main_v6 (by decide)).trans (w6_v6 m ρ c)
theorem w7_v7 : W7 m ρ c (Proc.devRef .tc main_v7) = narrow (aWs m c) := (Host.keep3 (W6 m ρ c) main_v7 (by decide)).trans (w6_v7 m ρ c)
theorem w7_v9 : W7 m ρ c (Proc.devRef .tc main_v9) = narrow (flip (aWs m c)) := (Host.keep3 (W6 m ρ c) main_v9 (by decide)).trans (w6_v9 m ρ c)
theorem w7_v10 : W7 m ρ c (Proc.devRef .tc main_v10) = narrow (aWemb m c) := (Host.keep3 (W6 m ρ c) main_v10 (by decide)).trans (w6_v10 m ρ c)
theorem w7_v95 : W7 m ρ c (Proc.devRef .tc main_v95) = rowS m c (Z1 m c) :=
  (Host.s3_gs (W6 m ρ c)).trans (by rw [w6_arg2, w6_v78, w6_v1])
theorem w7_v97 : W7 m ρ c (Proc.devRef .tc main_v97) = rowD m c (Z1 m c) :=
  (Host.s3_gd (W6 m ρ c)).trans (by rw [w6_arg2, w6_v78, w6_v3])

/-! ## Boundary 8: after pipeline 3 -/
theorem w8_v1 : W8 m ρ c (Proc.devRef .tc main_v1) = src m c := (W8_of_ne m ρ c main_v1 (by decide)).trans (w7_v1 m ρ c)
theorem w8_v3 : W8 m ρ c (Proc.devRef .tc main_v3) = dst m c := (W8_of_ne m ρ c main_v3 (by decide)).trans (w7_v3 m ρ c)
theorem w8_arg0 : W8 m ρ c (Proc.devRef .tc main_arg0) = aD m c := (W8_of_ne m ρ c main_arg0 (by decide)).trans (w7_arg0 m ρ c)
theorem w8_arg2 : W8 m ρ c (Proc.devRef .tc main_arg2) = aEw m c := (W8_of_ne m ρ c main_arg2 (by decide)).trans (w7_arg2 m ρ c)
theorem w8_v4 : W8 m ρ c (Proc.devRef .tc main_v4) = narrow (aWg m c) := ((W8_arr m ρ c 2).trans (((dat3 (V7 m ρ) c).arrAt_in 2 rfl _).trans (A_eq3 (V7 m ρ) c 2))).trans (w7_v4 m ρ c)
theorem w8_v6 : W8 m ρ c (Proc.devRef .tc main_v6) = narrow (flip (aWg m c)) := ((W8_arr m ρ c 3).trans (((dat3 (V7 m ρ) c).arrAt_in 3 rfl _).trans (A_eq3 (V7 m ρ) c 3))).trans (w7_v6 m ρ c)
theorem w8_v7 : W8 m ρ c (Proc.devRef .tc main_v7) = narrow (aWs m c) := ((W8_arr m ρ c 4).trans (((dat3 (V7 m ρ) c).arrAt_in 4 rfl _).trans (A_eq3 (V7 m ρ) c 4))).trans (w7_v7 m ρ c)
theorem w8_v9 : W8 m ρ c (Proc.devRef .tc main_v9) = narrow (flip (aWs m c)) := ((W8_arr m ρ c 5).trans (((dat3 (V7 m ρ) c).arrAt_in 5 rfl _).trans (A_eq3 (V7 m ρ) c 5))).trans (w7_v9 m ρ c)
theorem w8_v10 : W8 m ρ c (Proc.devRef .tc main_v10) = narrow (aWemb m c) := (W8_of_ne m ρ c main_v10 (by decide)).trans (w7_v10 m ρ c)
theorem w8_v98 : W8 m ρ c (Proc.devRef .tc main_v98) = Y2 m c :=
  (W8_arr m ρ c 6).trans ((Cert.RegionMlp.mlp3 (V7 m ρ) c).trans (by
    show Spec.mlp (W7 m ρ c (Proc.devRef .tc main_v95)) (W7 m ρ c (Proc.devRef .tc main_v97)) (W7 m ρ c (Proc.devRef .tc main_v4)) (W7 m ρ c (Proc.devRef .tc main_v6)) (W7 m ρ c (Proc.devRef .tc main_v7)) (W7 m ρ c (Proc.devRef .tc main_v9)) = _
    rw [w7_v95, w7_v97, w7_v4, w7_v6, w7_v7, w7_v9] <;> rfl))

/-! ## Boundary 9: after stretch 4 -/
theorem w9_v1 : W9 m ρ c (Proc.devRef .tc main_v1) = src m c := (Host.keep4 (W8 m ρ c) main_v1 (by decide)).trans (w8_v1 m ρ c)
theorem w9_v3 : W9 m ρ c (Proc.devRef .tc main_v3) = dst m c := (Host.keep4 (W8 m ρ c) main_v3 (by decide)).trans (w8_v3 m ρ c)
theorem w9_arg0 : W9 m ρ c (Proc.devRef .tc main_arg0) = aD m c := (Host.keep4 (W8 m ρ c) main_arg0 (by decide)).trans (w8_arg0 m ρ c)
theorem w9_arg2 : W9 m ρ c (Proc.devRef .tc main_arg2) = aEw m c := (Host.keep4 (W8 m ρ c) main_arg2 (by decide)).trans (w8_arg2 m ρ c)
theorem w9_v4 : W9 m ρ c (Proc.devRef .tc main_v4) = narrow (aWg m c) := (Host.keep4 (W8 m ρ c) main_v4 (by decide)).trans (w8_v4 m ρ c)
theorem w9_v6 : W9 m ρ c (Proc.devRef .tc main_v6) = narrow (flip (aWg m c)) := (Host.keep4 (W8 m ρ c) main_v6 (by decide)).trans (w8_v6 m ρ c)
theorem w9_v7 : W9 m ρ c (Proc.devRef .tc main_v7) = narrow (aWs m c) := (Host.keep4 (W8 m ρ c) main_v7 (by decide)).trans (w8_v7 m ρ c)
theorem w9_v9 : W9 m ρ c (Proc.devRef .tc main_v9) = narrow (flip (aWs m c)) := (Host.keep4 (W8 m ρ c) main_v9 (by decide)).trans (w8_v9 m ρ c)
theorem w9_v10 : W9 m ρ c (Proc.devRef .tc main_v10) = narrow (aWemb m c) := (Host.keep4 (W8 m ρ c) main_v10 (by decide)).trans (w8_v10 m ρ c)
theorem w9_v98 : W9 m ρ c (Proc.devRef .tc main_v98) = Y2 m c := (Host.keep4 (W8 m ρ c) main_v98 (by decide)).trans (w8_v98 m ρ c)
theorem w9_v119 : W9 m ρ c (Proc.devRef .tc main_v119) = resS m c (Y2 m c) :=
  (Host.s4_rs (W8 m ρ c)).trans (by rw [w8_arg2, w8_arg0, w8_v1, w8_v98])
theorem w9_v121 : W9 m ρ c (Proc.devRef .tc main_v121) = resD m c (Y2 m c) :=
  (Host.s4_rd (W8 m ρ c)).trans (by rw [w8_arg2, w8_arg0, w8_v1, w8_v98, w8_v3])

/-! ## Boundary 10: after pipeline 4 -/
theorem w10_v1 : W10 m ρ c (Proc.devRef .tc main_v1) = src m c := (W10_of_ne m ρ c main_v1 (by decide)).trans (w9_v1 m ρ c)
theorem w10_v3 : W10 m ρ c (Proc.devRef .tc main_v3) = dst m c := (W10_of_ne m ρ c main_v3 (by decide)).trans (w9_v3 m ρ c)
theorem w10_arg0 : W10 m ρ c (Proc.devRef .tc main_arg0) = aD m c := (W10_of_ne m ρ c main_arg0 (by decide)).trans (w9_arg0 m ρ c)
theorem w10_arg2 : W10 m ρ c (Proc.devRef .tc main_arg2) = aEw m c := (W10_of_ne m ρ c main_arg2 (by decide)).trans (w9_arg2 m ρ c)
theorem w10_v4 : W10 m ρ c (Proc.devRef .tc main_v4) = narrow (aWg m c) := (W10_of_ne m ρ c main_v4 (by decide)).trans (w9_v4 m ρ c)
theorem w10_v6 : W10 m ρ c (Proc.devRef .tc main_v6) = narrow (flip (aWg m c)) := (W10_of_ne m ρ c main_v6 (by decide)).trans (w9_v6 m ρ c)
theorem w10_v7 : W10 m ρ c (Proc.devRef .tc main_v7) = narrow (aWs m c) := (W10_of_ne m ρ c main_v7 (by decide)).trans (w9_v7 m ρ c)
theorem w10_v9 : W10 m ρ c (Proc.devRef .tc main_v9) = narrow (flip (aWs m c)) := (W10_of_ne m ρ c main_v9 (by decide)).trans (w9_v9 m ρ c)
theorem w10_v10 : W10 m ρ c (Proc.devRef .tc main_v10) = narrow (aWemb m c) := (W10_of_ne m ρ c main_v10 (by decide)).trans (w9_v10 m ρ c)
theorem w10_v122 : W10 m ρ c (Proc.devRef .tc main_v122) = Z2 m c :=
  (W10_arr m ρ c 3).trans ((Cert.RegionCombine.combine4 (V9 m ρ) c).trans (by
    show Spec.combine (W9 m ρ c (Proc.devRef .tc main_v98)) (W9 m ρ c (Proc.devRef .tc main_v119)) (W9 m ρ c (Proc.devRef .tc main_v121)) = _
    rw [w9_v98, w9_v119, w9_v121] <;> rfl))

/-! ## Boundary 11: after stretch 5 -/
theorem w11_v1 : W11 m ρ c (Proc.devRef .tc main_v1) = src m c := (Host.keep5 (W10 m ρ c) main_v1 (by decide)).trans (w10_v1 m ρ c)
theorem w11_v3 : W11 m ρ c (Proc.devRef .tc main_v3) = dst m c := (Host.keep5 (W10 m ρ c) main_v3 (by decide)).trans (w10_v3 m ρ c)
theorem w11_arg0 : W11 m ρ c (Proc.devRef .tc main_arg0) = aD m c := (Host.keep5 (W10 m ρ c) main_arg0 (by decide)).trans (w10_arg0 m ρ c)
theorem w11_arg2 : W11 m ρ c (Proc.devRef .tc main_arg2) = aEw m c := (Host.keep5 (W10 m ρ c) main_arg2 (by decide)).trans (w10_arg2 m ρ c)
theorem w11_v4 : W11 m ρ c (Proc.devRef .tc main_v4) = narrow (aWg m c) := (Host.keep5 (W10 m ρ c) main_v4 (by decide)).trans (w10_v4 m ρ c)
theorem w11_v6 : W11 m ρ c (Proc.devRef .tc main_v6) = narrow (flip (aWg m c)) := (Host.keep5 (W10 m ρ c) main_v6 (by decide)).trans (w10_v6 m ρ c)
theorem w11_v7 : W11 m ρ c (Proc.devRef .tc main_v7) = narrow (aWs m c) := (Host.keep5 (W10 m ρ c) main_v7 (by decide)).trans (w10_v7 m ρ c)
theorem w11_v9 : W11 m ρ c (Proc.devRef .tc main_v9) = narrow (flip (aWs m c)) := (Host.keep5 (W10 m ρ c) main_v9 (by decide)).trans (w10_v9 m ρ c)
theorem w11_v10 : W11 m ρ c (Proc.devRef .tc main_v10) = narrow (aWemb m c) := (Host.keep5 (W10 m ρ c) main_v10 (by decide)).trans (w10_v10 m ρ c)
theorem w11_v139 : W11 m ρ c (Proc.devRef .tc main_v139) = rowS m c (Z2 m c) :=
  (Host.s5_gs (W10 m ρ c)).trans (by rw [w10_arg2, w10_v122, w10_v1])
theorem w11_v141 : W11 m ρ c (Proc.devRef .tc main_v141) = rowD m c (Z2 m c) :=
  (Host.s5_gd (W10 m ρ c)).trans (by rw [w10_arg2, w10_v122, w10_v3])

/-! ## Boundary 12: after pipeline 5 -/
theorem w12_v1 : W12 m ρ c (Proc.devRef .tc main_v1) = src m c := (W12_of_ne m ρ c main_v1 (by decide)).trans (w11_v1 m ρ c)
theorem w12_v3 : W12 m ρ c (Proc.devRef .tc main_v3) = dst m c := (W12_of_ne m ρ c main_v3 (by decide)).trans (w11_v3 m ρ c)
theorem w12_arg0 : W12 m ρ c (Proc.devRef .tc main_arg0) = aD m c := (W12_of_ne m ρ c main_arg0 (by decide)).trans (w11_arg0 m ρ c)
theorem w12_arg2 : W12 m ρ c (Proc.devRef .tc main_arg2) = aEw m c := (W12_of_ne m ρ c main_arg2 (by decide)).trans (w11_arg2 m ρ c)
theorem w12_v4 : W12 m ρ c (Proc.devRef .tc main_v4) = narrow (aWg m c) := ((W12_arr m ρ c 2).trans (((dat5 (V11 m ρ) c).arrAt_in 2 rfl _).trans (A_eq5 (V11 m ρ) c 2))).trans (w11_v4 m ρ c)
theorem w12_v6 : W12 m ρ c (Proc.devRef .tc main_v6) = narrow (flip (aWg m c)) := ((W12_arr m ρ c 3).trans (((dat5 (V11 m ρ) c).arrAt_in 3 rfl _).trans (A_eq5 (V11 m ρ) c 3))).trans (w11_v6 m ρ c)
theorem w12_v7 : W12 m ρ c (Proc.devRef .tc main_v7) = narrow (aWs m c) := ((W12_arr m ρ c 4).trans (((dat5 (V11 m ρ) c).arrAt_in 4 rfl _).trans (A_eq5 (V11 m ρ) c 4))).trans (w11_v7 m ρ c)
theorem w12_v9 : W12 m ρ c (Proc.devRef .tc main_v9) = narrow (flip (aWs m c)) := ((W12_arr m ρ c 5).trans (((dat5 (V11 m ρ) c).arrAt_in 5 rfl _).trans (A_eq5 (V11 m ρ) c 5))).trans (w11_v9 m ρ c)
theorem w12_v10 : W12 m ρ c (Proc.devRef .tc main_v10) = narrow (aWemb m c) := (W12_of_ne m ρ c main_v10 (by decide)).trans (w11_v10 m ρ c)
theorem w12_v142 : W12 m ρ c (Proc.devRef .tc main_v142) = Y3 m c :=
  (W12_arr m ρ c 6).trans ((Cert.RegionMlp.mlp5 (V11 m ρ) c).trans (by
    show Spec.mlp (W11 m ρ c (Proc.devRef .tc main_v139)) (W11 m ρ c (Proc.devRef .tc main_v141)) (W11 m ρ c (Proc.devRef .tc main_v4)) (W11 m ρ c (Proc.devRef .tc main_v6)) (W11 m ρ c (Proc.devRef .tc main_v7)) (W11 m ρ c (Proc.devRef .tc main_v9)) = _
    rw [w11_v139, w11_v141, w11_v4, w11_v6, w11_v7, w11_v9] <;> rfl))

/-! ## Boundary 13: after stretch 6 -/
theorem w13_v1 : W13 m ρ c (Proc.devRef .tc main_v1) = src m c := (Host.keep6 (W12 m ρ c) main_v1 (by decide)).trans (w12_v1 m ρ c)
theorem w13_v3 : W13 m ρ c (Proc.devRef .tc main_v3) = dst m c := (Host.keep6 (W12 m ρ c) main_v3 (by decide)).trans (w12_v3 m ρ c)
theorem w13_arg0 : W13 m ρ c (Proc.devRef .tc main_arg0) = aD m c := (Host.keep6 (W12 m ρ c) main_arg0 (by decide)).trans (w12_arg0 m ρ c)
theorem w13_arg2 : W13 m ρ c (Proc.devRef .tc main_arg2) = aEw m c := (Host.keep6 (W12 m ρ c) main_arg2 (by decide)).trans (w12_arg2 m ρ c)
theorem w13_v4 : W13 m ρ c (Proc.devRef .tc main_v4) = narrow (aWg m c) := (Host.keep6 (W12 m ρ c) main_v4 (by decide)).trans (w12_v4 m ρ c)
theorem w13_v6 : W13 m ρ c (Proc.devRef .tc main_v6) = narrow (flip (aWg m c)) := (Host.keep6 (W12 m ρ c) main_v6 (by decide)).trans (w12_v6 m ρ c)
theorem w13_v7 : W13 m ρ c (Proc.devRef .tc main_v7) = narrow (aWs m c) := (Host.keep6 (W12 m ρ c) main_v7 (by decide)).trans (w12_v7 m ρ c)
theorem w13_v9 : W13 m ρ c (Proc.devRef .tc main_v9) = narrow (flip (aWs m c)) := (Host.keep6 (W12 m ρ c) main_v9 (by decide)).trans (w12_v9 m ρ c)
theorem w13_v10 : W13 m ρ c (Proc.devRef .tc main_v10) = narrow (aWemb m c) := (Host.keep6 (W12 m ρ c) main_v10 (by decide)).trans (w12_v10 m ρ c)
theorem w13_v142 : W13 m ρ c (Proc.devRef .tc main_v142) = Y3 m c := (Host.keep6 (W12 m ρ c) main_v142 (by decide)).trans (w12_v142 m ρ c)
theorem w13_v163 : W13 m ρ c (Proc.devRef .tc main_v163) = resS m c (Y3 m c) :=
  (Host.s6_rs (W12 m ρ c)).trans (by rw [w12_arg2, w12_arg0, w12_v1, w12_v142])
theorem w13_v165 : W13 m ρ c (Proc.devRef .tc main_v165) = resD m c (Y3 m c) :=
  (Host.s6_rd (W12 m ρ c)).trans (by rw [w12_arg2, w12_arg0, w12_v1, w12_v142, w12_v3])
theorem w13_v146 : W13 m ρ c (Proc.devRef .tc main_v146) = res m c (Y3 m c) :=
  (Host.s6_res (W12 m ρ c)).trans (by rw [w12_arg0, w12_v1, w12_v142])

/-! ## Boundary 14: after pipeline 6 -/
theorem w14_v1 : W14 m ρ c (Proc.devRef .tc main_v1) = src m c := (W14_of_ne m ρ c main_v1 (by decide)).trans (w13_v1 m ρ c)
theorem w14_v3 : W14 m ρ c (Proc.devRef .tc main_v3) = dst m c := (W14_of_ne m ρ c main_v3 (by decide)).trans (w13_v3 m ρ c)
theorem w14_arg0 : W14 m ρ c (Proc.devRef .tc main_arg0) = aD m c := (W14_of_ne m ρ c main_arg0 (by decide)).trans (w13_arg0 m ρ c)
theorem w14_arg2 : W14 m ρ c (Proc.devRef .tc main_arg2) = aEw m c := (W14_of_ne m ρ c main_arg2 (by decide)).trans (w13_arg2 m ρ c)
theorem w14_v4 : W14 m ρ c (Proc.devRef .tc main_v4) = narrow (aWg m c) := (W14_of_ne m ρ c main_v4 (by decide)).trans (w13_v4 m ρ c)
theorem w14_v6 : W14 m ρ c (Proc.devRef .tc main_v6) = narrow (flip (aWg m c)) := (W14_of_ne m ρ c main_v6 (by decide)).trans (w13_v6 m ρ c)
theorem w14_v7 : W14 m ρ c (Proc.devRef .tc main_v7) = narrow (aWs m c) := (W14_of_ne m ρ c main_v7 (by decide)).trans (w13_v7 m ρ c)
theorem w14_v9 : W14 m ρ c (Proc.devRef .tc main_v9) = narrow (flip (aWs m c)) := (W14_of_ne m ρ c main_v9 (by decide)).trans (w13_v9 m ρ c)
theorem w14_v10 : W14 m ρ c (Proc.devRef .tc main_v10) = narrow (aWemb m c) := (W14_of_ne m ρ c main_v10 (by decide)).trans (w13_v10 m ρ c)
theorem w14_v166 : W14 m ρ c (Proc.devRef .tc main_v166) = Z3 m c :=
  (W14_arr m ρ c 3).trans ((Cert.RegionCombine.combine6 (V13 m ρ) c).trans (by
    show Spec.combine (W13 m ρ c (Proc.devRef .tc main_v142)) (W13 m ρ c (Proc.devRef .tc main_v163)) (W13 m ρ c (Proc.devRef .tc main_v165)) = _
    rw [w13_v142, w13_v163, w13_v165] <;> rfl))
theorem w14_v142 : W14 m ρ c (Proc.devRef .tc main_v142) = Y3 m c := ((W14_arr m ρ c 0).trans (((dat6 (V13 m ρ) c).arrAt_in 0 rfl _).trans (A_eq6 (V13 m ρ) c 0))).trans (w13_v142 m ρ c)
theorem w14_v146 : W14 m ρ c (Proc.devRef .tc main_v146) = res m c (Y3 m c) := (W14_of_ne m ρ c main_v146 (by decide)).trans (w13_v146 m ρ c)

/-! ## Boundary 15: after pipeline 7 -/
/-- The first result: the embedding of the last projected table. -/
theorem out0 : W15 m ρ c (Proc.devRef .tc main_v167_0) = times (Z3 m c) (narrow (aWemb m c)) :=
  (W15_arr m ρ c 3).trans ((Cert.RegionEmb.emb7_3 (V14 m ρ) c).trans (by
    show Spec.times (φ := .bf16) (W14 m ρ c (Proc.devRef .tc main_v166)) (W14 m ρ c (Proc.devRef .tc main_v10)) = _
    rw [w14_v166, w14_v10] <;> rfl))
/-- The second result: the embedding of the last MLP output. -/
theorem out1 : W15 m ρ c (Proc.devRef .tc main_v167_1) = times (Y3 m c) (narrow (aWemb m c)) :=
  (W15_arr m ρ c 4).trans ((Cert.RegionEmb.emb7_4 (V14 m ρ) c).trans (by
    show Spec.times (φ := .bf16) (W14 m ρ c (Proc.devRef .tc main_v142)) (W14 m ρ c (Proc.devRef .tc main_v10)) = _
    rw [w14_v142, w14_v10] <;> rfl))
/-- The third result: the last residual. -/
theorem out2 : W15 m ρ c (Proc.devRef .tc main_v146) = res m c (Y3 m c) :=
  (W15_of_ne m ρ c main_v146 (by decide)).trans (w14_v146 m ρ c)

end Cert.KernelIdeal.Fold

end
-- ==== Proof.LibRealEntries.lean ====
/-
  Entries that are real numbers, on the extended reals.

  An extended real is REAL when it is neither +∞ nor −∞. Sums, products and maxima of real entries are real, a finite
  sum of real entries is real, and so is the greatest entry of a nonempty finite row of real entries (the fold of `max`
  from −∞). The one law of subtraction used with it: taking away `m + L` is taking away `m` and then `L`, as soon as `m`
  is real, whatever `L` and the minuend are — at an infinite `m` the two sides differ.
-/
import Idealize.ShloMosaic.PureOps.Ideal
import Mathlib.Data.Finset.Fold

noncomputable section

open scoped BigOperators

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (h1 : x ≠ ⊥) (h2 : x ≠ ⊤) : IsReal x := by
  induction x using EReal.rec with
  | bot => exact absurd rfl h1
  | coe r => exact ⟨r, rfl⟩
  | top => exact absurd rfl h2

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) : IsReal (if p then x else y) := by
  split <;> assumption

/-- A finite sum of real entries is real. -/
theorem isReal_sum {ι : Type} (s : Finset ι) (f : ι → EReal) (h : ∀ i ∈ s, IsReal (f i)) : IsReal (∑ i ∈ s, f i) :=
  Finset.sum_induction f IsReal (fun _ _ ha hb => ha.add hb) isReal_zero h

/-- The greatest entry of a nonempty finite row of real entries, folded from −∞, is real. -/
theorem isReal_fold_max {ι : Type} (s : Finset ι) (f : ι → EReal) (hne : s.Nonempty) (h : ∀ i ∈ s, IsReal (f i)) :
    IsReal (s.fold max (⊥ : EReal) f) := by
  refine isReal_of_ne ?_ ?_
  · obtain ⟨i, hi⟩ := hne
    intro hb
    have hle : f i ≤ s.fold max (⊥ : EReal) f := (Finset.le_fold_max _).mpr (Or.inr ⟨i, hi, le_rfl⟩)
    rw [hb] at hle
    exact (h i hi).ne_bot (le_bot_iff.mp hle)
  · have hlt : s.fold max (⊥ : EReal) f < ⊤ :=
      (Finset.fold_max_lt _).mpr ⟨bot_lt_top, fun i hi => lt_top_iff_ne_top.mpr (h i hi).ne_top⟩
    exact hlt.ne

/-- Taking away `m + L` is taking away `m`, then `L`, when `m` is real. -/
theorem sub_add_of_isReal {m : EReal} (hm : IsReal m) (x L : EReal) : x - (m + L) = x - m - L := by
  obtain ⟨r, rfl⟩ := hm
  rw [sub_eq_add_neg, EReal.neg_add (Or.inl (EReal.coe_ne_bot r)) (Or.inl (EReal.coe_ne_top r)),
    sub_eq_add_neg (-(r : EReal)) L, ← add_assoc, ← sub_eq_add_neg, ← sub_eq_add_neg]

end Cert.LibRealEntries

end
-- ==== Proof.LibTanhRule.lean ====
/-
  The derivative of tanh on the extended reals, as a differentiated program carries it.

  tanh of any extended real is a real number (−1 and 1 at the two infinities), so a hidden layer h = tanh(·) is real
  whatever its input, and so is the derivative factor 1 − h·h. Automatic differentiation writes the cotangent of a tanh
  layer as u + u·h with u = g·(1 − h); a hand-derived backward pass writes g·(1 − h·h). For a REAL incoming cotangent g
  and real h the two are one polynomial identity. At an infinite g they differ (∞·(1 − h) + ∞·(1 − h)·h is −∞ for
  −1 < h < 0 while ∞·(1 − h·h) is ∞), so the rule is stated for reals only.
-/
import proofs.«110563_j43284680409676_1_alg».proof.Proof.LibRealEntries
import Idealize.ShloMosaic.PureOps.Ideal

noncomputable section

namespace Cert.TanhRule

open Idealize.ShloMosaic Cert.LibRealEntries

/-- tanh of any extended real is a real number (−1 and 1 at the two infinities). -/
theorem isReal_tanh (x : EReal) : IsReal (Ideal.tanh x) := by
  induction x using EReal.rec with
  | bot => exact ⟨-1, by rw [Ideal.tanh_bot, EReal.coe_neg, EReal.coe_one]⟩
  | coe t => exact ⟨Real.tanh t, rfl⟩
  | top => exact ⟨1, by rw [Ideal.tanh_top, EReal.coe_one]⟩

theorem isReal_one : IsReal (1 : EReal) := ⟨1, EReal.coe_one.symm⟩

theorem isReal_sub {x y : EReal} (hx : IsReal x) (hy : IsReal y) : IsReal (x - y) := by
  obtain ⟨a, rfl⟩ := hx; obtain ⟨b, rfl⟩ := hy
  exact ⟨a - b, (EReal.coe_sub a b).symm⟩

/-- The derivative factor 1 − h·h of a real h is real. -/
theorem isReal_dtanh {h : EReal} (hh : IsReal h) : IsReal (1 - h * h) := isReal_sub isReal_one (hh.mul hh)

/-- The rule for tanh as the differentiated program carries it, against the closed form, at real g and h. -/
theorem tanh_rule {g h : EReal} (hg : IsReal g) (hh : IsReal h) :
    g * (1 - h) + g * (1 - h) * h = g * (1 - h * h) := by
  obtain ⟨a, rfl⟩ := hg; obtain ⟨b, rfl⟩ := hh
  have e : a * (1 - b) + a * (1 - b) * b = a * (1 - b * b) := by ring
  exact_mod_cast congrArg (fun t : ℝ => (t : EReal)) e

end Cert.TanhRule

end
-- ==== Proof.LibRowGatherScatter.lean ====
/-
  Rows gathered and rows scattered, read at one element, over any sizes.

  A table `x` of R rows and C columns; N index words. The row gather makes the N × C table whose row n is row
  `idx n` of x, the word read as a signed integer and clamped into [0, R − 1]. The accumulating row scatter adds row n
  of an N × C table of updates to row `idx n` of the operand, the word read signed and NOT clamped: a row whose index
  is outside the operand is dropped. On the extended reals the scatter's result at (r, c) is the operand there plus the
  sum, over the rows n whose index is r, of the update at (n, c); no order of accumulation is left in it. Composed: the
  scatter of weighted gathered rows at (r, c) is a sum over n of weight · x (clamped source row of n, c) — column c of
  the result only ever meets column c of x.
-/
import Idealize.ShloMosaic.PureOps.Ideal
import Idealize.ShloMosaic.Lib.ValueIdx
import Idealize.ShloMosaic.Lib.Pipeline.Value

noncomputable section

open scoped BigOperators

namespace Cert.LibRowGatherScatter

open Idealize.ShloMosaic Idealize.ShloMosaic.ValueIdx

/-- The row an index word names for a gather out of R rows: read signed, clamped into [0, R − 1]. -/
def clampRow (R : Nat) (hR : 0 < R) {w : Nat} (b : BitVec w) : Fin R := ⟨min b.toInt.toNat (R - 1), by omega⟩

section Gather

variable {α : Type} {R N C : Nat}

/-- The dimension numbers of a row gather, for an operand [R, C], start indices [N, 1] and a result [N, C]. -/
abbrev rowGatherDims (R N C : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

theorem gather_rowDims_apply (hR : 0 < R)
    (wf : GatherDims.WF ⟨2, ![R, C]⟩ ⟨2, ![N, 1]⟩ ⟨2, ![N, C]⟩ [1] [0] [] [0] [] 1 ![1, C]) {w : Nat}
    (x : (⟨2, ![R, C]⟩ : Shape).Idx → α) (idx : IVec ⟨2, ![N, 1]⟩ w) (n : Fin N) (c : Fin C) :
    Host.gather (rowGatherDims R N C wf) x idx (ix2 n c) = x (ix2 (clampRow R hR (idx (ix2 n (0 : Fin 1)))) c) := by
  unfold Host.gather
  congr 1
  funext a
  refine Fin.ext ?_
  have e0 : ((rowGatherDims R N C wf).operandIdx (ix2 n c) idx 0).val = min (idx (ix2 n (0 : Fin 1))).toInt.toNat (R - 1) := by
    show (rowGatherDims R N C wf).start (ix2 n c) idx 0 + (rowGatherDims R N C wf).batchCoord (ix2 n c) 0
      + (rowGatherDims R N C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R N C wf).startIndexMap from List.mem_singleton.mpr rfl)]
    have hsi : (rowGatherDims R N C wf).siIdx (ix2 n c) ⟨List.idxOf (0 : Fin 2) (rowGatherDims R N C wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  have e1 : ((rowGatherDims R N C wf).operandIdx (ix2 n c) idx 1).val = c.val := by
    show (rowGatherDims R N C wf).start (ix2 n c) idx 1 + (rowGatherDims R N C wf).batchCoord (ix2 n c) 1
      + (rowGatherDims R N C wf).offCoord (ix2 n c) 1 = _
    rw [GatherDims.batchCoord_eq_zero _ _ _ List.not_mem_nil]
    have hs : (rowGatherDims R N C wf).start (ix2 n c) idx 1 = 0 := by
      unfold GatherDims.start
      rw [dif_neg (show (1 : Fin 2) ∉ (rowGatherDims R N C wf).startIndexMap from
        (by decide : (1 : Fin 2) ∉ ([0] : List (Fin 2))))]
    rw [hs]
    simp only [Nat.add_zero, Nat.zero_add]
    unfold GatherDims.offCoord
    rw [dif_pos (show (1 : Fin 2) ∈ (rowGatherDims R N C wf).sKept from
      List.mem_filter.2 ⟨List.mem_finRange _, (by decide : decide ((1 : Fin 2) ∉ (([0] : List (Fin 2)) ++ [])) = true)⟩)]
    rfl
  match a with
  | ⟨0, _⟩ => exact e0
  | ⟨1, _⟩ => exact e1

/-- THE ROW GATHER READ AT (n, c): x at (the clamped row of word n, c). -/
theorem gather_rows (g : GatherDims ⟨2, ![R, C]⟩ ⟨2, ![N, 1]⟩ ⟨2, ![N, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C]) (hR : 0 < R) {w : Nat}
    (x : (⟨2, ![R, C]⟩ : Shape).Idx → α) (idx : IVec ⟨2, ![N, 1]⟩ w) (n : Fin N) (c : Fin C) :
    Host.gather g x idx (ix2 n c) = x (ix2 (clampRow R hR (idx (ix2 n (0 : Fin 1)))) c) := by
  obtain ⟨od, cd, ob, sb, sm, iv, ss, wf⟩ := g
  simp only at h1 h2 h3 h4 h5 h6 h7
  subst h1 h2 h3 h4 h5 h6 h7
  exact gather_rowDims_apply hR wf x idx n c

end Gather

section Scatter

variable {R N C : Nat} (d : ScatterDims ⟨2, ![R, C]⟩ ⟨2, ![N, 1]⟩ ⟨2, ![N, C]⟩)

/-- Where update element (n, c') lands: at (r, c) exactly when row n's index word, read signed, is r and c' = c. -/
theorem resultIdx?_rows (h1 : d.updateWindowDims = [1]) (h2 : d.insertedWindowDims = [0])
    (h3 : d.scatterDimsToOperandDims = [0]) (h4 : d.indexVectorDim = 1) {w : Nat}
    (idx : IVec ⟨2, ![N, 1]⟩ w) (n : Fin N) (c' : Fin C) (r : Fin R) (c : Fin C) :
    d.resultIdx? (ix2 n c') idx = some (ix2 r c) ↔ (idx (ix2 n (0 : Fin 1))).toInt = (r.val : ℤ) ∧ c' = c := by
  obtain ⟨uw, iw, sd, iv, wf⟩ := d
  simp only at h1 h2 h3 h4
  subst h1 h2 h3 h4
  have hs0 : ScatterDims.start ⟨[1], [0], [0], 1, wf⟩ (ix2 n c') idx 0 = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hs1 : ScatterDims.start ⟨[1], [0], [0], 1, wf⟩ (ix2 n c') idx 1 = 0 := by
    unfold ScatterDims.start
    rw [dif_neg (show (1 : Fin 2) ∉ ([0] : List (Fin 2)) by decide)]
  have hw0 : ScatterDims.window ⟨[1], [0], [0], 1, wf⟩ (ix2 n c') 0 = 0 := by
    unfold ScatterDims.window
    rw [dif_neg (show (0 : Fin 2) ∉ (⟨2, ![R, C]⟩ : Shape).kept [0] from
      fun h => (of_decide_eq_true (List.mem_filter.1 h).2) (List.mem_singleton.mpr rfl))]
  have hw1 : ScatterDims.window ⟨[1], [0], [0], 1, wf⟩ (ix2 n c') 1 = c'.val := by
    unfold ScatterDims.window
    rw [dif_pos (show (1 : Fin 2) ∈ (⟨2, ![R, C]⟩ : Shape).kept [0] from
      List.mem_filter.2 ⟨List.mem_finRange _, (by decide : decide ((1 : Fin 2) ∉ ([0] : List (Fin 2))) = true)⟩)]
    rfl
  unfold ScatterDims.resultIdx?
  simp only [Fin.forall_fin_two, hs0, hs1, hw0, hw1]
  have hc0 : (ix2 r c (0 : Fin 2)) = r := rfl
  have hc1 : (ix2 r c (1 : Fin 2)) = c := rfl
  have hz0 : ((![R, C] : Fin 2 → ℕ) 0) = R := rfl
  have hz1 : ((![R, C] : Fin 2 → ℕ) 1) = C := rfl
  have hr := r.isLt
  have hc := c.isLt
  have hc' := c'.isLt
  by_cases hcond : ((0 ≤ (idx (ix2 n (0 : Fin 1))).toInt + ((0 : ℕ) : ℤ) ∧ (idx (ix2 n (0 : Fin 1))).toInt + ((0 : ℕ) : ℤ) < (((![R, C] : Fin 2 → ℕ) 0 : ℕ) : ℤ)) ∧
            0 ≤ (0 : ℤ) + ((c'.val : ℕ) : ℤ) ∧ (0 : ℤ) + ((c'.val : ℕ) : ℤ) < (((![R, C] : Fin 2 → ℕ) 1 : ℕ) : ℤ))
  · rw [dif_pos hcond]
    simp only [Option.some.injEq, funext_iff, Fin.forall_fin_two, Fin.ext_iff, hs0, hs1, hw0, hw1, hc0, hc1]
    rw [hz0, hz1] at hcond
    constructor
    · rintro ⟨h0, h1⟩
      exact ⟨by omega, by omega⟩
    · rintro ⟨h0, h1⟩
      exact ⟨by omega, by omega⟩
  · rw [dif_neg hcond]
    rw [hz0, hz1] at hcond
    constructor
    · intro h; exact absurd h (by simp)
    · rintro ⟨h0, h1⟩
      exact absurd ⟨⟨by omega, by omega⟩, by omega, by omega⟩ hcond

/-- THE ROW SCATTER READ AT (r, c): the operand there plus the updates (n, c) of the rows n whose index is r. -/
theorem scatterAdd_rows (h1 : d.updateWindowDims = [1]) (h2 : d.insertedWindowDims = [0])
    (h3 : d.scatterDimsToOperandDims = [0]) (h4 : d.indexVectorDim = 1) {w : Nat}
    (x : FVec Ideal ⟨2, ![R, C]⟩ .f32) (idx : IVec ⟨2, ![N, 1]⟩ w)
    (upd : FVec Ideal ⟨2, ![N, C]⟩ .f32) (r : Fin R) (c : Fin C) :
    Host.scatterAdd (F := Ideal) d x idx upd (ix2 r c)
      = x (ix2 r c) + ∑ n : Fin N, (if (idx (ix2 n (0 : Fin 1))).toInt = (r.val : ℤ) then upd (ix2 n c) else 0) := by
  simp only [Host.scatterAdd, Ideal.hostScatterAdd_def, Ideal.hostScatterAdd]
  refine congrArg (x (ix2 r c) + ·) ?_
  rw [Finset.sum_filter, sum_idx2]
  refine Finset.sum_congr rfl fun n _ => ?_
  simp only [resultIdx?_rows d h1 h2 h3 h4]
  by_cases hA : (idx (ix2 n (0 : Fin 1))).toInt = (r.val : ℤ)
  · simp only [hA, true_and, if_true]
    rw [Finset.sum_ite_eq' Finset.univ c (fun c' => upd (ix2 n c')), if_pos (Finset.mem_univ c)]
  · simp only [hA, false_and, if_false, Finset.sum_const_zero]

end Scatter

section Propagate

variable {R N C : Nat} (d : ScatterDims ⟨2, ![R, C]⟩ ⟨2, ![N, 1]⟩ ⟨2, ![N, C]⟩)
  (g : GatherDims ⟨2, ![R, C]⟩ ⟨2, ![N, 1]⟩ ⟨2, ![N, C]⟩)

/-- The scatter of weighted gathered rows at (r, c): the operand there plus, over the rows n sent to r, weight (n, c)
    times x at (the clamped source row of n, c). -/
theorem scatter_mul_gather (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C]) (hR : 0 < R) {w w' : Nat}
    (z x : FVec Ideal ⟨2, ![R, C]⟩ .f32) (wt : FVec Ideal ⟨2, ![N, C]⟩ .f32)
    (idxD : IVec ⟨2, ![N, 1]⟩ w) (idxS : IVec ⟨2, ![N, 1]⟩ w') (r : Fin R) (c : Fin C) :
    Host.scatterAdd (F := Ideal) d z idxD (mulf wt (Host.gather g x idxS)) (ix2 r c)
      = z (ix2 r c) + ∑ n : Fin N, (if (idxD (ix2 n (0 : Fin 1))).toInt = (r.val : ℤ)
          then wt (ix2 n c) * x (ix2 (clampRow R hR (idxS (ix2 n (0 : Fin 1)))) c) else 0) := by
  rw [scatterAdd_rows d h1 h2 h3 h4]
  refine congrArg (z (ix2 r c) + ·) (Finset.sum_congr rfl fun n _ => ?_)
  rw [mulf_apply, gather_rows g k1 k2 k3 k4 k5 k6 k7 hR]

end Propagate

section Widths

variable {R N C C' : Nat}

/-- A per-row number broadcast across C columns, read at (n, c): the number of row n. -/
theorem bcast_col_apply {α : Type} (hN : N ≠ 1) (v : (⟨1, ![N]⟩ : Shape).Idx → α)
    (h3 : (⟨1, ![N]⟩ : Shape).BroadcastsInDim ⟨2, ![N, 1]⟩ ![0])
    (h4 : (⟨2, ![N, 1]⟩ : Shape).BroadcastsInDim ⟨2, ![N, C]⟩ ![0, 1]) (n : Fin N) (c : Fin C) :
    broadcastInDim ⟨2, ![N, C]⟩ ![0, 1] h4 (broadcastInDim ⟨2, ![N, 1]⟩ ![0] h3 v) (ix2 n c) = v (ix1 n) := by
  refine (broadcastInDim_apply _ h4 _ (ix2 n c) (ix2 n (0 : Fin 1)) ?_).trans ?_
  · intro a
    match a with
    | ⟨0, _⟩ => show n.val = if N = 1 then 0 else n.val; rw [if_neg hN]
    | ⟨1, _⟩ => show (0 : Fin 1).val = if (1 : Nat) = 1 then 0 else c.val; rw [if_pos rfl]; rfl
  refine broadcastInDim_apply _ h3 v (ix2 n (0 : Fin 1)) (ix1 n) ?_
  intro a
  match a with
  | ⟨0, _⟩ => show n.val = if N = 1 then 0 else n.val; rw [if_neg hN]

/-- TWO WIDTHS, ONE COLUMN EACH: the scatter of weighted gathered rows over tables of C columns, read at column c,
    and the same over tables of C' columns, read at column c', agree when the operands agree at those two columns —
    the index lists being the same. A propagation of a wide table is, column by column, the propagation of its
    columns. -/
theorem scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.scatterAdd (F := Ideal) d z idxD (mulf wt (Host.gather g x idxS)) (ix2 r c)
      = Host.scatterAdd (F := Ideal) d' z' idxD (mulf wt' (Host.gather g' x' idxS)) (ix2 r c') := by
  rw [scatter_mul_gather d g h1 h2 h3 h4 k1 k2 k3 k4 k5 k6 k7 hR,
    scatter_mul_gather d' g' h1' h2' h3' h4' k1' k2' k3' k4' k5' k6' k7' hR, hz]
  refine congrArg (z' (ix2 r c') + ·) (Finset.sum_congr rfl fun n _ => ?_)
  rw [hw n, hx]

/-- The same under a negation: the scaled Laplacian's sign. -/
theorem neg_scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.negf (F := Ideal) (Host.scatterAdd (F := Ideal) d z idxD (mulf wt (Host.gather g x idxS))) (ix2 r c)
      = Host.negf (F := Ideal) (Host.scatterAdd (F := Ideal) d' z' idxD (mulf wt' (Host.gather g' x' idxS))) (ix2 r c') := by
  show -(Host.scatterAdd (F := Ideal) d z idxD (mulf wt (Host.gather g x idxS)) (ix2 r c))
    = -(Host.scatterAdd (F := Ideal) d' z' idxD (mulf wt' (Host.gather g' x' idxS)) (ix2 r c'))
  rw [scatter_mul_gather_congr d g d' g' h1 h2 h3 h4 k1 k2 k3 k4 k5 k6 k7 h1' h2' h3' h4' k1' k2' k3' k4' k5' k6' k7' hR
    z x wt z' x' wt' idxD idxS r c c' hz hw hx]

end Widths

end Cert.LibRowGatherScatter

end
-- ==== Proof.Algebra.lean ====
/-
  The one algebraic law of the claim, carried through three rounds of the network.

  On the extended reals multiplication does not distribute over subtraction at the infinities
  (∞·(1 − 1) = 0 while ∞·1 − ∞·1 = ∞ − ∞ = −∞), but it does on the reals: for real w, a, b,
  w·a − w·b = w·(a − b), and for real z, (z + w·a) − w·b = z + w·(a − b).  The kernel's arrangement multiplies the
  edge weight into each gathered table before combining; the reference's multiplies it into the difference.  The two
  agree as soon as every table met on the way has real entries, and that is what is shown here, table by table:

  * the inputs (data D, edge embedding, weights, the two C × C tables) are real by hypothesis;
  * a row gather's entries are entries of its operand, so a gather of a real table is real;
  * a scatter-add into zeros reads, at an entry, a finite sum of update entries: real when the updates are;
  * the residual D − (that sum) is then real;
  * tanh of ANY extended real is real (±1 at the infinities), so Σ_k tanh(…)(·,k)·W(k,·) is real whenever W is,
    whatever went into the tanh — an MLP step's output is real with no hypothesis on its input;
  * a change of float format is the identity on the extended reals, so the narrow copies of the C × C tables are the
    tables themselves.
-/
import proofs.«110563_j43284680409676_1_alg».proof.Proof.Spec
import proofs.«110563_j43284680409676_1_alg».proof.Proof.LibRealEntries
import proofs.«110563_j43284680409676_1_alg».proof.Proof.LibTanhRule
import proofs.«110563_j43284680409676_1_alg».proof.Proof.LibRowGatherScatter
import proofs.«110563_j43284680409676_1_alg».proof.Proof.LibHostReads
import proofs.«110563_j43284680409676_1_alg».proof.Proof.LibHostLayout
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.Algebra

open Idealize.ShloMosaic Idealize.ShloMosaic.ValueIdx Cert.KernelIdeal Cert.KernelIdeal.Facts₀ Cert.Spec
open Cert.LibRealEntries Cert.LibRowGatherScatter

/-- Every entry of the table is a real number. -/
def AllReal {s : Shape} (x : s.Idx → EReal) : Prop := ∀ i, IsReal (x i)

/-! ## The law, at one entry -/

/-- w·a − w·b = w·(a − b) for real w, a, b. -/
theorem real_distrib {w a b : EReal} (hw : IsReal w) (ha : IsReal a) (hb : IsReal b) : w * a - w * b = w * (a - b) := by
  obtain ⟨w, rfl⟩ := hw; obtain ⟨a, rfl⟩ := ha; obtain ⟨b, rfl⟩ := hb
  rw [← EReal.coe_mul, ← EReal.coe_mul, ← EReal.coe_sub, ← EReal.coe_sub, ← EReal.coe_mul]
  congr 1; ring

/-- (z + w·a) − w·b = z + w·(a − b) for real z, w, a, b. -/
theorem real_combine {z w a b : EReal} (hz : IsReal z) (hw : IsReal w) (ha : IsReal a) (hb : IsReal b) :
    z + w * a - w * b = z + w * (a - b) := by
  obtain ⟨z, rfl⟩ := hz; obtain ⟨w, rfl⟩ := hw; obtain ⟨a, rfl⟩ := ha; obtain ⟨b, rfl⟩ := hb
  rw [← EReal.coe_mul, ← EReal.coe_mul, ← EReal.coe_add, ← EReal.coe_sub, ← EReal.coe_sub, ← EReal.coe_mul, ← EReal.coe_add]
  congr 1; ring

/-! ## A change of format is the identity -/

/-- The narrow copy of a table is the table. -/
theorem narrow_eq {s : Shape} (x : FVec Ideal s .f32) : (truncf .bf16 x bitsLt_bf16_f32 : FVec Ideal s .bf16) = x := rfl

/-! ## The tables read at an entry -/

/-- The spread weights at (p, q): the weight of edge p. -/
theorem spread_apply (ew : EW) (p : Fin 1600000) (q : Fin 32) : spread ew (ix2 p q) = ew (ix1 p) := by
  unfold spread
  exact bcast_col_apply (by norm_num) ew bcast_S1600000_S1600000x1_0 bcast_S1600000x1_S1600000x32_0_1 p q

/-- A gathered node row at (p, q): the node table at (some row, q). -/
theorem nodeRows_apply (x : NC) (v : IV) (p : Fin 1600000) (q : Fin 32) :
    ∃ r : Fin 100000, nodeRows x v (ix2 p q) = x (ix2 r q) := by
  unfold nodeRows
  exact ⟨_, gather_rows _ rfl rfl rfl rfl rfl rfl rfl (by norm_num) x _ p q⟩

/-- A gathered edge row at (p, q): the edge table at (some row, q). -/
theorem edgeRows_apply (x : EC) (v : IV) (p : Fin 1600000) (q : Fin 32) :
    ∃ r : Fin 1600000, edgeRows x v (ix2 p q) = x (ix2 r q) := by
  unfold edgeRows
  exact ⟨_, gather_rows _ rfl rfl rfl rfl rfl rfl rfl (by norm_num) x _ p q⟩

/-- The plain product at (p, q): Σ_k A (p, k) · W (k, q). -/
theorem times_apply {φ : FTy} (A : EC) (W : FVec Ideal S32x32 φ) (p : Fin 1600000) (q : Fin 32) :
    times A W (ix2 p q) = ∑ k : Fin 32, A (ix2 p k) * W (ix2 k q) := by
  unfold times
  exact Cert.LibHostReads.dotGeneral_plain_apply 1600000 32 32 none A W p q

/-- The product with the narrow copy of a table is the product with the table. -/
theorem times_narrow (A : EC) (W : WF) : times A (truncf .bf16 W bitsLt_bf16_f32 : WB) = times A W := by
  funext i
  obtain ⟨p, q, rfl⟩ : ∃ (p : Fin 1600000) (q : Fin 32), i = ix2 p q := ⟨i 0, i 1, eq_ix2 i⟩
  rw [times_apply, times_apply]
  rfl

/-! ## Real tables stay real -/

theorem allReal_spread {ew : EW} (hew : AllReal ew) : AllReal (spread ew) := by
  intro i
  obtain ⟨p, q, rfl⟩ : ∃ (p : Fin 1600000) (q : Fin 32), i = ix2 p q := ⟨i 0, i 1, eq_ix2 i⟩
  rw [spread_apply]; exact hew _

theorem allReal_nodeRows {x : NC} (hx : AllReal x) (v : IV) : AllReal (nodeRows x v) := by
  intro i
  obtain ⟨p, q, rfl⟩ : ∃ (p : Fin 1600000) (q : Fin 32), i = ix2 p q := ⟨i 0, i 1, eq_ix2 i⟩
  obtain ⟨r, hr⟩ := nodeRows_apply x v p q
  rw [hr]; exact hx _

theorem allReal_edgeRows {x : EC} (hx : AllReal x) (v : IV) : AllReal (edgeRows x v) := by
  intro i
  obtain ⟨p, q, rfl⟩ : ∃ (p : Fin 1600000) (q : Fin 32), i = ix2 p q := ⟨i 0, i 1, eq_ix2 i⟩
  obtain ⟨r, hr⟩ := edgeRows_apply x v p q
  rw [hr]; exact hx _

/-- The residual D − (Z summed onto the nodes) is real when D and Z are: each entry is an entry of D less a finite sum of
    entries of Z. -/
theorem allReal_residual {D : NC} {Z : EC} (src : IV) (hD : AllReal D) (hZ : AllReal Z) : AllReal (residual D src Z) := by
  intro i
  obtain ⟨r, c, rfl⟩ : ∃ (r : Fin 100000) (c : Fin 32), i = ix2 r c := ⟨i 0, i 1, eq_ix2 i⟩
  unfold Cert.Spec.residual
  rw [subf_apply, scatterAdd_rows _ rfl rfl rfl rfl]
  refine Cert.TanhRule.isReal_sub (hD _) (IsReal.add ?_ (isReal_sum _ _ fun n _ => IsReal.ite (hZ _) isReal_zero))
  rw [Cert.HostLayout.scalar_apply, constant_apply, Ideal.ofBits_zero_f32]
  exact isReal_zero

/-- The transpose of a real C × C table is real. -/
theorem allReal_transpose {W : WF} (hW : AllReal W) : AllReal (transpose S32x32 [1, 0] W transposes_S32x32_S32x32_1_0) := by
  intro i
  obtain ⟨p, q, rfl⟩ : ∃ (p : Fin 32) (q : Fin 32), i = ix2 p q := ⟨i 0, i 1, eq_ix2 i⟩
  rw [Cert.HostLayout.transpose2_apply]; exact hW _

/-- tanh(anything) times a real table is real. -/
theorem allReal_times_tanh {φ : FTy} (X : EC) {W : FVec Ideal S32x32 φ} (hW : AllReal W) : AllReal (times (Host.tanh X) W) := by
  intro i
  obtain ⟨p, q, rfl⟩ : ∃ (p : Fin 1600000) (q : Fin 32), i = ix2 p q := ⟨i 0, i 1, eq_ix2 i⟩
  rw [times_apply]
  exact isReal_sum _ _ fun k _ => (Cert.TanhRule.isReal_tanh (X (ix2 p k))).mul (hW _)

/-! ## One projection step -/

theorem projK_eq_projR {D : NC} {ew : EW} {Z : EC} (src dst : IV) (hD : AllReal D) (hew : AllReal ew) (hZ : AllReal Z) :
    projK D src dst ew Z = projR D src dst ew Z := by
  have hR := allReal_residual src hD hZ
  funext i
  unfold projK projR combine
  simp only [subf_apply, addf_apply, mulf_apply]
  exact real_combine (hZ i) (allReal_spread hew i) (allReal_nodeRows hR src i) (allReal_nodeRows hR dst i)

theorem allReal_projR {D : NC} {ew : EW} {Z : EC} (src dst : IV) (hD : AllReal D) (hew : AllReal ew) (hZ : AllReal Z) :
    AllReal (projR D src dst ew Z) := by
  have hR := allReal_residual src hD hZ
  intro i
  unfold projR
  simp only [subf_apply, addf_apply, mulf_apply]
  exact (hZ i).add ((allReal_spread hew i).mul (Cert.TanhRule.isReal_sub (allReal_nodeRows hR src i) (allReal_nodeRows hR dst i)))

/-! ## One MLP step -/

theorem stepK_eq_stepR {ew : EW} {Z : EC} (src dst : IV) (Wg Ws : WF) (hew : AllReal ew) (hZ : AllReal Z) :
    stepK src dst ew (truncf .bf16 Wg bitsLt_bf16_f32) (truncf .bf16 (transpose S32x32 [1, 0] Wg transposes_S32x32_S32x32_1_0) bitsLt_bf16_f32)
        (truncf .bf16 Ws bitsLt_bf16_f32) (truncf .bf16 (transpose S32x32 [1, 0] Ws transposes_S32x32_S32x32_1_0) bitsLt_bf16_f32) Z
      = stepR src dst ew Wg Ws Z := by
  have h : subf (mulf (spread ew) (edgeRows Z src)) (mulf (spread ew) (edgeRows Z dst))
      = mulf (spread ew) (subf (edgeRows Z src) (edgeRows Z dst)) := by
    funext i
    simp only [subf_apply, mulf_apply]
    exact real_distrib (allReal_spread hew i) (allReal_edgeRows hZ src i) (allReal_edgeRows hZ dst i)
  unfold stepK stepR mlp
  rw [h, times_narrow, times_narrow, times_narrow, times_narrow]

/-- An MLP step's output is real whenever the two C × C tables are, whatever goes in. -/
theorem allReal_stepR {Wg Ws : WF} (src dst : IV) (ew : EW) (Z : EC) (hWg : AllReal Wg) (hWs : AllReal Ws) :
    AllReal (stepR src dst ew Wg Ws Z) := by
  intro i
  unfold stepR
  rw [addf_apply]
  exact (allReal_times_tanh _ (allReal_transpose hWg) i).add (allReal_times_tanh _ (allReal_transpose hWs) i)

/-! ## Three rounds -/

section Rounds

variable {D : NC} {xE : EC} {ew : EW} {Wg Ws : WF} (src dst : IV)

theorem allReal_lastR (hWg : AllReal Wg) (hWs : AllReal Ws) : AllReal (lastR D src dst ew Wg Ws xE) := by
  unfold lastR
  exact allReal_stepR src dst ew _ hWg hWs

theorem lastK_eq_lastR (hD : AllReal D) (hx : AllReal xE) (hew : AllReal ew) (hWg : AllReal Wg) (hWs : AllReal Ws) :
    lastK D src dst ew (truncf .bf16 Wg bitsLt_bf16_f32) (truncf .bf16 (transpose S32x32 [1, 0] Wg transposes_S32x32_S32x32_1_0) bitsLt_bf16_f32)
        (truncf .bf16 Ws bitsLt_bf16_f32) (truncf .bf16 (transpose S32x32 [1, 0] Ws transposes_S32x32_S32x32_1_0) bitsLt_bf16_f32) xE
      = lastR D src dst ew Wg Ws xE := by
  unfold lastK lastR
  have hP1 := allReal_projR src dst hD hew hx
  rw [projK_eq_projR src dst hD hew hx, stepK_eq_stepR src dst Wg Ws hew hP1]
  have hS1 := allReal_stepR src dst ew (projR D src dst ew xE) hWg hWs
  have hP2 := allReal_projR src dst hD hew hS1
  rw [projK_eq_projR src dst hD hew hS1, stepK_eq_stepR src dst Wg Ws hew hP2]
  have hS2 := allReal_stepR src dst ew (projR D src dst ew (stepR src dst ew Wg Ws (projR D src dst ew xE))) hWg hWs
  have hP3 := allReal_projR src dst hD hew hS2
  rw [projK_eq_projR src dst hD hew hS2, stepK_eq_stepR src dst Wg Ws hew hP3]

theorem proj_last (hD : AllReal D) (hew : AllReal ew) (hWg : AllReal Wg) (hWs : AllReal Ws) :
    projK D src dst ew (lastR D src dst ew Wg Ws xE) = projR D src dst ew (lastR D src dst ew Wg Ws xE) :=
  projK_eq_projR src dst hD hew (allReal_lastR src dst hWg hWs)

end Rounds

end Cert.Algebra

end
-- ==== Proof.RefBridge.lean ====
/-
  The reference program's results as the specification's functions.

  The reference's run ends with its three results at terms over named intermediates: the id rows, the first
  residual, the edge table after each projection step, the MLP output after each round, the last residual.  Each
  named term is, by unfolding, one step of the specification in the reference's arrangement applied to the earlier
  ones; so the last MLP output is three rounds from the initial edge table, the first result its projection
  multiplied by the embedding table, the second result the MLP output multiplied by it, the third its residual.
-/
import proofs.«110563_j43284680409676_1_alg».proof.Proof.Gen.ReferenceIdeal.Run
import proofs.«110563_j43284680409676_1_alg».proof.Proof.Spec
import proofs.«110563_j43284680409676_1_alg».proof.Proof.FoldHost

set_option maxRecDepth 16384

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.Value

variable (L : Valuation τ sig (Elt Ideal))

/-- The reference's arguments as the launch contents give them. -/
abbrev rD : Spec.NC := L (Proc.devRef .tc main_arg0)
abbrev rX : Spec.EC := L (Proc.devRef .tc main_arg1)
abbrev rEw : Spec.EW := L (Proc.devRef .tc main_arg2)
abbrev rWg : Spec.WF := L (Proc.devRef .tc main_arg3)
abbrev rWs : Spec.WF := L (Proc.devRef .tc main_arg4)
abbrev rWemb : Spec.WF := L (Proc.devRef .tc main_arg5)
abbrev rEi : IVec Cert.KernelIdeal.S2x1600000 32 := L (Proc.devRef .tc main_arg6)
abbrev rSrc : Spec.IV := Spec.srcIds (rEi L)
abbrev rDst : Spec.IV := Spec.dstIds (rEi L)

/-- One projection step, one MLP step and the residual, at the reference's arguments. -/
abbrev rProj (Z : Spec.EC) : Spec.EC := Spec.projR (rD L) (rSrc L) (rDst L) (rEw L) Z
abbrev rStep (Z : Spec.EC) : Spec.EC := Spec.stepR (rSrc L) (rDst L) (rEw L) (rWg L) (rWs L) Z
abbrev rRes (Z : Spec.EC) : Spec.NC := Spec.residual (rD L) (rSrc L) Z

theorem src_eq : res_main_v1 L = rSrc L := rfl
theorem dst_eq : res_main_v3 L = rDst L := rfl
theorem z0_eq : res_main_v26 L = rProj L (rX L) := rfl
theorem y1_eq : res_main_v61 L = rStep L (res_main_v26 L) := rfl
theorem z1_eq : res_main_v83 L = rProj L (res_main_v61 L) := rfl
theorem y2_eq : res_main_v118 L = rStep L (res_main_v83 L) := rfl
theorem z2_eq : res_main_v140 L = rProj L (res_main_v118 L) := rfl
theorem y3_eq : res_main_v175 L = rStep L (res_main_v140 L) := rfl
theorem r3_eq : res_main_v179 L = rRes L (res_main_v175 L) := rfl

/-- The last MLP output is three rounds of the reference's arrangement from the initial edge table. -/
theorem last_eq : res_main_v175 L = Spec.lastR (rD L) (rSrc L) (rDst L) (rEw L) (rWg L) (rWs L) (rX L) := by
  rw [y3_eq, z2_eq, y2_eq, z1_eq, y1_eq, z0_eq]
  rfl

end Cert.ReferenceIdeal.RefValue

end
-- ==== Proof.Finite.lean ====
/-
  From the precondition to real entries.

  The precondition says of each float argument that every entry's absolute value is below +∞, all six
  conjoined by `and` into one bit that is 1.  An extended real whose absolute value max(x, −x) is below +∞ is
  neither +∞ nor −∞: it is a real number.  So under the precondition every entry of every float argument is real.
-/
import proofs.«110563_j43284680409676_1_alg».proof.Pre_finite_inputs
import proofs.«110563_j43284680409676_1_alg».proof.Proof.LibRealEntries
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Cert.LibRealEntries Cert.Pre_finite_inputs

/-- The word of +∞ denotes +∞. -/
theorem top_word : Ideal.ofBits .f32 0x7F800000#32 = (⊤ : EReal) := by
  simp [Ideal.ofBits, Ideal.ieee]

/-- An extended real whose absolute value is below +∞ is a real number. -/
theorem isReal_of_abs_lt_top (x : EReal) (h : max x (-x) < ⊤) : IsReal x := by
  induction x using EReal.rec with
  | bot => simp at h
  | coe r => exact ⟨r, rfl⟩
  | top => simp at h

instance : Subsingleton S_.Idx := ⟨fun a b => funext fun d => d.elim0⟩

/-- One entry: the comparison |x| < +∞ came out 1, so the entry is real. -/
theorem isReal_of_bit {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) : IsReal (x i) := by
  apply isReal_of_abs_lt_top
  have h' : Ideal.cmp .olt (max (x i) (-(x i))) (Ideal.ofBits .f32 0x7F800000#32) = 1#1 := h
  rw [top_word] at h'
  unfold Ideal.cmp at h'
  by_contra hn
  simp [hn] at h'

/-- Under the precondition every entry of every float argument is a real number. -/
theorem real_of_fn [Facts] (a0 : FVec Ideal S100000x32 .f32) (a1 : FVec Ideal S1600000x32 .f32) (a2 : FVec Ideal S1600000 .f32)
    (a3 a4 a5 : FVec Ideal S32x32 .f32) (a6 : IVec S2x1600000 32)
    (h : fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) := by
  have h0 := congrFun h ValueIdx.ix0
  dsimp only [fn, fn_part1] at h0
  obtain ⟨h1, e5⟩ := IntOp.andi_eq_one.1 h0
  obtain ⟨h2, e4⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  exact ⟨fun i => isReal_of_bit a0 _ i (Host.reduce_andi_all _ _ _ _ _ e0 i),
    fun i => isReal_of_bit a1 _ i (Host.reduce_andi_all _ _ _ _ _ e1 i),
    fun i => isReal_of_bit a2 _ i (Host.reduce_andi_all _ _ _ _ _ e2 i),
    fun i => isReal_of_bit a3 _ i (Host.reduce_andi_all _ _ _ _ _ e3 i),
    fun i => isReal_of_bit a4 _ i (Host.reduce_andi_all _ _ _ _ _ e4 i),
    fun i => isReal_of_bit a5 _ i (Host.reduce_andi_all _ _ _ _ _ e5 i)⟩

end Cert.Finite

end
-- ==== Proof.lean ====
/-
  The certificate: the tiled kernel program and its reference compute the same three results on the extended reals.

  The three frames: the two kernel programs' are the frame certificates of their eight pipelines; the reference's is
  its run with the results dropped.  Nothing was rewritten when the kernel was idealised, so there is nothing to
  preserve.  The value claim: the kernel program's three result buffers end at the last segment boundary's contents,
  which are — pipeline by pipeline and stretch by stretch — three rounds of (projection step, MLP step) in the
  kernel's arrangement, then the embedding; the reference's end at the same rounds in its own arrangement.  The two
  arrangements differ by w·(a − b) = w·a − w·b and z + w·(p − q) = (z + w·p) − w·q, which hold for real numbers; the
  precondition makes every input entry real, a gather's entries are entries of its operand, a scatter-add is a finite
  sum, and tanh of anything is real, so every table met on the way has real entries and the two sides agree.
-/
import proofs.«110563_j43284680409676_1_alg».proof.Defs
import proofs.«110563_j43284680409676_1_alg».proof.Proof.Gen.Kernel
import proofs.«110563_j43284680409676_1_alg».proof.Proof.Gen.Kernel.Frame
import proofs.«110563_j43284680409676_1_alg».proof.Proof.Gen.KernelIdeal
import proofs.«110563_j43284680409676_1_alg».proof.Proof.Gen.KernelIdeal.Frame
import proofs.«110563_j43284680409676_1_alg».proof.Proof.Gen.ReferenceIdeal
import proofs.«110563_j43284680409676_1_alg».proof.Proof.Gen.ReferenceIdeal.Run
import proofs.«110563_j43284680409676_1_alg».proof.Proof.Gen.Pre_finite_inputs
import proofs.«110563_j43284680409676_1_alg».proof.Proof.KernelRun
import proofs.«110563_j43284680409676_1_alg».proof.Proof.FoldDefs
import proofs.«110563_j43284680409676_1_alg».proof.Proof.FoldChain
import proofs.«110563_j43284680409676_1_alg».proof.Proof.Algebra
import proofs.«110563_j43284680409676_1_alg».proof.Proof.RefBridge
import proofs.«110563_j43284680409676_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem
open Cert.Spec Cert.Algebra

/-! ## The three results as functions of the seven arguments -/

/-- The last MLP output: three rounds from the initial edge table. -/
def lastOf (D : NC) (xE : EC) (ew : EW) (Wg Ws : WF) (ei : IVec Cert.KernelIdeal.S2x1600000 32) : EC :=
  lastR D (srcIds ei) (dstIds ei) ew Wg Ws xE

/-- The first result: the last projected table times the embedding table. -/
def result0 (D : NC) (xE : EC) (ew : EW) (Wg Ws Wemb : WF) (ei : IVec Cert.KernelIdeal.S2x1600000 32) : EC :=
  times (projR D (srcIds ei) (dstIds ei) ew (lastOf D xE ew Wg Ws ei)) Wemb

/-- The second result: the last MLP output times the embedding table. -/
def result1 (D : NC) (xE : EC) (ew : EW) (Wg Ws Wemb : WF) (ei : IVec Cert.KernelIdeal.S2x1600000 32) : EC :=
  times (lastOf D xE ew Wg Ws ei) Wemb

/-- The third result: the last residual. -/
def result2 (D : NC) (xE : EC) (ew : EW) (Wg Ws : WF) (ei : IVec Cert.KernelIdeal.S2x1600000 32) : NC :=
  residual D (srcIds ei) (lastOf D xE ew Wg Ws ei)

/-- Equal arguments, equal results. -/
theorem result0_congr {D D' : NC} {xE xE' : EC} {ew ew' : EW} {Wg Wg' Ws Ws' We We' : WF} {ei ei' : IVec Cert.KernelIdeal.S2x1600000 32}
    (h0 : D' = D) (h1 : xE' = xE) (h2 : ew' = ew) (h3 : Wg' = Wg) (h4 : Ws' = Ws) (h5 : We' = We) (h6 : ei' = ei) :
    result0 D' xE' ew' Wg' Ws' We' ei' = result0 D xE ew Wg Ws We ei := by
  subst h0 h1 h2 h3 h4 h5 h6; rfl
theorem result1_congr {D D' : NC} {xE xE' : EC} {ew ew' : EW} {Wg Wg' Ws Ws' We We' : WF} {ei ei' : IVec Cert.KernelIdeal.S2x1600000 32}
    (h0 : D' = D) (h1 : xE' = xE) (h2 : ew' = ew) (h3 : Wg' = Wg) (h4 : Ws' = Ws) (h5 : We' = We) (h6 : ei' = ei) :
    result1 D' xE' ew' Wg' Ws' We' ei' = result1 D xE ew Wg Ws We ei := by
  subst h0 h1 h2 h3 h4 h5 h6; rfl
theorem result2_congr {D D' : NC} {xE xE' : EC} {ew ew' : EW} {Wg Wg' Ws Ws' : WF} {ei ei' : IVec Cert.KernelIdeal.S2x1600000 32}
    (h0 : D' = D) (h1 : xE' = xE) (h2 : ew' = ew) (h3 : Wg' = Wg) (h4 : Ws' = Ws) (h6 : ei' = ei) :
    result2 D' xE' ew' Wg' Ws' ei' = result2 D xE ew Wg Ws ei := by
  subst h0 h1 h2 h3 h4 h6; rfl

/-! ## The kernel program's results -/

section Kernel

open Cert.KernelIdeal Cert.KernelIdeal.Gen Cert.KernelIdeal.Fold

variable (m : (ℓ : Loc nD τ sig) → Buf (Elt Ideal) ℓ) (ρ : Dev nD → PrngReg) (c : Dev nD)

/-- With real inputs the kernel's three rounds are the reference's. -/
theorem kernel_last (hD : AllReal (aD m c)) (hx : AllReal (aX m c)) (hew : AllReal (aEw m c)) (hWg : AllReal (aWg m c))
    (hWs : AllReal (aWs m c)) : Y3 m c = lastOf (aD m c) (aX m c) (aEw m c) (aWg m c) (aWs m c) (aEi m c) :=
  (Y3_eq m c).trans (lastK_eq_lastR (src m c) (dst m c) hD hx hew hWg hWs)

/-- The last boundary's contents at the three result buffers, for real inputs. -/
theorem kernel_results (hD : AllReal (aD m c)) (hx : AllReal (aX m c)) (hew : AllReal (aEw m c)) (hWg : AllReal (aWg m c))
    (hWs : AllReal (aWs m c)) :
    W15 m ρ c (Proc.devRef .tc main_v167_0) = result0 (aD m c) (aX m c) (aEw m c) (aWg m c) (aWs m c) (aWemb m c) (aEi m c)
    ∧ W15 m ρ c (Proc.devRef .tc main_v167_1) = result1 (aD m c) (aX m c) (aEw m c) (aWg m c) (aWs m c) (aWemb m c) (aEi m c)
    ∧ W15 m ρ c (Proc.devRef .tc main_v146) = result2 (aD m c) (aX m c) (aEw m c) (aWg m c) (aWs m c) (aEi m c) := by
  have eY := kernel_last m c hD hx hew hWg hWs
  refine ⟨(out0 m ρ c).trans ?_, (out1 m ρ c).trans ?_, (out2 m ρ c).trans ?_⟩
  · show times (projK (aD m c) (src m c) (dst m c) (aEw m c) (Y3 m c)) (narrow (aWemb m c)) = _
    rw [eY]
    exact (times_narrow _ _).trans (congrArg (fun Z => times Z (aWemb m c)) (proj_last (src m c) (dst m c) hD hew hWg hWs))
  · rw [eY]; exact times_narrow _ _
  · show residual (aD m c) (src m c) (Y3 m c) = _
    rw [eY]; rfl

end Kernel

/-! ## The reference's results -/

section Reference

open Cert.ReferenceIdeal Cert.ReferenceIdeal.Gen Cert.ReferenceIdeal.Value Cert.ReferenceIdeal.RefValue

variable (L : Valuation τ sig (Elt Ideal))

theorem ref_last : res_main_v175 L = lastOf (rD L) (rX L) (rEw L) (rWg L) (rWs L) (rEi L) := last_eq L

/-- The reference's first result buffer after its operations. -/
theorem ref_out0 : val4 L (Proc.devRef .tc main_v198) = result0 (rD L) (rX L) (rEw L) (rWg L) (rWs L) (rWemb L) (rEi L) :=
  (val4_main_v198 L).trans (by
    show times (rProj L (res_main_v175 L)) (rWemb L) = _
    rw [ref_last]; rfl)
/-- Its second. -/
theorem ref_out1 : val4 L (Proc.devRef .tc main_v199) = result1 (rD L) (rX L) (rEw L) (rWg L) (rWs L) (rWemb L) (rEi L) :=
  (val4_main_v199 L).trans (by
    show times (res_main_v175 L) (rWemb L) = _
    rw [ref_last]; rfl)
/-- Its third. -/
theorem ref_out2 : val4 L (Proc.devRef .tc main_v179) = result2 (rD L) (rX L) (rEw L) (rWg L) (rWs L) (rEi L) :=
  (val4_main_v179 L).trans (by
    show rRes L (res_main_v175 L) = _
    rw [ref_last]; rfl)

end Reference

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem algebraic : Cert.algebraic_KernelIdeal_ReferenceIdeal := by
  intro m ρ m' ρ' hpre hagree
  refine ⟨fun c => result0 (Cert.KernelIdeal.Fold.aD m c) (Cert.KernelIdeal.Fold.aX m c) (Cert.KernelIdeal.Fold.aEw m c) (Cert.KernelIdeal.Fold.aWg m c) (Cert.KernelIdeal.Fold.aWs m c) (Cert.KernelIdeal.Fold.aWemb m c) (Cert.KernelIdeal.Fold.aEi m c),
    fun c => result1 (Cert.KernelIdeal.Fold.aD m c) (Cert.KernelIdeal.Fold.aX m c) (Cert.KernelIdeal.Fold.aEw m c) (Cert.KernelIdeal.Fold.aWg m c) (Cert.KernelIdeal.Fold.aWs m c) (Cert.KernelIdeal.Fold.aWemb m c) (Cert.KernelIdeal.Fold.aEi m c),
    fun c => result2 (Cert.KernelIdeal.Fold.aD m c) (Cert.KernelIdeal.Fold.aX m c) (Cert.KernelIdeal.Fold.aEw m c) (Cert.KernelIdeal.Fold.aWg m c) (Cert.KernelIdeal.Fold.aWs m c) (Cert.KernelIdeal.Fold.aEi m c), ?_, ?_⟩
  · refine (θ_run Cert.KernelIdeal.defs _ _).mono (fun r h c => ?_) (Cert.KernelIdeal.Named.run_named (F := Ideal) m ρ)
    obtain ⟨r0, r1, r2, r3, r4, -⟩ := Cert.Finite.real_of_fn _ _ _ _ _ _ _ (hpre c)
    obtain ⟨k0, k1, k2⟩ := kernel_results m ρ c r0 r1 r2 r3 r4
    exact ⟨(h c).1.trans k0, (h c).2.1.trans k1, (h c).2.2.1.trans k2, (h c).2.2.2⟩
  · refine (θ_run Cert.ReferenceIdeal.defs _ _).mono (fun r h c => ?_) (Cert.ReferenceIdeal.Value.run (F := Ideal) m' ρ')
    obtain ⟨a0, a1, a2, a3, a4, a5, a6⟩ := hagree c
    exact ⟨(h c).1.trans (((Cert.ReferenceIdeal.Value.val4_main_v198 _).symm.trans (ref_out0 _)).trans (result0_congr a0 a1 a2 a3 a4 a5 a6)),
      (h c).2.1.trans (((Cert.ReferenceIdeal.Value.val4_main_v199 _).symm.trans (ref_out1 _)).trans (result1_congr a0 a1 a2 a3 a4 a5 a6)),
      (h c).2.2.1.trans (((Cert.ReferenceIdeal.Value.val4_main_v179 _).symm.trans (ref_out2 _)).trans (result2_congr a0 a1 a2 a3 a4 a6)),
      (h c).2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
